-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x128x128 : Shape := ⟨3, ![32, 128, 128]⟩
abbrev S4x192 : Shape := ⟨2, ![4, 192]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel
  bcast_S_S32x128x128 : S_.BroadcastsInDim S32x128x128 (![] : Fin 0 → Fin S32x128x128.rank)
  reducesTo_S32x128x128_S_d0_1_2 : S32x128x128.ReducesTo [0, 1, 2] S_
  bcast_S_S4x192 : S_.BroadcastsInDim S4x192 (![] : Fin 0 → Fin S4x192.rank)
  reducesTo_S4x192_S_d0_1 : S4x192.ReducesTo [0, 1] S_

variable [Facts]

def fn {F : FTy → Type} [FloatOps F] (main_arg0 : FVec F S32x3x512x512 .f32) (main_arg1 : FVec F S32x128x128 .f32) (main_arg2 : FVec F S4x192 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x128x128 .f32 := Host.absf main_arg1
  let main_cst_0 : FVec F S_ .f32 := constant S_ .f32 0x7F800000#32
  let main_v5 : FVec F S32x128x128 .f32 := broadcastInDim S32x128x128 ![] bcast_S_S32x128x128 main_cst_0
  let main_v6 : IVec S32x128x128 1 := cmpf .olt main_v4 main_v5
  let main_c_1 : IVec S_ 1 := constantI S_ 1 1#1
  let main_v7 : IVec S_ 1 := (fun x v => Host.reduce IntOp.andi x v reducesTo_S32x128x128_S_d0_1_2 h_S_) main_v6 main_c_1
  let main_v8 : IVec S_ 1 := andi main_v3 main_v7
  let main_v9 : FVec F S4x192 .f32 := Host.absf main_arg2
  let main_cst_2 : FVec F S_ .f32 := constant S_ .f32 0x7F800000#32
  let main_v10 : FVec F S4x192 .f32 := broadcastInDim S4x192 ![] bcast_S_S4x192 main_cst_2
  let main_v11 : IVec S4x192 1 := cmpf .olt main_v9 main_v10
  let main_c_3 : IVec S_ 1 := constantI S_ 1 1#1
  let main_v12 : IVec S_ 1 := (fun x v => Host.reduce IntOp.andi x v reducesTo_S4x192_S_d0_1 h_S_) main_v11 main_c_3
  let main_v13 : IVec S_ 1 := andi main_v8 main_v12
  main_v13
-- ==== Kernel.lean ====
abbrev S32x3x512x512 : Shape := ⟨4, ![32, 3, 512, 512]⟩
abbrev S32x128x128 : Shape := ⟨3, ![32, 128, 128]⟩
abbrev S4x192 : Shape := ⟨2, ![4, 192]⟩
abbrev S4x3x8x8 : Shape := ⟨4, ![4, 3, 8, 8]⟩
abbrev S1x4x1x3x1x8x1x8 : Shape := ⟨8, ![1, 4, 1, 3, 1, 8, 1, 8]⟩
abbrev S1x4x1x3x1x8x64x8 : Shape := ⟨8, ![1, 4, 1, 3, 1, 8, 64, 8]⟩
abbrev S4x3x8x512 : Shape := ⟨4, ![4, 3, 8, 512]⟩
abbrev S32x64x2x128 : Shape := ⟨4, ![32, 64, 2, 128]⟩
abbrev S32x2x64x128 : Shape := ⟨4, ![32, 2, 64, 128]⟩
abbrev S512 : Shape := ⟨1, ![512]⟩
abbrev S512x1 : Shape := ⟨2, ![512, 1]⟩
abbrev S_ : Shape := ⟨0, ![]⟩
abbrev S128 : Shape := ⟨1, ![128]⟩
abbrev S1x128 : Shape := ⟨2, ![1, 128]⟩
abbrev S512x128 : Shape := ⟨2, ![512, 128]⟩
abbrev S128x1 : Shape := ⟨2, ![128, 1]⟩
abbrev S64 : Shape := ⟨1, ![64]⟩
abbrev S1x64 : Shape := ⟨2, ![1, 64]⟩
abbrev S128x64 : Shape := ⟨2, ![128, 64]⟩
abbrev S32x4x64x64 : Shape := ⟨4, ![32, 4, 64, 64]⟩
abbrev S1x3x512x512 : Shape := ⟨4, ![1, 3, 512, 512]⟩
abbrev S1x2x64x128 : Shape := ⟨4, ![1, 2, 64, 128]⟩
abbrev S1x4x64x64 : Shape := ⟨4, ![1, 4, 64, 64]⟩
abbrev S1x1x512x512 : Shape := ⟨4, ![1, 1, 512, 512]⟩
abbrev S512x512 : Shape := ⟨2, ![512, 512]⟩
abbrev S64x8x512 : Shape := ⟨3, ![64, 8, 512]⟩
abbrev S1x1x8x512 : Shape := ⟨4, ![1, 1, 8, 512]⟩
abbrev S8x512 : Shape := ⟨2, ![8, 512]⟩
abbrev S1x8x512 : Shape := ⟨3, ![1, 8, 512]⟩
abbrev S64x4x512 : Shape := ⟨3, ![64, 4, 512]⟩
abbrev S64x512 : Shape := ⟨2, ![64, 512]⟩
abbrev S64x128 : Shape := ⟨2, ![64, 128]⟩
abbrev S1x1x64x128 : Shape := ⟨4, ![1, 1, 64, 128]⟩
abbrev S64x64 : Shape := ⟨2, ![64, 64]⟩
abbrev S1x1x64x64 : Shape := ⟨4, ![1, 1, 64, 64]⟩

abbrev nBuf : Space → Nat
  | .hbm => 63
  | .vmem => 11
  | .smem => 0
  | _ => 0

abbrev bufTy : (tb : Table) → Fin (tcTables nBuf tb) → BufTy
  | .hbm, ⟨0, _⟩ => ⟨S32x3x512x512, .f32⟩
  | .hbm, ⟨1, _⟩ => ⟨S32x128x128, .f32⟩
  | .hbm, ⟨2, _⟩ => ⟨S4x192, .f32⟩
  | .hbm, ⟨3, _⟩ => ⟨S4x3x8x8, .f32⟩
  | .hbm, ⟨4, _⟩ => ⟨S1x4x1x3x1x8x1x8, .f32⟩
  | .hbm, ⟨5, _⟩ => ⟨S1x4x1x3x1x8x64x8, .f32⟩
  | .hbm, ⟨6, _⟩ => ⟨S4x3x8x512, .f32⟩
  | .hbm, ⟨7, _⟩ => ⟨S32x64x2x128, .f32⟩
  | .hbm, ⟨8, _⟩ => ⟨S32x2x64x128, .f32⟩
  | .hbm, ⟨9, _⟩ => ⟨S512, .i32⟩
  | .hbm, ⟨10, _⟩ => ⟨S512x1, .i32⟩
  | .hbm, ⟨11, _⟩ => ⟨S_, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i32⟩
  | .hbm, ⟨28, _⟩ => ⟨S512x1, .i32⟩
  | .hbm, ⟨29, _⟩ => ⟨S128, .i32⟩
  | .hbm, ⟨30, _⟩ => ⟨S1x128, .i32⟩
  | .hbm, ⟨31, _⟩ => ⟨S512x128, .i32⟩
  | .hbm, ⟨32, _⟩ => ⟨S512x128, .i32⟩
  | .hbm, ⟨33, _⟩ => ⟨S512x128, .i1⟩
  | .hbm, ⟨34, _⟩ => ⟨S512x128, .f32⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i1⟩
  | .hbm, ⟨45, _⟩ => ⟨S128x1, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i1⟩
  | .hbm, ⟨50, _⟩ => ⟨S128x1, .i1⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S64, .i32⟩
  | .hbm, ⟨56, _⟩ => ⟨S1x64, .i32⟩
  | .hbm, ⟨57, _⟩ => ⟨S128x64, .i32⟩
  | .hbm, ⟨58, _⟩ => ⟨S128x64, .i32⟩
  | .hbm, ⟨59, _⟩ => ⟨S128x64, .i1⟩
  | .hbm, ⟨60, _⟩ => ⟨S128x64, .f32⟩
  | .hbm, ⟨61, _⟩ => ⟨S32x4x64x64, .f32⟩
  | .hbm, ⟨62, _⟩ => ⟨S32x4x64x64, .f32⟩
  | .local _ .vmem, ⟨0, _⟩ => ⟨S1x3x512x512, .f32⟩
  | .local _ .vmem, ⟨1, _⟩ => ⟨S1x3x512x512, .f32⟩
  | .local _ .vmem, ⟨2, _⟩ => ⟨S1x2x64x128, .f32⟩
  | .local _ .vmem, ⟨3, _⟩ => ⟨S1x2x64x128, .f32⟩
  | .local _ .vmem, ⟨4, _⟩ => ⟨S4x3x8x512, .f32⟩
  | .local _ .vmem, ⟨5, _⟩ => ⟨S512x128, .f32⟩
  | .local _ .vmem, ⟨6, _⟩ => ⟨S128x64, .f32⟩
  | .local _ .vmem, ⟨7, _⟩ => ⟨S1x4x64x64, .f32⟩
  | .local _ .vmem, ⟨8, _⟩ => ⟨S1x4x64x64, .f32⟩
  | .local _ .vmem, ⟨9, _⟩ => ⟨S1x4x64x64, .f32⟩
  | .local _ .vmem, ⟨10, _⟩ => ⟨S1x4x64x64, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24_0 : Ref sig .tc := ⟨.hbm, 61, rfl⟩
abbrev main_v24_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x192_S4x3x8x8 : S4x192.ShapeCasts S4x3x8x8
  shapeCasts_S4x3x8x8_S1x4x1x3x1x8x1x8 : S4x3x8x8.ShapeCasts S1x4x1x3x1x8x1x8
  bcast_S1x4x1x3x1x8x1x8_S1x4x1x3x1x8x64x8_0_1_2_3_4_5_6_7 : S1x4x1x3x1x8x1x8.BroadcastsInDim S1x4x1x3x1x8x64x8 (![0, 1, 2, 3, 4, 5, 6, 7] : Fin 8 → Fin S1x4x1x3x1x8x64x8.rank)
  shapeCasts_S1x4x1x3x1x8x64x8_S4x3x8x512 : S1x4x1x3x1x8x64x8.ShapeCasts S4x3x8x512
  shapeCasts_S32x128x128_S32x64x2x128 : S32x128x128.ShapeCasts S32x64x2x128
  transposes_S32x64x2x128_S32x2x64x128_0_2_1_3 : S32x64x2x128.Transposes [0, 2, 1, 3] S32x2x64x128
  bcast_S512_S512x1_0 : S512.BroadcastsInDim S512x1 (![0] : Fin 1 → Fin S512x1.rank)
  bcast_S_S512x1 : S_.BroadcastsInDim S512x1 (![] : Fin 0 → Fin S512x1.rank)
  bcast_S128_S1x128_1 : S128.BroadcastsInDim S1x128 (![1] : Fin 1 → Fin S1x128.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S128_S128x1_0 : S128.BroadcastsInDim S128x1 (![0] : Fin 1 → Fin S128x1.rank)
  bcast_S_S128x1 : S_.BroadcastsInDim S128x1 (![] : Fin 0 → Fin S128x1.rank)
  bcast_S64_S1x64_1 : S64.BroadcastsInDim S1x64 (![1] : Fin 1 → Fin S1x64.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  shapeCasts_S512x512_S64x8x512 : S512x512.ShapeCasts S64x8x512
  inb_S4x3x8x512_S1x1x8x512_0_0_0_0 : ∀ a, (![0, 0, 0, 0] : Fin 4 → Nat) a + S1x1x8x512.size a ≤ S4x3x8x512.size a
  h_S1x1x8x512 : 0 < S1x1x8x512.numel
  shapeCasts_S1x1x8x512_S8x512 : S1x1x8x512.ShapeCasts S8x512
  shapeCasts_S8x512_S1x8x512 : S8x512.ShapeCasts S1x8x512
  broadcasts_S1x8x512_S64x8x512 : S1x8x512.Broadcasts S64x8x512
  inb_S1x3x512x512_S1x1x512x512_0_1_0_0 : ∀ a, (![0, 1, 0, 0] : Fin 4 → Nat) a + S1x1x512x512.size a ≤ S1x3x512x512.size a
  inb_S4x3x8x512_S1x1x8x512_0_1_0_0 : ∀ a, (![0, 1, 0, 0] : Fin 4 → Nat) a + S1x1x8x512.size a ≤ S4x3x8x512.size a
  inb_S1x3x512x512_S1x1x512x512_0_2_0_0 : ∀ a, (![0, 2, 0, 0] : Fin 4 → Nat) a + S1x1x512x512.size a ≤ S1x3x512x512.size a
  inb_S4x3x8x512_S1x1x8x512_0_2_0_0 : ∀ a, (![0, 2, 0, 0] : Fin 4 → Nat) a + S1x1x8x512.size a ≤ S4x3x8x512.size a
  slices_S64x8x512_o0_0_0_S64x4x512 : S64x8x512.Slices ![0, 0, 0] S64x4x512
  reduces_S64x4x512_S64x512 : S64x4x512.Reduces [1] S64x512
  inb_S1x2x64x128_S1x1x64x128_0_0_0_0 : ∀ a, (![0, 0, 0, 0] : Fin 4 → Nat) a + S1x1x64x128.size a ≤ S1x2x64x128.size a
  h_S1x1x64x128 : 0 < S1x1x64x128.numel
  shapeCasts_S1x1x64x128_S64x128 : S1x1x64x128.ShapeCasts S64x128
  slices_S64x8x512_o0_4_0_S64x4x512 : S64x8x512.Slices ![0, 4, 0] S64x4x512
  inb_S1x2x64x128_S1x1x64x128_0_1_0_0 : ∀ a, (![0, 1, 0, 0] : Fin 4 → Nat) a + S1x1x64x128.size a ≤ S1x2x64x128.size a
  inb_S1x4x64x64_S1x1x64x64_0_0_0_0 : ∀ a, (![0, 0, 0, 0] : Fin 4 → Nat) a + S1x1x64x64.size a ≤ S1x4x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S4x3x8x512_S1x1x8x512_1_0_0_0 : ∀ a, (![1, 0, 0, 0] : Fin 4 → Nat) a + S1x1x8x512.size a ≤ S4x3x8x512.size a
  inb_S4x3x8x512_S1x1x8x512_1_1_0_0 : ∀ a, (![1, 1, 0, 0] : Fin 4 → Nat) a + S1x1x8x512.size a ≤ S4x3x8x512.size a
  inb_S4x3x8x512_S1x1x8x512_1_2_0_0 : ∀ a, (![1, 2, 0, 0] : Fin 4 → Nat) a + S1x1x8x512.size a ≤ S4x3x8x512.size a
  inb_S1x4x64x64_S1x1x64x64_0_1_0_0 : ∀ a, (![0, 1, 0, 0] : Fin 4 → Nat) a + S1x1x64x64.size a ≤ S1x4x64x64.size a
  inb_S4x3x8x512_S1x1x8x512_2_0_0_0 : ∀ a, (![2, 0, 0, 0] : Fin 4 → Nat) a + S1x1x8x512.size a ≤ S4x3x8x512.size a
  inb_S4x3x8x512_S1x1x8x512_2_1_0_0 : ∀ a, (![2, 1, 0, 0] : Fin 4 → Nat) a + S1x1x8x512.size a ≤ S4x3x8x512.size a
  inb_S4x3x8x512_S1x1x8x512_2_2_0_0 : ∀ a, (![2, 2, 0, 0] : Fin 4 → Nat) a + S1x1x8x512.size a ≤ S4x3x8x512.size a
  inb_S1x4x64x64_S1x1x64x64_0_2_0_0 : ∀ a, (![0, 2, 0, 0] : Fin 4 → Nat) a + S1x1x64x64.size a ≤ S1x4x64x64.size a
  inb_S4x3x8x512_S1x1x8x512_3_0_0_0 : ∀ a, (![3, 0, 0, 0] : Fin 4 → Nat) a + S1x1x8x512.size a ≤ S4x3x8x512.size a
  inb_S4x3x8x512_S1x1x8x512_3_1_0_0 : ∀ a, (![3, 1, 0, 0] : Fin 4 → Nat) a + S1x1x8x512.size a ≤ S4x3x8x512.size a
  inb_S4x3x8x512_S1x1x8x512_3_2_0_0 : ∀ a, (![3, 2, 0, 0] : Fin 4 → Nat) a + S1x1x8x512.size a ≤ S4x3x8x512.size a
  inb_S1x4x64x64_S1x1x64x64_0_3_0_0 : ∀ a, (![0, 3, 0, 0] : Fin 4 → Nat) a + S1x1x64x64.size a ≤ S1x4x64x64.size a
  dot_S64x512_S512x128_S64x128_1_0_0_1_n_n_wf : DotDims.WF S64x512 S512x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S32x3x512x512.size a
  hwx0_0 : ∀ i : grid0.Coords, EltTy.bits .f32 = 32 ∨ (Rect.block (s := S32x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x64x128.size a ≤ S32x2x64x128.size a
  hwx0_1 : ∀ i : grid0.Coords, EltTy.bits .f32 = 32 ∨ (Rect.block (s := S32x2x64x128) S1x2x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x3x8x512.size a ≤ S4x3x8x512.size a
  hwx0_2 : ∀ i : grid0.Coords, EltTy.bits .f32 = 32 ∨ (Rect.block (s := S4x3x8x512) S4x3x8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x64x64.size a ≤ S32x4x64x64.size a
  hwx0_5 : ∀ i : grid0.Coords, EltTy.bits .f32 = 32 ∨ (Rect.block (s := S32x4x64x64) S1x4x64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x64x64.size a ≤ S32x4x64x64.size a
  hwx0_6 : ∀ i : grid0.Coords, EltTy.bits .f32 = 32 ∨ (Rect.block (s := S32x4x64x64) S1x4x64x64.size (cc0_transform_6 i) (hinb0_6 i)).WholeWords (EltTy.packing .f32)

variable [Facts₀]

def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x3x8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S1x4x64x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x4x64x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x128x128 : Shape := ⟨3, ![32, 128, 128]⟩
abbrev S4x192 : Shape := ⟨2, ![4, 192]⟩
abbrev S32x3x64x8x64x8 : Shape := ⟨6, ![32, 3, 64, 8, 64, 8]⟩
abbrev S3x8x8x32x64x64 : Shape := ⟨6, ![3, 8, 8, 32, 64, 64]⟩
abbrev S192x131072 : Shape := ⟨2, ![192, 131072]⟩
abbrev S64 : Shape := ⟨1, ![64]⟩
abbrev S64x1 : Shape := ⟨2, ![64, 1]⟩
abbrev S_ : Shape := ⟨0, ![]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S32x64x8x128 : Shape := ⟨4, ![32, 64, 8, 128]⟩
abbrev S32x64x8x64x8 : Shape := ⟨5, ![32, 64, 8, 64, 8]⟩
abbrev S8x8x32x64x64 : Shape := ⟨5, ![8, 8, 32, 64, 64]⟩
abbrev S64x131072 : Shape := ⟨2, ![64, 131072]⟩
abbrev S8x131072 : Shape := ⟨2, ![8, 131072]⟩
abbrev S192x4096 : Shape := ⟨2, ![192, 4096]⟩
abbrev S64x4096 : Shape := ⟨2, ![64, 4096]⟩
abbrev S8x4096 : Shape := ⟨2, ![8, 4096]⟩
abbrev S4x4096 : Shape := ⟨2, ![4, 4096]⟩
abbrev S4x131072 : Shape := ⟨2, ![4, 131072]⟩
abbrev S4x32x64x64 : Shape := ⟨4, ![4, 32, 64, 64]⟩
abbrev S32x4x64x64 : Shape := ⟨4, ![32, 4, 64, 64]⟩

abbrev nBuf : Space → Nat
  | .hbm => 95
  | .vmem => 7
  | .smem => 0
  | _ => 0

abbrev bufTy : (tb : Table) → Fin (tcTables nBuf tb) → BufTy
  | .hbm, ⟨0, _⟩ => ⟨S32x3x512x512, .f32⟩
  | .hbm, ⟨1, _⟩ => ⟨S32x128x128, .f32⟩
  | .hbm, ⟨2, _⟩ => ⟨S4x192, .f32⟩
  | .hbm, ⟨3, _⟩ => ⟨S32x3x64x8x64x8, .f32⟩
  | .hbm, ⟨4, _⟩ => ⟨S3x8x8x32x64x64, .f32⟩
  | .hbm, ⟨5, _⟩ => ⟨S192x131072, .f32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S8, .i32⟩
  | .hbm, ⟨12, _⟩ => ⟨S1x8, .i32⟩
  | .hbm, ⟨13, _⟩ => ⟨S64x8, .i32⟩
  | .hbm, ⟨14, _⟩ => ⟨S64x8, .i32⟩
  | .hbm, ⟨15, _⟩ => ⟨S64x8, .i32⟩
  | .hbm, ⟨16, _⟩ => ⟨S_, .i32⟩
  | .hbm, ⟨17, _⟩ => ⟨S64x8, .i32⟩
  | .hbm, ⟨18, _⟩ => ⟨S64x8, .i32⟩
  | .hbm, ⟨19, _⟩ => ⟨S_, .i32⟩
  | .hbm, ⟨20, _⟩ => ⟨S_, .i32⟩
  | .hbm, ⟨21, _⟩ => ⟨S64x8, .i32⟩
  | .hbm, ⟨22, _⟩ => ⟨S64x8, .i32⟩
  | .hbm, ⟨23, _⟩ => ⟨S64x8, .i32⟩
  | .hbm, ⟨24, _⟩ => ⟨S_, .i32⟩
  | .hbm, ⟨25, _⟩ => ⟨S64x8, .i32⟩
  | .hbm, ⟨26, _⟩ => ⟨S64x8, .i1⟩
  | .hbm, ⟨27, _⟩ => ⟨S64x8, .i32⟩
  | .hbm, ⟨28, _⟩ => ⟨S64x8, .i32⟩
  | .hbm, ⟨29, _⟩ => ⟨S_, .i32⟩
  | .hbm, ⟨30, _⟩ => ⟨S64x8, .i32⟩
  | .hbm, ⟨31, _⟩ => ⟨S64x8, .i1⟩
  | .hbm, ⟨32, _⟩ => ⟨S64x8, .i1⟩
  | .hbm, ⟨33, _⟩ => ⟨S_, .i32⟩
  | .hbm, ⟨34, _⟩ => ⟨S64x8, .i32⟩
  | .hbm, ⟨35, _⟩ => ⟨S64x8, .i32⟩
  | .hbm, ⟨36, _⟩ => ⟨S64x8, .i32⟩
  | .hbm, ⟨37, _⟩ => ⟨S64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S8, .i32⟩
  | .hbm, ⟨43, _⟩ => ⟨S1x8, .i32⟩
  | .hbm, ⟨44, _⟩ => ⟨S64x8, .i32⟩
  | .hbm, ⟨45, _⟩ => ⟨S64x8, .i32⟩
  | .hbm, ⟨46, _⟩ => ⟨S64x8, .i32⟩
  | .hbm, ⟨47, _⟩ => ⟨S_, .i32⟩
  | .hbm, ⟨48, _⟩ => ⟨S64x8, .i32⟩
  | .hbm, ⟨49, _⟩ => ⟨S64x8, .i32⟩
  | .hbm, ⟨50, _⟩ => ⟨S_, .i32⟩
  | .hbm, ⟨51, _⟩ => ⟨S_, .i32⟩
  | .hbm, ⟨52, _⟩ => ⟨S64x8, .i32⟩
  | .hbm, ⟨53, _⟩ => ⟨S64x8, .i32⟩
  | .hbm, ⟨54, _⟩ => ⟨S64x8, .i32⟩
  | .hbm, ⟨55, _⟩ => ⟨S_, .i32⟩
  | .hbm, ⟨56, _⟩ => ⟨S64x8, .i32⟩
  | .hbm, ⟨57, _⟩ => ⟨S64x8, .i1⟩
  | .hbm, ⟨58, _⟩ => ⟨S64x8, .i32⟩
  | .hbm, ⟨59, _⟩ => ⟨S64x8, .i32⟩
  | .hbm, ⟨60, _⟩ => ⟨S_, .i32⟩
  | .hbm, ⟨61, _⟩ => ⟨S64x8, .i32⟩
  | .hbm, ⟨62, _⟩ => ⟨S64x8, .i1⟩
  | .hbm, ⟨63, _⟩ => ⟨S64x8, .i1⟩
  | .hbm, ⟨64, _⟩ => ⟨S_, .i32⟩
  | .hbm, ⟨65, _⟩ => ⟨S64x8, .i32⟩
  | .hbm, ⟨66, _⟩ => ⟨S64x8, .i32⟩
  | .hbm, ⟨67, _⟩ => ⟨S64x8, .i32⟩
  | .hbm, ⟨68, _⟩ => ⟨S_, .i32⟩
  | .hbm, ⟨69, _⟩ => ⟨S64x8, .i32⟩
  | .hbm, ⟨70, _⟩ => ⟨S64x8, .i1⟩
  | .hbm, ⟨71, _⟩ => ⟨S_, .i32⟩
  | .hbm, ⟨72, _⟩ => ⟨S64x8, .i32⟩
  | .hbm, ⟨73, _⟩ => ⟨S64x8, .i32⟩
  | .hbm, ⟨74, _⟩ => ⟨S64x8, .i32⟩
  | .hbm, ⟨75, _⟩ => ⟨S64x8x1, .i32⟩
  | .hbm, ⟨76, _⟩ => ⟨S32x64x8x128, .f32⟩
  | .hbm, ⟨77, _⟩ => ⟨S_, .i32⟩
  | .hbm, ⟨78, _⟩ => ⟨S64x8, .i32⟩
  | .hbm, ⟨79, _⟩ => ⟨S64x8, .i1⟩
  | .hbm, ⟨80, _⟩ => ⟨S_, .i32⟩
  | .hbm, ⟨81, _⟩ => ⟨S64x8, .i32⟩
  | .hbm, ⟨82, _⟩ => ⟨S64x8, .i32⟩
  | .hbm, ⟨83, _⟩ => ⟨S64x8, .i32⟩
  | .hbm, ⟨84, _⟩ => ⟨S64x8x1, .i32⟩
  | .hbm, ⟨85, _⟩ => ⟨S32x64x8x64x8, .f32⟩
  | .hbm, ⟨86, _⟩ => ⟨S8x8x32x64x64, .f32⟩
  | .hbm, ⟨87, _⟩ => ⟨S64x131072, .f32⟩
  | .hbm, ⟨88, _⟩ => ⟨S8x131072, .f32⟩
  | .hbm, ⟨89, _⟩ => ⟨S4x131072, .f32⟩
  | .hbm, ⟨90, _⟩ => ⟨S4x32x64x64, .f32⟩
  | .hbm, ⟨91, _⟩ => ⟨S32x4x64x64, .f32⟩
  | .hbm, ⟨92, _⟩ => ⟨S4x131072, .f32⟩
  | .hbm, ⟨93, _⟩ => ⟨S4x32x64x64, .f32⟩
  | .hbm, ⟨94, _⟩ => ⟨S32x4x64x64, .f32⟩
  | .local _ .vmem, ⟨0, _⟩ => ⟨S192x4096, .f32⟩
  | .local _ .vmem, ⟨1, _⟩ => ⟨S192x4096, .f32⟩
  | .local _ .vmem, ⟨2, _⟩ => ⟨S64x4096, .f32⟩
  | .local _ .vmem, ⟨3, _⟩ => ⟨S64x4096, .f32⟩
  | .local _ .vmem, ⟨4, _⟩ => ⟨S4x192, .f32⟩
  | .local _ .vmem, ⟨5, _⟩ => ⟨S8x4096, .f32⟩
  | .local _ .vmem, ⟨6, _⟩ => ⟨S8x4096, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v26 : Ref sig .tc := ⟨.hbm, 67, rfl⟩
abbrev main_c_5 : Ref sig .tc := ⟨.hbm, 68, rfl⟩
abbrev main_v27 : Ref sig .tc := ⟨.hbm, 69, rfl⟩
abbrev main_v28 : Ref sig .tc := ⟨.hbm, 70, rfl⟩
abbrev main_c_6 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_7 : Ref sig .tc := ⟨.hbm, 77, rfl⟩
abbrev main_v34 : Ref sig .tc := ⟨.hbm, 78, rfl⟩
abbrev main_v35 : Ref sig .tc := ⟨.hbm, 79, rfl⟩
abbrev main_c_8 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x3x512x512_S32x3x64x8x64x8 : S32x3x512x512.ShapeCasts S32x3x64x8x64x8
  transposes_S32x3x64x8x64x8_S3x8x8x32x64x64_1_3_5_0_2_4 : S32x3x64x8x64x8.Transposes [1, 3, 5, 0, 2, 4] S3x8x8x32x64x64
  shapeCasts_S3x8x8x32x64x64_S192x131072 : S3x8x8x32x64x64.ShapeCasts S192x131072
  bcast_S64_S64x1_0 : S64.BroadcastsInDim S64x1 (![0] : Fin 1 → Fin S64x1.rank)
  bcast_S_S64x1 : S_.BroadcastsInDim S64x1 (![] : Fin 0 → Fin S64x1.rank)
  bcast_S8_S1x8_1 : S8.BroadcastsInDim S1x8 (![1] : Fin 1 → Fin S1x8.rank)
  bcast_S64x1_S64x8_0_1 : S64x1.BroadcastsInDim S64x8 (![0, 1] : Fin 2 → Fin S64x8.rank)
  bcast_S1x8_S64x8_0_1 : S1x8.BroadcastsInDim S64x8 (![0, 1] : Fin 2 → Fin S64x8.rank)
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  transposes_S32x64x8x64x8_S8x8x32x64x64_2_4_0_1_3 : S32x64x8x64x8.Transposes [2, 4, 0, 1, 3] S8x8x32x64x64
  shapeCasts_S8x8x32x64x64_S64x131072 : S8x8x32x64x64.ShapeCasts S64x131072
  inb_S192x4096_S192x4096_0_0 : ∀ a, (![0, 0] : Fin 2 → Nat) a + S192x4096.size a ≤ S192x4096.size a
  h_S192x4096 : 0 < S192x4096.numel
  shapeCasts_S192x4096_S192x4096 : S192x4096.ShapeCasts S192x4096
  inb_S4x192_S4x192_0_0 : ∀ a, (![0, 0] : Fin 2 → Nat) a + S4x192.size a ≤ S4x192.size a
  h_S4x192 : 0 < S4x192.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  concatenates_S64x4096_S64x4096_S64x4096_S192x4096_d0 : Shape.Concatenates [S64x4096, S64x4096, S64x4096] S192x4096 0
  concatenates_S4x4096_S4x4096_S8x4096_d0 : Shape.Concatenates [S4x4096, S4x4096] S8x4096 0
  inb_S8x4096_S8x4096_0_0 : ∀ a, (![0, 0] : Fin 2 → Nat) a + S8x4096.size a ≤ S8x4096.size a
  h_S8x4096 : 0 < S8x4096.numel
  slices_S8x131072_S4x131072_0_0 : S8x131072.Slices ![0, 0] S4x131072
  shapeCasts_S4x131072_S4x32x64x64 : S4x131072.ShapeCasts S4x32x64x64
  transposes_S4x32x64x64_S32x4x64x64_1_0_2_3 : S4x32x64x64.Transposes [1, 0, 2, 3] S32x4x64x64
  slices_S8x131072_S4x131072_4_0 : S8x131072.Slices ![4, 0] S4x131072
  gather_S32x128x128_S64x8x1_S32x64x8x128_03_1_n_n_1_2_321128_wf : GatherDims.WF S32x128x128 S64x8x1 S32x64x8x128 [0, 3] [1] [] [1] [] 2 ![32, 1, 128]
  gather_S32x64x8x128_S64x8x1_S32x64x8x64x8_012_3_n_n_3_2_326481_wf : GatherDims.WF S32x64x8x128 S64x8x1 S32x64x8x64x8 [0, 1, 2] [3] [] [3] [] 2 ![32, 64, 8, 1]
  dot_S4x192_S192x4096_S4x4096_1_0_0_1_n_n_wf : DotDims.WF S4x192 S192x4096 S4x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S192x4096.size a ≤ S192x131072.size a
  hwx0_0 : ∀ i : grid0.Coords, EltTy.bits .f32 = 32 ∨ (Rect.block (s := S192x131072) S192x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x131072.size a
  hwx0_1 : ∀ i : grid0.Coords, EltTy.bits .f32 = 32 ∨ (Rect.block (s := S64x131072) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x192.size a ≤ S4x192.size a
  hwx0_2 : ∀ i : grid0.Coords, EltTy.bits .f32 = 32 ∨ (Rect.block (s := S4x192) S4x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x131072.size a
  hwx0_3 : ∀ i : grid0.Coords, EltTy.bits .f32 = 32 ∨ (Rect.block (s := S8x131072) S8x4096.size (cc0_transform_3 i) (hinb0_3 i)).WholeWords (EltTy.packing .f32)

variable [Facts₀]

def gather_S32x128x128_S64x8x1_S32x64x8x128_03_1_n_n_1_2_321128 : GatherDims S32x128x128 S64x8x1 S32x64x8x128 where
  offsetDims := [0, 3]
  collapsedSliceDims := [1]
  operandBatchingDims := []
  startIndicesBatchingDims := []
  startIndexMap := [1]
  indexVectorDim := 2
  sliceSizes := ![32, 1, 128]
  wf := gather_S32x128x128_S64x8x1_S32x64x8x128_03_1_n_n_1_2_321128_wf
def gather_S32x64x8x128_S64x8x1_S32x64x8x64x8_012_3_n_n_3_2_326481 : GatherDims S32x64x8x128 S64x8x1 S32x64x8x64x8 where
  offsetDims := [0, 1, 2]
  collapsedSliceDims := [3]
  operandBatchingDims := []
  startIndicesBatchingDims := []
  startIndexMap := [3]
  indexVectorDim := 2
  sliceSizes := ![32, 64, 8, 1]
  wf := gather_S32x64x8x128_S64x8x1_S32x64x8x64x8_012_3_n_n_3_2_326481_wf
def dot_S4x192_S192x4096_S4x4096_1_0_0_1_n_n : DotDims S4x192 S192x4096 S4x4096 where
  lhsContracting := [1]
  rhsContracting := [0]
  lhsNonContracting := [0]
  rhsNonContracting := [1]
  lhsBatch := []
  rhsBatch := []
  wf := dot_S4x192_S192x4096_S4x4096_1_0_0_1_n_n_wf

abbrev win0_0 : Pipeline.Window sig grid0 :=
  Pipeline.Window.ofSpec (Memref.whole main_v2) S192x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.KerBlocks.lean ====
/-
  The pieces of the fused kernel's body, each read at one entry, on the extended reals.

  A channel plane (512 × 512) is viewed as 64 strips of 8 pixel rows; the weight taps of one channel (8 × 512:
  tap row, pixel column) are repeated down the 64 strips.  A strip tensor is cut into its upper and lower four
  rows; four rows are added; 512 pixel columns are folded into 128 mask columns by a product with a 0/1 matrix,
  and 128 mask columns into 64 patch columns by another.
-/
import proofs.«152438_g2000606418805165_pallasbulk_850_2_alg».proof.Proof.Gen.KernelIdeal.Skeleton
import proofs.«152438_g2000606418805165_pallasbulk_850_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KerBlocks

open Idealize.ShloMosaic Idealize.ShloMosaic.ValueIdx
open Cert.KernelIdeal

variable {α : Type}

/-- A channel plane cut into strips of eight rows: strip `hl`, row `r` is plane row `8·hl + r`. -/
theorem strips_apply (x : S1x1x512x512.Idx → α) (h1 : S1x1x512x512.ShapeCasts S512x512) (h2 : S512x512.ShapeCasts S64x8x512)
    (hl : Fin 64) (r : Fin 8) (w : Fin 512) :
    shapeCast S64x8x512 (shapeCast S512x512 x h1) h2 (ix3 hl r w)
      = x (ix4 (0 : Fin 1) (0 : Fin 1) ⟨8 * hl.val + r.val, by omega⟩ w) := by
  refine (shapeCast_apply _ h2 (ix3 hl r w) (ix2 ⟨8 * hl.val + r.val, by omega⟩ w) ?_).trans ?_
  · rw [Shape.rowMajor_val_two, Shape.rowMajor_val_three]
    show (8 * hl.val + r.val) * 512 + w.val = (hl.val * 8 + r.val) * 512 + w.val
    omega
  · refine shapeCast_apply _ h1 _ _ ?_
    rw [Shape.rowMajor_val_two, Shape.rowMajor_val_four]
    show ((0 * 1 + 0) * 512 + (8 * hl.val + r.val)) * 512 + w.val = (8 * hl.val + r.val) * 512 + w.val
    omega

/-- One channel's taps repeated down the strips. -/
theorem taps_apply (wt : S1x1x8x512.Idx → α) (h1 : S1x1x8x512.ShapeCasts S8x512) (h2 : S8x512.ShapeCasts S1x8x512)
    (h3 : S1x8x512.Broadcasts S64x8x512) (hl : Fin 64) (r : Fin 8) (w : Fin 512) :
    broadcastTo S64x8x512 (shapeCast S1x8x512 (shapeCast S8x512 wt h1) h2) h3 (ix3 hl r w)
      = wt (ix4 (0 : Fin 1) (0 : Fin 1) r w) := by
  refine (broadcastTo_apply _ h3 (ix3 hl r w) (ix3 (0 : Fin 1) r w) (fun a => ?_)).trans ?_
  · match a with
    | ⟨0, _⟩ => rfl
    | ⟨1, _⟩ => rfl
    | ⟨2, _⟩ => rfl
  · refine (shapeCast_apply _ h2 (ix3 (0 : Fin 1) r w) (ix2 r w) ?_).trans ?_
    · rw [Shape.rowMajor_val_two, Shape.rowMajor_val_three]
      show r.val * 512 + w.val = (0 * 8 + r.val) * 512 + w.val
      omega
    · refine shapeCast_apply _ h1 _ _ ?_
      rw [Shape.rowMajor_val_two, Shape.rowMajor_val_four]
      show ((0 * 1 + 0) * 8 + r.val) * 512 + w.val = r.val * 512 + w.val
      omega

/-- The mask rows of one cell row, as a 64 × 128 matrix. -/
theorem maskrow_apply (mk : S1x1x64x128.Idx → α) (h : S1x1x64x128.ShapeCasts S64x128) (hl : Fin 64) (mw : Fin 128) :
    shapeCast S64x128 mk h (ix2 hl mw) = mk (ix4 (0 : Fin 1) (0 : Fin 1) hl mw) := by
  refine shapeCast_apply _ h _ _ ?_
  rw [Shape.rowMajor_val_two, Shape.rowMajor_val_four]
  show ((0 * 1 + 0) * 64 + hl.val) * 128 + mw.val = hl.val * 128 + mw.val
  omega

/-- A 64 × 64 result laid into its slot of the output block. -/
theorem slot_apply (v : S64x64.Idx → α) (h : S64x64.ShapeCasts S1x1x64x64) (hl wl : Fin 64) :
    shapeCast S1x1x64x64 v h (ix4 (0 : Fin 1) (0 : Fin 1) hl wl) = v (ix2 hl wl) := by
  refine shapeCast_apply _ h _ _ ?_
  rw [Shape.rowMajor_val_two, Shape.rowMajor_val_four]
  show hl.val * 64 + wl.val = ((0 * 1 + 0) * 64 + hl.val) * 64 + wl.val
  omega

/-- The four rows `o … o + 3` of every strip. -/
theorem rows4_apply (o : ℕ) (y : S64x8x512.Idx → α) (h : S64x8x512.Slices ![0, o, 0] S64x4x512) (ho : o + 4 ≤ 8)
    (hl : Fin 64) (r : Fin 4) (w : Fin 512) :
    extractStridedSlice S64x4x512 ![0, o, 0] y h (ix3 hl r w) = y (ix3 hl ⟨o + r.val, by omega⟩ w) :=
  slice3_axis1_apply o y h hl r w ⟨o + r.val, by omega⟩ rfl

/-- Four rows added: the kernel's sum over the rows of a half strip. -/
theorem rowsum_apply (v : FVec Ideal S64x4x512 .f32) (h : S64x4x512.Reduces [1] S64x512) (hφ : FKind.Formats .f32)
    (hacc : (0x00000000#32 : BitVec 32) = FKind.add.neutral .f32 hφ) (hl : Fin 64) (w : Fin 512) :
    multiReduction .add [1] S64x512 v 0x00000000#32 h hφ hacc (ix2 hl w) = ∑ r : Fin 4, v (ix3 hl r w) := by
  refine (Ideal.multiReduction_add_single v 0x00000000#32 h hφ hacc (ix2 hl w)).trans ?_
  refine Finset.sum_congr rfl fun r _ => congrArg v ?_
  funext a; apply Fin.ext
  match a with
  | ⟨0, _⟩ => rfl
  | ⟨1, _⟩ => rfl
  | ⟨2, _⟩ => rfl

/-- 512 pixel columns folded into 128 mask columns. -/
theorem fold4_apply (a : FVec Ideal S64x512 .f32) (s4 : FVec Ideal S512x128 .f32) (hl : Fin 64) (mw : Fin 128) :
    matmul dot_S64x512_S512x128_S64x128_1_0_0_1_n_n none a s4 (constant S64x128 .f32 0x00000000#32) (ix2 hl mw)
      = ∑ w : Fin 512, a (ix2 hl w) * s4 (ix2 w mw) := by
  unfold dot_S64x512_S512x128_S64x128_1_0_0_1_n_n
  exact Cert.Dense.matmul_plain_apply _ a s4 hl mw

/-- 128 mask columns folded into 64 patch columns. -/
theorem fold2_apply (a : FVec Ideal S64x128 .f32) (s2 : FVec Ideal S128x64 .f32) (hl wl : Fin 64) :
    matmul dot_S64x128_S128x64_S64x64_1_0_0_1_n_n none a s2 (constant S64x64 .f32 0x00000000#32) (ix2 hl wl)
      = ∑ mw : Fin 128, a (ix2 hl mw) * s2 (ix2 mw wl) := by
  unfold dot_S64x128_S128x64_S64x64_1_0_0_1_n_n
  exact Cert.Dense.matmul_plain_apply _ a s2 hl wl

end Cert.KerBlocks

end
-- ==== Proof.Forms.lean ====
/-
  The order in which the fused kernel adds up one image's patch projection, as a formula on the extended reals.

  For one latent channel the kernel holds the three channel planes `x c h w` (512 × 512), the weight taps laid
  out along a row, `wt c r w` (8 × 512: tap row `r`, the 8 taps of a row repeated 64 times along `w`), the two
  0/1 matrices `s4 w mw` (512 × 128: pixel column `w` lies in mask column `mw`) and `s2 mw wl` (128 × 64: mask
  column `mw` lies in patch column `wl`), and the mask rows `mk g hl mw` (mask row `2·hl + g`).  It forms, per
  pixel, the sum over the channels of pixel × tap (`strip`); adds the four pixel rows of one mask cell
  (`half`); adds the four pixel columns of a mask cell by a product with `s4` (`cell`); for the masked output
  scales each cell by its mask value; and adds the 2 × 2 cells of a patch (the two cell rows directly, the two
  cell columns by a product with `s2`).
-/
import Idealize.ShloMosaic.PureOps.Ideal

noncomputable section

namespace Cert.Forms

/-- One pixel's contribution: the three channels' products, added left to right. -/
def strip (x : Fin 3 → Fin 512 → Fin 512 → EReal) (wt : Fin 3 → Fin 8 → Fin 512 → EReal)
    (hl : Fin 64) (r : Fin 8) (w : Fin 512) : EReal :=
  (x 0 ⟨8 * hl.val + r.val, by omega⟩ w * wt 0 r w + x 1 ⟨8 * hl.val + r.val, by omega⟩ w * wt 1 r w)
    + x 2 ⟨8 * hl.val + r.val, by omega⟩ w * wt 2 r w

/-- The four pixel rows `4·g … 4·g + 3` of patch strip `hl`, added. -/
def half (x : Fin 3 → Fin 512 → Fin 512 → EReal) (wt : Fin 3 → Fin 8 → Fin 512 → EReal)
    (g : Fin 2) (hl : Fin 64) (w : Fin 512) : EReal :=
  ∑ r : Fin 4, strip x wt hl ⟨4 * g.val + r.val, by omega⟩ w

/-- The pixel columns gathered into mask columns by the 0/1 matrix `s4`. -/
def cell (x : Fin 3 → Fin 512 → Fin 512 → EReal) (wt : Fin 3 → Fin 8 → Fin 512 → EReal)
    (s4 : Fin 512 → Fin 128 → EReal) (g : Fin 2) (hl : Fin 64) (mw : Fin 128) : EReal :=
  ∑ w : Fin 512, half x wt g hl w * s4 w mw

/-- The plain output at patch `(hl, wl)`. -/
def kerPlain (x : Fin 3 → Fin 512 → Fin 512 → EReal) (wt : Fin 3 → Fin 8 → Fin 512 → EReal)
    (s4 : Fin 512 → Fin 128 → EReal) (s2 : Fin 128 → Fin 64 → EReal) (hl wl : Fin 64) : EReal :=
  ∑ mw : Fin 128, (cell x wt s4 0 hl mw + cell x wt s4 1 hl mw) * s2 mw wl

/-- The masked output at patch `(hl, wl)`. -/
def kerMasked (x : Fin 3 → Fin 512 → Fin 512 → EReal) (wt : Fin 3 → Fin 8 → Fin 512 → EReal)
    (s4 : Fin 512 → Fin 128 → EReal) (s2 : Fin 128 → Fin 64 → EReal) (mk : Fin 2 → Fin 64 → Fin 128 → EReal)
    (hl wl : Fin 64) : EReal :=
  ∑ mw : Fin 128, (mk 0 hl mw * cell x wt s4 0 hl mw + mk 1 hl mw * cell x wt s4 1 hl mw) * s2 mw wl

/-- Pixel column `w` lies in mask column `mw`. -/
def ind4 (w : Fin 512) (mw : Fin 128) : EReal := if w.val / 4 = mw.val then 1 else 0
/-- Mask column `mw` lies in patch column `wl`. -/
def ind2 (mw : Fin 128) (wl : Fin 64) : EReal := if mw.val / 2 = wl.val then 1 else 0

end Cert.Forms

end
-- ==== Proof.KerPay.lean ====
/-
  The fused kernel's body, one stored slab at a time, as the nested sum of `Forms`.

  For each of the four latent channels the body stores one 64 × 64 slab of each output.  Whatever the order in which
  the printed body names its intermediate values, a slab is: the strip tensor (pixel × tap, the three channels
  added), cut into upper and lower four rows, each half summed over its rows and folded from 512 pixel columns to
  128 mask columns; the two halves added (plain) or each first scaled by its mask row (masked); and the 128 mask
  columns folded to 64 patch columns.
-/
import proofs.«152438_g2000606418805165_pallasbulk_850_2_alg».proof.Proof.KerBlocks
import proofs.«152438_g2000606418805165_pallasbulk_850_2_alg».proof.Proof.Forms

noncomputable section

namespace Cert.KerPay

open Idealize.ShloMosaic Idealize.ShloMosaic.ValueIdx
open Cert.KernelIdeal Cert.KernelIdeal.Gen Cert.KerBlocks

/-- Three channel planes as one function of channel, row, column. -/
def planes (x0 x1 x2 : Vec Ideal S1x1x512x512 .f32) : Fin 3 → Fin 512 → Fin 512 → EReal :=
  fun c h w => match c with
    | ⟨0, _⟩ => x0 (ix4 (0 : Fin 1) (0 : Fin 1) h w)
    | ⟨1, _⟩ => x1 (ix4 (0 : Fin 1) (0 : Fin 1) h w)
    | ⟨2, _⟩ => x2 (ix4 (0 : Fin 1) (0 : Fin 1) h w)

/-- Three channels' tap rows as one function of channel, tap row, column. -/
def tapsOf (w0 w1 w2 : Vec Ideal S1x1x8x512 .f32) : Fin 3 → Fin 8 → Fin 512 → EReal :=
  fun c r w => match c with
    | ⟨0, _⟩ => w0 (ix4 (0 : Fin 1) (0 : Fin 1) r w)
    | ⟨1, _⟩ => w1 (ix4 (0 : Fin 1) (0 : Fin 1) r w)
    | ⟨2, _⟩ => w2 (ix4 (0 : Fin 1) (0 : Fin 1) r w)

/-- The two mask rows of a strip as one function of cell row, strip, mask column. -/
def masksOf (m0 m1 : Vec Ideal S1x1x64x128 .f32) : Fin 2 → Fin 64 → Fin 128 → EReal :=
  fun g hl mw => match g with
    | ⟨0, _⟩ => m0 (ix4 (0 : Fin 1) (0 : Fin 1) hl mw)
    | ⟨1, _⟩ => m1 (ix4 (0 : Fin 1) (0 : Fin 1) hl mw)

/-- A matrix as a function of its two coordinates. -/
def mat {a b : ℕ} (s : (⟨2, ![a, b]⟩ : Shape).Idx → EReal) : Fin a → Fin b → EReal := fun i j => s (ix2 i j)

/-- A strip tensor holding, entry by entry, the channels' pixel × tap products added left to right. -/
def IsStrip (Y : FVec Ideal S64x8x512 .f32) (x : Fin 3 → Fin 512 → Fin 512 → EReal) (wt : Fin 3 → Fin 8 → Fin 512 → EReal) : Prop :=
  ∀ (hl : Fin 64) (r : Fin 8) (w : Fin 512), Y (ix3 hl r w) = Cert.Forms.strip x wt hl r w

/-- The upper half of a strip tensor, its rows added and its columns folded: the cells of cell row 0. -/
theorem cell_lo (Y : FVec Ideal S64x8x512 .f32) (s4 : FVec Ideal S512x128 .f32)
    (x : Fin 3 → Fin 512 → Fin 512 → EReal) (wt : Fin 3 → Fin 8 → Fin 512 → EReal) (hY : IsStrip Y x wt)
    (hs : S64x8x512.Slices ![0, 0, 0] S64x4x512) (hr : S64x4x512.Reduces [1] S64x512) (hφ : FKind.Formats .f32)
    (hacc : (0x00000000#32 : BitVec 32) = FKind.add.neutral .f32 hφ) (hl : Fin 64) (mw : Fin 128) :
    matmul dot_S64x512_S512x128_S64x128_1_0_0_1_n_n none
        (multiReduction .add [1] S64x512 (extractStridedSlice S64x4x512 ![0, 0, 0] Y hs) 0x00000000#32 hr hφ hacc) s4
        (constant S64x128 .f32 0x00000000#32) (ix2 hl mw)
      = Cert.Forms.cell x wt (mat s4) 0 hl mw := by
  rw [fold4_apply]
  unfold Cert.Forms.cell Cert.Forms.half
  refine Finset.sum_congr rfl fun w _ => ?_
  rw [rowsum_apply]
  refine congrArg (· * s4 (ix2 w mw)) (Finset.sum_congr rfl fun r _ => ?_)
  rw [rows4_apply 0 Y hs (by omega), hY]
  exact congrArg (fun q => Cert.Forms.strip x wt hl q w) (Fin.ext (by show 0 + r.val = 4 * 0 + r.val; omega))

/-- The lower half: the cells of cell row 1. -/
theorem cell_hi (Y : FVec Ideal S64x8x512 .f32) (s4 : FVec Ideal S512x128 .f32)
    (x : Fin 3 → Fin 512 → Fin 512 → EReal) (wt : Fin 3 → Fin 8 → Fin 512 → EReal) (hY : IsStrip Y x wt)
    (hs : S64x8x512.Slices ![0, 4, 0] S64x4x512) (hr : S64x4x512.Reduces [1] S64x512) (hφ : FKind.Formats .f32)
    (hacc : (0x00000000#32 : BitVec 32) = FKind.add.neutral .f32 hφ) (hl : Fin 64) (mw : Fin 128) :
    matmul dot_S64x512_S512x128_S64x128_1_0_0_1_n_n none
        (multiReduction .add [1] S64x512 (extractStridedSlice S64x4x512 ![0, 4, 0] Y hs) 0x00000000#32 hr hφ hacc) s4
        (constant S64x128 .f32 0x00000000#32) (ix2 hl mw)
      = Cert.Forms.cell x wt (mat s4) 1 hl mw := by
  rw [fold4_apply]
  unfold Cert.Forms.cell Cert.Forms.half
  refine Finset.sum_congr rfl fun w _ => ?_
  rw [rowsum_apply]
  refine congrArg (· * s4 (ix2 w mw)) (Finset.sum_congr rfl fun r _ => ?_)
  rw [rows4_apply 4 Y hs (by omega), hY]
  exact congrArg (fun q => Cert.Forms.strip x wt hl q w) (Fin.ext (by show 4 + r.val = 4 * 1 + r.val; omega))

/-- The plain slab from the two cell rows. -/
theorem plain_of (A B : FVec Ideal S64x128 .f32) (s2 : FVec Ideal S128x64 .f32)
    (x : Fin 3 → Fin 512 → Fin 512 → EReal) (wt : Fin 3 → Fin 8 → Fin 512 → EReal) (S4 : Fin 512 → Fin 128 → EReal)
    (hA : ∀ hl mw, A (ix2 hl mw) = Cert.Forms.cell x wt S4 0 hl mw)
    (hB : ∀ hl mw, B (ix2 hl mw) = Cert.Forms.cell x wt S4 1 hl mw)
    (h : S64x64.ShapeCasts S1x1x64x64) (hl wl : Fin 64) :
    shapeCast S1x1x64x64 (matmul dot_S64x128_S128x64_S64x64_1_0_0_1_n_n none (addf A B) s2 (constant S64x64 .f32 0x00000000#32)) h
        (ix4 (0 : Fin 1) (0 : Fin 1) hl wl)
      = Cert.Forms.kerPlain x wt S4 (mat s2) hl wl := by
  rw [slot_apply, fold2_apply]
  unfold Cert.Forms.kerPlain
  refine Finset.sum_congr rfl fun mw _ => ?_
  rw [addf_apply, hA, hB]
  rfl

/-- The masked slab from the two cell rows and the two mask rows. -/
theorem masked_of (A B : FVec Ideal S64x128 .f32) (s2 : FVec Ideal S128x64 .f32) (m0 m1 : Vec Ideal S1x1x64x128 .f32)
    (x : Fin 3 → Fin 512 → Fin 512 → EReal) (wt : Fin 3 → Fin 8 → Fin 512 → EReal) (S4 : Fin 512 → Fin 128 → EReal)
    (hA : ∀ hl mw, A (ix2 hl mw) = Cert.Forms.cell x wt S4 0 hl mw)
    (hB : ∀ hl mw, B (ix2 hl mw) = Cert.Forms.cell x wt S4 1 hl mw)
    (h0 h1 : S1x1x64x128.ShapeCasts S64x128) (h : S64x64.ShapeCasts S1x1x64x64) (hl wl : Fin 64) :
    shapeCast S1x1x64x64 (matmul dot_S64x128_S128x64_S64x64_1_0_0_1_n_n none
          (addf (mulf (shapeCast S64x128 m0 h0) A) (mulf (shapeCast S64x128 m1 h1) B)) s2 (constant S64x64 .f32 0x00000000#32)) h
        (ix4 (0 : Fin 1) (0 : Fin 1) hl wl)
      = Cert.Forms.kerMasked x wt S4 (mat s2) (masksOf m0 m1) hl wl := by
  rw [slot_apply, fold2_apply]
  unfold Cert.Forms.kerMasked
  refine Finset.sum_congr rfl fun mw _ => ?_
  rw [addf_apply, mulf_apply, mulf_apply, maskrow_apply, maskrow_apply, hA, hB]
  rfl

/-- The strip tensor the body forms for latent channels 0 and 3: the three products added in one value. -/
theorem strip_a (x0 x1 x2 : Vec Ideal S1x1x512x512 .f32) (w0 w1 w2 : Vec Ideal S1x1x8x512 .f32) :
    IsStrip (k0_pay6 (F := Ideal) x0 w0 x1 w1 x2 w2) (planes x0 x1 x2) (tapsOf w0 w1 w2) := by
  intro hl r w
  unfold k0_pay6
  simp only [addf_apply, mulf_apply, strips_apply, taps_apply]
  rfl

theorem strip_d (x0 x1 x2 : Vec Ideal S1x1x512x512 .f32) (w0 w1 w2 : Vec Ideal S1x1x8x512 .f32) :
    IsStrip (k0_pay29 (F := Ideal) x0 w0 x1 w1 x2 w2) (planes x0 x1 x2) (tapsOf w0 w1 w2) := by
  intro hl r w
  unfold k0_pay29
  simp only [addf_apply, mulf_apply, strips_apply, taps_apply]
  rfl

/-- For latent channel 1 the first plane and its taps are named before the rest. -/
theorem strip_b (x0 x1 x2 : Vec Ideal S1x1x512x512 .f32) (w0 w1 w2 : Vec Ideal S1x1x8x512 .f32) :
    IsStrip (k0_pay14 (F := Ideal) (k0_pay12 x0) (k0_pay13 w0) x1 w1 x2 w2) (planes x0 x1 x2) (tapsOf w0 w1 w2) := by
  intro hl r w
  unfold k0_pay14 k0_pay12 k0_pay13
  simp only [addf_apply, mulf_apply, strips_apply, taps_apply]
  rfl

/-- For latent channel 2 the first two products are added first, the third plane joins later. -/
theorem strip_c (x0 x1 x2 : Vec Ideal S1x1x512x512 .f32) (w0 w1 w2 : Vec Ideal S1x1x8x512 .f32) :
    IsStrip (k0_pay24 (F := Ideal) (k0_pay22 x0 w0 x1 w1) (k0_pay23 x2) w2) (planes x0 x1 x2) (tapsOf w0 w1 w2) := by
  intro hl r w
  unfold k0_pay24 k0_pay22 k0_pay23
  simp only [addf_apply, mulf_apply, strips_apply, taps_apply]
  rfl

end Cert.KerPay

end
-- ==== Proof.KerChan.lean ====
/-
  The eight stored slabs of the fused kernel's body — a plain and a masked one for each of the four latent channels —
  each as the nested sum of `Forms` over the three channel planes, the channel's tap rows, the two 0/1 matrices and
  the two mask rows it reads.  The printed body names its intermediate values in a different order for each latent
  channel; the value is the same composition every time.
-/
import proofs.«152438_g2000606418805165_pallasbulk_850_2_alg».proof.Proof.KerPay

noncomputable section

namespace Cert.KerPay

open Idealize.ShloMosaic Idealize.ShloMosaic.ValueIdx
open Cert.KernelIdeal Cert.KernelIdeal.Gen Cert.KerBlocks

theorem chan0_plain (x0 x1 x2 : Vec Ideal S1x1x512x512 .f32) (w0 w1 w2 : Vec Ideal S1x1x8x512 .f32)
    (s4 : FVec Ideal S512x128 .f32) (s2 : FVec Ideal S128x64 .f32) (hl wl : Fin 64) :
    k0_pay10 (F := Ideal) s4 s2 (k0_pay6 x0 w0 x1 w1 x2 w2) (k0_pay7 x0 w0 x1 w1 x2 w2) (ix4 (0 : Fin 1) (0 : Fin 1) hl wl)
      = Cert.Forms.kerPlain (planes x0 x1 x2) (tapsOf w0 w1 w2) (mat s4) (mat s2) hl wl := by
  unfold k0_pay10 k0_pay8 k0_pay9 k0_pay7
  exact plain_of _ _ s2 _ _ (mat s4)
    (fun hl mw => cell_lo _ s4 _ _ (strip_a x0 x1 x2 w0 w1 w2) _ _ _ _ hl mw)
    (fun hl mw => cell_hi _ s4 _ _ (strip_a x0 x1 x2 w0 w1 w2) _ _ _ _ hl mw) _ hl wl

theorem chan0_masked (x0 x1 x2 : Vec Ideal S1x1x512x512 .f32) (w0 w1 w2 : Vec Ideal S1x1x8x512 .f32)
    (s4 : FVec Ideal S512x128 .f32) (s2 : FVec Ideal S128x64 .f32) (m0 m1 : Vec Ideal S1x1x64x128 .f32) (hl wl : Fin 64) :
    k0_pay11 (F := Ideal) s4 s2 (k0_pay6 x0 w0 x1 w1 x2 w2) (k0_pay7 x0 w0 x1 w1 x2 w2) m0 m1 (ix4 (0 : Fin 1) (0 : Fin 1) hl wl)
      = Cert.Forms.kerMasked (planes x0 x1 x2) (tapsOf w0 w1 w2) (mat s4) (mat s2) (masksOf m0 m1) hl wl := by
  unfold k0_pay11 k0_pay8 k0_pay9 k0_pay7
  exact masked_of _ _ s2 m0 m1 _ _ (mat s4)
    (fun hl mw => cell_lo _ s4 _ _ (strip_a x0 x1 x2 w0 w1 w2) _ _ _ _ hl mw)
    (fun hl mw => cell_hi _ s4 _ _ (strip_a x0 x1 x2 w0 w1 w2) _ _ _ _ hl mw) _ _ _ hl wl

theorem chan1_plain (x0 x1 x2 : Vec Ideal S1x1x512x512 .f32) (w0 w1 w2 : Vec Ideal S1x1x8x512 .f32)
    (s4 : FVec Ideal S512x128 .f32) (s2 : FVec Ideal S128x64 .f32) (hl wl : Fin 64) :
    k0_pay20 (F := Ideal) s2 (k0_pay19 s4 (k0_pay12 x0) (k0_pay13 w0) x1 w1 x2 w2) (ix4 (0 : Fin 1) (0 : Fin 1) hl wl)
      = Cert.Forms.kerPlain (planes x0 x1 x2) (tapsOf w0 w1 w2) (mat s4) (mat s2) hl wl := by
  unfold k0_pay20 k0_pay19 k0_pay15 k0_pay17
  exact plain_of _ _ s2 _ _ (mat s4)
    (fun hl mw => cell_lo _ s4 _ _ (strip_b x0 x1 x2 w0 w1 w2) _ _ _ _ hl mw)
    (fun hl mw => cell_hi _ s4 _ _ (strip_b x0 x1 x2 w0 w1 w2) _ _ _ _ hl mw) _ hl wl

theorem chan1_masked (x0 x1 x2 : Vec Ideal S1x1x512x512 .f32) (w0 w1 w2 : Vec Ideal S1x1x8x512 .f32)
    (s4 : FVec Ideal S512x128 .f32) (s2 : FVec Ideal S128x64 .f32) (m0 m1 : Vec Ideal S1x1x64x128 .f32) (hl wl : Fin 64) :
    k0_pay21 (F := Ideal) s2 (k0_pay16 s4 (k0_pay12 x0) (k0_pay13 w0) x1 w1 x2 w2 m0) (k0_pay18 s4 (k0_pay12 x0) (k0_pay13 w0) x1 w1 x2 w2 m1) (ix4 (0 : Fin 1) (0 : Fin 1) hl wl)
      = Cert.Forms.kerMasked (planes x0 x1 x2) (tapsOf w0 w1 w2) (mat s4) (mat s2) (masksOf m0 m1) hl wl := by
  unfold k0_pay21 k0_pay16 k0_pay18 k0_pay15 k0_pay17
  exact masked_of _ _ s2 m0 m1 _ _ (mat s4)
    (fun hl mw => cell_lo _ s4 _ _ (strip_b x0 x1 x2 w0 w1 w2) _ _ _ _ hl mw)
    (fun hl mw => cell_hi _ s4 _ _ (strip_b x0 x1 x2 w0 w1 w2) _ _ _ _ hl mw) _ _ _ hl wl

theorem chan2_plain (x0 x1 x2 : Vec Ideal S1x1x512x512 .f32) (w0 w1 w2 : Vec Ideal S1x1x8x512 .f32)
    (s4 : FVec Ideal S512x128 .f32) (s2 : FVec Ideal S128x64 .f32) (hl wl : Fin 64) :
    k0_pay27 (F := Ideal) s4 s2 (k0_pay22 x0 w0 x1 w1) (k0_pay23 x2) w2 (ix4 (0 : Fin 1) (0 : Fin 1) hl wl)
      = Cert.Forms.kerPlain (planes x0 x1 x2) (tapsOf w0 w1 w2) (mat s4) (mat s2) hl wl := by
  unfold k0_pay27 k0_pay25 k0_pay26
  exact plain_of _ _ s2 _ _ (mat s4)
    (fun hl mw => cell_lo _ s4 _ _ (strip_c x0 x1 x2 w0 w1 w2) _ _ _ _ hl mw)
    (fun hl mw => cell_hi _ s4 _ _ (strip_c x0 x1 x2 w0 w1 w2) _ _ _ _ hl mw) _ hl wl

theorem chan2_masked (x0 x1 x2 : Vec Ideal S1x1x512x512 .f32) (w0 w1 w2 : Vec Ideal S1x1x8x512 .f32)
    (s4 : FVec Ideal S512x128 .f32) (s2 : FVec Ideal S128x64 .f32) (m0 m1 : Vec Ideal S1x1x64x128 .f32) (hl wl : Fin 64) :
    k0_pay28 (F := Ideal) s4 s2 (k0_pay22 x0 w0 x1 w1) (k0_pay23 x2) w2 m0 m1 (ix4 (0 : Fin 1) (0 : Fin 1) hl wl)
      = Cert.Forms.kerMasked (planes x0 x1 x2) (tapsOf w0 w1 w2) (mat s4) (mat s2) (masksOf m0 m1) hl wl := by
  unfold k0_pay28 k0_pay25 k0_pay26
  exact masked_of _ _ s2 m0 m1 _ _ (mat s4)
    (fun hl mw => cell_lo _ s4 _ _ (strip_c x0 x1 x2 w0 w1 w2) _ _ _ _ hl mw)
    (fun hl mw => cell_hi _ s4 _ _ (strip_c x0 x1 x2 w0 w1 w2) _ _ _ _ hl mw) _ _ _ hl wl

theorem chan3_plain (x0 x1 x2 : Vec Ideal S1x1x512x512 .f32) (w0 w1 w2 : Vec Ideal S1x1x8x512 .f32)
    (s4 : FVec Ideal S512x128 .f32) (s2 : FVec Ideal S128x64 .f32) (hl wl : Fin 64) :
    k0_pay2 (F := Ideal) s4 s2 (k0_pay30 s4 x0 w0 x1 w1 x2 w2) (k0_pay32 x0 w0 x1 w1 x2 w2) (ix4 (0 : Fin 1) (0 : Fin 1) hl wl)
      = Cert.Forms.kerPlain (planes x0 x1 x2) (tapsOf w0 w1 w2) (mat s4) (mat s2) hl wl := by
  unfold k0_pay2 k0_pay1 k0_pay30 k0_pay32
  exact plain_of _ _ s2 _ _ (mat s4)
    (fun hl mw => cell_lo _ s4 _ _ (strip_d x0 x1 x2 w0 w1 w2) _ _ _ _ hl mw)
    (fun hl mw => cell_hi _ s4 _ _ (strip_d x0 x1 x2 w0 w1 w2) _ _ _ _ hl mw) _ hl wl

theorem chan3_masked (x0 x1 x2 : Vec Ideal S1x1x512x512 .f32) (w0 w1 w2 : Vec Ideal S1x1x8x512 .f32)
    (s4 : FVec Ideal S512x128 .f32) (s2 : FVec Ideal S128x64 .f32) (m0 m1 : Vec Ideal S1x1x64x128 .f32) (hl wl : Fin 64) :
    k0_pay3 (F := Ideal) s4 s2 (k0_pay31 s4 x0 w0 x1 w1 x2 w2 m0) (k0_pay32 x0 w0 x1 w1 x2 w2) m1 (ix4 (0 : Fin 1) (0 : Fin 1) hl wl)
      = Cert.Forms.kerMasked (planes x0 x1 x2) (tapsOf w0 w1 w2) (mat s4) (mat s2) (masksOf m0 m1) hl wl := by
  unfold k0_pay3 k0_pay31 k0_pay30 k0_pay1 k0_pay32
  exact masked_of _ _ s2 m0 m1 _ _ (mat s4)
    (fun hl mw => cell_lo _ s4 _ _ (strip_d x0 x1 x2 w0 w1 w2) _ _ _ _ hl mw)
    (fun hl mw => cell_hi _ s4 _ _ (strip_d x0 x1 x2 w0 w1 w2) _ _ _ _ hl mw) _ _ _ hl wl

end Cert.KerPay

end
-- ==== Proof.KerSlabs.lean ====
/-
  One grid point of the fused kernel: its two output blocks (1 × 4 × 64 × 64 each) as functions of its input blocks.

  The point holds one image `x0` (1 × 3 × 512 × 512), that image's mask rows split by cell row `x1` (1 × 2 × 64 × 128),
  all the tap rows `x2` (4 × 3 × 8 × 512) and the two 0/1 matrices `x3`, `x4`.  Slab `n` of an output block is the
  nested sum of `Forms` over the image's three planes, latent channel `n`'s tap rows, the matrices and (masked) the
  mask rows; the four slabs tile the block.
-/
import proofs.«152438_g2000606418805165_pallasbulk_850_2_alg».proof.Proof.Gen.KernelIdeal.Frame
import proofs.«152438_g2000606418805165_pallasbulk_850_2_alg».proof.Proof.KerChan

set_option maxRecDepth 16384

noncomputable section

namespace Cert.KerSlabs

open Idealize.ShloMosaic Idealize.ShloMosaic.ValueIdx
open Cert.KernelIdeal Cert.KernelIdeal.Gen Cert.KerBlocks Cert.KerPay

/-- A load through a unit-stride rectangle of a rank-4 array, read at an index: the array at the shifted index. -/
theorem ld_unit4 {n0 n1 n2 n3 : ℕ} (X : Vec Ideal ⟨4, ![n0, n1, n2, n3]⟩ .f32) (off size : Fin 4 → ℕ)
    (inb : ∀ a, off a + size a ≤ (⟨4, ![n0, n1, n2, n3]⟩ : Shape).size a) (x : (⟨4, size⟩ : Shape).Idx)
    (k : (⟨4, ![n0, n1, n2, n3]⟩ : Shape).Idx) (hk : ∀ a, (k a).val = off a + (x a).val) :
    View.ld (Val := Elt Ideal) X (Rect.unit (s := ⟨4, ![n0, n1, n2, n3]⟩) off size inb) x = X k :=
  congrArg X (funext fun a => Fin.ext (by
    rw [hk a]; show off a + 1 * (x a).val = off a + (x a).val; omega))

theorem hz2 : (![0, 0] : Fin 2 → Nat) = fun _ => 0 := funext fun a => by fin_cases a <;> rfl

/-- The plain output block's slab `n` at `(hl, wl)`. -/
def blockPlain (x0 : Vec Ideal S1x3x512x512 .f32) (x2 : Vec Ideal S4x3x8x512 .f32) (x3 : Vec Ideal S512x128 .f32)
    (x4 : Vec Ideal S128x64 .f32) (n : Fin 4) (hl wl : Fin 64) : EReal :=
  Cert.Forms.kerPlain (fun c h w => x0 (ix4 (0 : Fin 1) c h w)) (fun c r w => x2 (ix4 n c r w)) (mat x3) (mat x4) hl wl

/-- The masked output block's slab `n` at `(hl, wl)`. -/
def blockMasked (x0 : Vec Ideal S1x3x512x512 .f32) (x1 : Vec Ideal S1x2x64x128 .f32) (x2 : Vec Ideal S4x3x8x512 .f32)
    (x3 : Vec Ideal S512x128 .f32) (x4 : Vec Ideal S128x64 .f32) (n : Fin 4) (hl wl : Fin 64) : EReal :=
  Cert.Forms.kerMasked (fun c h w => x0 (ix4 (0 : Fin 1) c h w)) (fun c r w => x2 (ix4 n c r w)) (mat x3) (mat x4)
    (fun g hl mw => x1 (ix4 (0 : Fin 1) g hl mw)) hl wl

/-- The three planes the body loads are the image's three channels. -/
theorem planes_ld (x0 : Vec Ideal S1x3x512x512 .f32) :
    planes (View.ld x0 r0_2) (View.ld x0 r0_4) (View.ld x0 r0_6) = fun c h w => x0 (ix4 (0 : Fin 1) c h w) := by
  funext c h w
  match c with
  | ⟨0, _⟩ => exact ld_unit4 x0 _ _ _ (ix4 (0 : Fin 1) (0 : Fin 1) h w) (ix4 (0 : Fin 1) (0 : Fin 3) h w) (fun a => match a with
      | ⟨0, _⟩ => rfl | ⟨1, _⟩ => rfl | ⟨2, _⟩ => (Nat.zero_add _).symm | ⟨3, _⟩ => (Nat.zero_add _).symm)
  | ⟨1, _⟩ => exact ld_unit4 x0 _ _ _ (ix4 (0 : Fin 1) (0 : Fin 1) h w) (ix4 (0 : Fin 1) (1 : Fin 3) h w) (fun a => match a with
      | ⟨0, _⟩ => rfl | ⟨1, _⟩ => rfl | ⟨2, _⟩ => (Nat.zero_add _).symm | ⟨3, _⟩ => (Nat.zero_add _).symm)
  | ⟨2, _⟩ => exact ld_unit4 x0 _ _ _ (ix4 (0 : Fin 1) (0 : Fin 1) h w) (ix4 (0 : Fin 1) (2 : Fin 3) h w) (fun a => match a with
      | ⟨0, _⟩ => rfl | ⟨1, _⟩ => rfl | ⟨2, _⟩ => (Nat.zero_add _).symm | ⟨3, _⟩ => (Nat.zero_add _).symm)

/-- The two mask-row loads are the block's two cell rows. -/
theorem masks_ld (x1 : Vec Ideal S1x2x64x128 .f32) :
    masksOf (View.ld x1 r0_8) (View.ld x1 r0_9) = fun g hl mw => x1 (ix4 (0 : Fin 1) g hl mw) := by
  funext g hl mw
  match g with
  | ⟨0, _⟩ => exact ld_unit4 x1 _ _ _ (ix4 (0 : Fin 1) (0 : Fin 1) hl mw) (ix4 (0 : Fin 1) (0 : Fin 2) hl mw) (fun a => match a with
      | ⟨0, _⟩ => rfl | ⟨1, _⟩ => rfl | ⟨2, _⟩ => (Nat.zero_add _).symm | ⟨3, _⟩ => (Nat.zero_add _).symm)
  | ⟨1, _⟩ => exact ld_unit4 x1 _ _ _ (ix4 (0 : Fin 1) (0 : Fin 1) hl mw) (ix4 (0 : Fin 1) (1 : Fin 2) hl mw) (fun a => match a with
      | ⟨0, _⟩ => rfl | ⟨1, _⟩ => rfl | ⟨2, _⟩ => (Nat.zero_add _).symm | ⟨3, _⟩ => (Nat.zero_add _).symm)

theorem taps_ld0 (x2 : Vec Ideal S4x3x8x512 .f32) :
    tapsOf (View.ld x2 r0_3) (View.ld x2 r0_5) (View.ld x2 r0_7)
      = fun c r w => x2 (ix4 (0 : Fin 4) c r w) := by
  funext c r w
  match c with
  | ⟨0, _⟩ => exact ld_unit4 x2 _ _ _ (ix4 (0 : Fin 1) (0 : Fin 1) r w) (ix4 (0 : Fin 4) (0 : Fin 3) r w) (fun a => match a with
      | ⟨0, _⟩ => rfl | ⟨1, _⟩ => rfl | ⟨2, _⟩ => (Nat.zero_add _).symm | ⟨3, _⟩ => (Nat.zero_add _).symm)
  | ⟨1, _⟩ => exact ld_unit4 x2 _ _ _ (ix4 (0 : Fin 1) (0 : Fin 1) r w) (ix4 (0 : Fin 4) (1 : Fin 3) r w) (fun a => match a with
      | ⟨0, _⟩ => rfl | ⟨1, _⟩ => rfl | ⟨2, _⟩ => (Nat.zero_add _).symm | ⟨3, _⟩ => (Nat.zero_add _).symm)
  | ⟨2, _⟩ => exact ld_unit4 x2 _ _ _ (ix4 (0 : Fin 1) (0 : Fin 1) r w) (ix4 (0 : Fin 4) (2 : Fin 3) r w) (fun a => match a with
      | ⟨0, _⟩ => rfl | ⟨1, _⟩ => rfl | ⟨2, _⟩ => (Nat.zero_add _).symm | ⟨3, _⟩ => (Nat.zero_add _).symm)

theorem taps_ld1 (x2 : Vec Ideal S4x3x8x512 .f32) :
    tapsOf (View.ld x2 r0_11) (View.ld x2 r0_12) (View.ld x2 r0_13)
      = fun c r w => x2 (ix4 (1 : Fin 4) c r w) := by
  funext c r w
  match c with
  | ⟨0, _⟩ => exact ld_unit4 x2 _ _ _ (ix4 (0 : Fin 1) (0 : Fin 1) r w) (ix4 (1 : Fin 4) (0 : Fin 3) r w) (fun a => match a with
      | ⟨0, _⟩ => rfl | ⟨1, _⟩ => rfl | ⟨2, _⟩ => (Nat.zero_add _).symm | ⟨3, _⟩ => (Nat.zero_add _).symm)
  | ⟨1, _⟩ => exact ld_unit4 x2 _ _ _ (ix4 (0 : Fin 1) (0 : Fin 1) r w) (ix4 (1 : Fin 4) (1 : Fin 3) r w) (fun a => match a with
      | ⟨0, _⟩ => rfl | ⟨1, _⟩ => rfl | ⟨2, _⟩ => (Nat.zero_add _).symm | ⟨3, _⟩ => (Nat.zero_add _).symm)
  | ⟨2, _⟩ => exact ld_unit4 x2 _ _ _ (ix4 (0 : Fin 1) (0 : Fin 1) r w) (ix4 (1 : Fin 4) (2 : Fin 3) r w) (fun a => match a with
      | ⟨0, _⟩ => rfl | ⟨1, _⟩ => rfl | ⟨2, _⟩ => (Nat.zero_add _).symm | ⟨3, _⟩ => (Nat.zero_add _).symm)

theorem taps_ld2 (x2 : Vec Ideal S4x3x8x512 .f32) :
    tapsOf (View.ld x2 r0_15) (View.ld x2 r0_16) (View.ld x2 r0_17)
      = fun c r w => x2 (ix4 (2 : Fin 4) c r w) := by
  funext c r w
  match c with
  | ⟨0, _⟩ => exact ld_unit4 x2 _ _ _ (ix4 (0 : Fin 1) (0 : Fin 1) r w) (ix4 (2 : Fin 4) (0 : Fin 3) r w) (fun a => match a with
      | ⟨0, _⟩ => rfl | ⟨1, _⟩ => rfl | ⟨2, _⟩ => (Nat.zero_add _).symm | ⟨3, _⟩ => (Nat.zero_add _).symm)
  | ⟨1, _⟩ => exact ld_unit4 x2 _ _ _ (ix4 (0 : Fin 1) (0 : Fin 1) r w) (ix4 (2 : Fin 4) (1 : Fin 3) r w) (fun a => match a with
      | ⟨0, _⟩ => rfl | ⟨1, _⟩ => rfl | ⟨2, _⟩ => (Nat.zero_add _).symm | ⟨3, _⟩ => (Nat.zero_add _).symm)
  | ⟨2, _⟩ => exact ld_unit4 x2 _ _ _ (ix4 (0 : Fin 1) (0 : Fin 1) r w) (ix4 (2 : Fin 4) (2 : Fin 3) r w) (fun a => match a with
      | ⟨0, _⟩ => rfl | ⟨1, _⟩ => rfl | ⟨2, _⟩ => (Nat.zero_add _).symm | ⟨3, _⟩ => (Nat.zero_add _).symm)

theorem taps_ld3 (x2 : Vec Ideal S4x3x8x512 .f32) :
    tapsOf (View.ld x2 r0_19) (View.ld x2 r0_20) (View.ld x2 r0_21)
      = fun c r w => x2 (ix4 (3 : Fin 4) c r w) := by
  funext c r w
  match c with
  | ⟨0, _⟩ => exact ld_unit4 x2 _ _ _ (ix4 (0 : Fin 1) (0 : Fin 1) r w) (ix4 (3 : Fin 4) (0 : Fin 3) r w) (fun a => match a with
      | ⟨0, _⟩ => rfl | ⟨1, _⟩ => rfl | ⟨2, _⟩ => (Nat.zero_add _).symm | ⟨3, _⟩ => (Nat.zero_add _).symm)
  | ⟨1, _⟩ => exact ld_unit4 x2 _ _ _ (ix4 (0 : Fin 1) (0 : Fin 1) r w) (ix4 (3 : Fin 4) (1 : Fin 3) r w) (fun a => match a with
      | ⟨0, _⟩ => rfl | ⟨1, _⟩ => rfl | ⟨2, _⟩ => (Nat.zero_add _).symm | ⟨3, _⟩ => (Nat.zero_add _).symm)
  | ⟨2, _⟩ => exact ld_unit4 x2 _ _ _ (ix4 (0 : Fin 1) (0 : Fin 1) r w) (ix4 (3 : Fin 4) (2 : Fin 3) r w) (fun a => match a with
      | ⟨0, _⟩ => rfl | ⟨1, _⟩ => rfl | ⟨2, _⟩ => (Nat.zero_add _).symm | ⟨3, _⟩ => (Nat.zero_add _).symm)

/-- The two 0/1 matrices are loaded whole. -/
theorem mat4 (x3 : Vec Ideal S512x128 .f32) : mat (k0_pay4 (F := Ideal) (View.ld x3 r0_0)) = mat x3 := by
  unfold k0_pay4
  rw [shapeCast_self, View.ld_unit_zero hz2]

theorem mat5 (x4 : Vec Ideal S128x64 .f32) : mat (k0_pay5 (F := Ideal) (View.ld x4 r0_1)) = mat x4 := by
  unfold k0_pay5
  rw [shapeCast_self, View.ld_unit_zero hz2]

theorem piece3_plain (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay2 (k0_pay4 (View.ld x3 r0_0)) (k0_pay5 (View.ld x4 r0_1)) (k0_pay30 (k0_pay4 (View.ld x3 r0_0)) (View.ld x0 r0_2) (View.ld x2 r0_19) (View.ld x0 r0_4) (View.ld x2 r0_20) (View.ld x0 r0_6) (View.ld x2 r0_21)) (k0_pay32 (View.ld x0 r0_2) (View.ld x2 r0_19) (View.ld x0 r0_4) (View.ld x2 r0_20) (View.ld x0 r0_6) (View.ld x2 r0_21))) (ix4 (0 : Fin 1) (0 : Fin 1) hl wl)
      = blockPlain x0 x2 x3 x4 (3 : Fin 4) hl wl := by
  rw [chan3_plain, planes_ld, taps_ld3, mat4, mat5]
  rfl

theorem piece2_plain (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay27 (k0_pay4 (View.ld x3 r0_0)) (k0_pay5 (View.ld x4 r0_1)) (k0_pay22 (View.ld x0 r0_2) (View.ld x2 r0_15) (View.ld x0 r0_4) (View.ld x2 r0_16)) (k0_pay23 (View.ld x0 r0_6)) (View.ld x2 r0_17)) (ix4 (0 : Fin 1) (0 : Fin 1) hl wl)
      = blockPlain x0 x2 x3 x4 (2 : Fin 4) hl wl := by
  rw [chan2_plain, planes_ld, taps_ld2, mat4, mat5]
  rfl

theorem piece1_plain (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay20 (k0_pay5 (View.ld x4 r0_1)) (k0_pay19 (k0_pay4 (View.ld x3 r0_0)) (k0_pay12 (View.ld x0 r0_2)) (k0_pay13 (View.ld x2 r0_11)) (View.ld x0 r0_4) (View.ld x2 r0_12) (View.ld x0 r0_6) (View.ld x2 r0_13))) (ix4 (0 : Fin 1) (0 : Fin 1) hl wl)
      = blockPlain x0 x2 x3 x4 (1 : Fin 4) hl wl := by
  rw [chan1_plain, planes_ld, taps_ld1, mat4, mat5]
  rfl

theorem piece0_plain (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay10 (k0_pay4 (View.ld x3 r0_0)) (k0_pay5 (View.ld x4 r0_1)) (k0_pay6 (View.ld x0 r0_2) (View.ld x2 r0_3) (View.ld x0 r0_4) (View.ld x2 r0_5) (View.ld x0 r0_6) (View.ld x2 r0_7)) (k0_pay7 (View.ld x0 r0_2) (View.ld x2 r0_3) (View.ld x0 r0_4) (View.ld x2 r0_5) (View.ld x0 r0_6) (View.ld x2 r0_7))) (ix4 (0 : Fin 1) (0 : Fin 1) hl wl)
      = blockPlain x0 x2 x3 x4 (0 : Fin 4) hl wl := by
  rw [chan0_plain, planes_ld, taps_ld0, mat4, mat5]
  rfl

theorem piece3_masked (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay3 (k0_pay4 (View.ld x3 r0_0)) (k0_pay5 (View.ld x4 r0_1)) (k0_pay31 (k0_pay4 (View.ld x3 r0_0)) (View.ld x0 r0_2) (View.ld x2 r0_19) (View.ld x0 r0_4) (View.ld x2 r0_20) (View.ld x0 r0_6) (View.ld x2 r0_21) (View.ld x1 r0_8)) (k0_pay32 (View.ld x0 r0_2) (View.ld x2 r0_19) (View.ld x0 r0_4) (View.ld x2 r0_20) (View.ld x0 r0_6) (View.ld x2 r0_21)) (View.ld x1 r0_9)) (ix4 (0 : Fin 1) (0 : Fin 1) hl wl)
      = blockMasked x0 x1 x2 x3 x4 (3 : Fin 4) hl wl := by
  rw [chan3_masked, planes_ld, taps_ld3, masks_ld, mat4, mat5]
  rfl

theorem piece2_masked (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay28 (k0_pay4 (View.ld x3 r0_0)) (k0_pay5 (View.ld x4 r0_1)) (k0_pay22 (View.ld x0 r0_2) (View.ld x2 r0_15) (View.ld x0 r0_4) (View.ld x2 r0_16)) (k0_pay23 (View.ld x0 r0_6)) (View.ld x2 r0_17) (View.ld x1 r0_8) (View.ld x1 r0_9)) (ix4 (0 : Fin 1) (0 : Fin 1) hl wl)
      = blockMasked x0 x1 x2 x3 x4 (2 : Fin 4) hl wl := by
  rw [chan2_masked, planes_ld, taps_ld2, masks_ld, mat4, mat5]
  rfl

theorem piece1_masked (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay21 (k0_pay5 (View.ld x4 r0_1)) (k0_pay16 (k0_pay4 (View.ld x3 r0_0)) (k0_pay12 (View.ld x0 r0_2)) (k0_pay13 (View.ld x2 r0_11)) (View.ld x0 r0_4) (View.ld x2 r0_12) (View.ld x0 r0_6) (View.ld x2 r0_13) (View.ld x1 r0_8)) (k0_pay18 (k0_pay4 (View.ld x3 r0_0)) (k0_pay12 (View.ld x0 r0_2)) (k0_pay13 (View.ld x2 r0_11)) (View.ld x0 r0_4) (View.ld x2 r0_12) (View.ld x0 r0_6) (View.ld x2 r0_13) (View.ld x1 r0_9))) (ix4 (0 : Fin 1) (0 : Fin 1) hl wl)
      = blockMasked x0 x1 x2 x3 x4 (1 : Fin 4) hl wl := by
  rw [chan1_masked, planes_ld, taps_ld1, masks_ld, mat4, mat5]
  rfl

theorem piece0_masked (x0 : Vec Ideal S1x3x512x512 .f32) (x1 : Vec Ideal S1x2x64x128 .f32) (x2 : Vec Ideal S4x3x8x512 .f32)
    (x3 : Vec Ideal S512x128 .f32) (x4 : Vec Ideal S128x64 .f32) (hl wl : Fin 64) :
    (k0_pay11 (k0_pay4 (View.ld x3 r0_0)) (k0_pay5 (View.ld x4 r0_1)) (k0_pay6 (View.ld x0 r0_2) (View.ld x2 r0_3) (View.ld x0 r0_4) (View.ld x2 r0_5) (View.ld x0 r0_6) (View.ld x2 r0_7)) (k0_pay7 (View.ld x0 r0_2) (View.ld x2 r0_3) (View.ld x0 r0_4) (View.ld x2 r0_5) (View.ld x0 r0_6) (View.ld x2 r0_7)) (View.ld x1 r0_8) (View.ld x1 r0_9)) (ix4 (0 : Fin 1) (0 : Fin 1) hl wl)
      = blockMasked x0 x1 x2 x3 x4 (0 : Fin 4) hl wl := by
  rw [chan0_masked, planes_ld, taps_ld0, masks_ld, mat4, mat5]
  rfl

theorem emb_slab3 (hl wl : Fin 64) : r0_22.emb (ix4 (0 : Fin 1) (0 : Fin 1) hl wl) = ix4 (0 : Fin 1) (3 : Fin 4) hl wl := by
  funext a; apply Fin.ext
  match a with
  | ⟨0, _⟩ => rfl
  | ⟨1, _⟩ => rfl
  | ⟨2, _⟩ => show 0 + 1 * hl.val = hl.val; omega
  | ⟨3, _⟩ => show 0 + 1 * wl.val = wl.val; omega

theorem emb_slab2 (hl wl : Fin 64) : r0_18.emb (ix4 (0 : Fin 1) (0 : Fin 1) hl wl) = ix4 (0 : Fin 1) (2 : Fin 4) hl wl := by
  funext a; apply Fin.ext
  match a with
  | ⟨0, _⟩ => rfl
  | ⟨1, _⟩ => rfl
  | ⟨2, _⟩ => show 0 + 1 * hl.val = hl.val; omega
  | ⟨3, _⟩ => show 0 + 1 * wl.val = wl.val; omega

theorem emb_slab1 (hl wl : Fin 64) : r0_14.emb (ix4 (0 : Fin 1) (0 : Fin 1) hl wl) = ix4 (0 : Fin 1) (1 : Fin 4) hl wl := by
  funext a; apply Fin.ext
  match a with
  | ⟨0, _⟩ => rfl
  | ⟨1, _⟩ => rfl
  | ⟨2, _⟩ => show 0 + 1 * hl.val = hl.val; omega
  | ⟨3, _⟩ => show 0 + 1 * wl.val = wl.val; omega

theorem emb_slab0 (hl wl : Fin 64) : r0_10.emb (ix4 (0 : Fin 1) (0 : Fin 1) hl wl) = ix4 (0 : Fin 1) (0 : Fin 4) hl wl := by
  funext a; apply Fin.ext
  match a with
  | ⟨0, _⟩ => rfl
  | ⟨1, _⟩ => rfl
  | ⟨2, _⟩ => show 0 + 1 * hl.val = hl.val; omega
  | ⟨3, _⟩ => show 0 + 1 * wl.val = wl.val; omega

/-- An index of a slab: its two leading coordinates are zero. -/
theorem slab_coords (x : S1x1x64x64.Idx) : ∃ hl wl : Fin 64, x = ix4 (0 : Fin 1) (0 : Fin 1) hl wl :=
  ⟨x 2, x 3, funext fun a => match a with
    | ⟨0, _⟩ => Fin.ext (Nat.lt_one_iff.mp (x 0).isLt)
    | ⟨1, _⟩ => Fin.ext (Nat.lt_one_iff.mp (x 1).isLt)
    | ⟨2, _⟩ => rfl
    | ⟨3, _⟩ => rfl⟩

/-- The plain output block after the body. -/
theorem block_plain (x0 : Vec Ideal S1x3x512x512 .f32) (x1 : Vec Ideal S1x2x64x128 .f32) (x2 : Vec Ideal S4x3x8x512 .f32)
    (x3 : Vec Ideal S512x128 .f32) (x4 : Vec Ideal S128x64 .f32) (y : S1x4x64x64.Idx) :
    out0_5 (F := Ideal) x0 x1 x2 x3 x4 y = blockPlain x0 x2 x3 x4 (y 1) (y 2) (y 3) := by
  unfold out0_5
  refine View.canon_apply_of_pieces (Val := Elt Ideal) (e := .f32) (fun y : S1x4x64x64.Idx => blockPlain x0 x2 x3 x4 (y 1) (y 2) (y 3)) _ ?_ y (cover0_5 _ _ _ _ y)
  intro p hp x
  simp only [List.mem_cons, List.mem_nil_iff, or_false] at hp
  rcases hp with rfl | rfl | rfl | rfl
  · obtain ⟨hl, wl, rfl⟩ := slab_coords x
    refine (piece3_plain x0 x1 x2 x3 x4 hl wl).trans ?_
    show _ = (fun y : S1x4x64x64.Idx => blockPlain x0 x2 x3 x4 (y 1) (y 2) (y 3)) (r0_22.emb (ix4 (0 : Fin 1) (0 : Fin 1) hl wl))
    rw [emb_slab3]
  · obtain ⟨hl, wl, rfl⟩ := slab_coords x
    refine (piece2_plain x0 x1 x2 x3 x4 hl wl).trans ?_
    show _ = (fun y : S1x4x64x64.Idx => blockPlain x0 x2 x3 x4 (y 1) (y 2) (y 3)) (r0_18.emb (ix4 (0 : Fin 1) (0 : Fin 1) hl wl))
    rw [emb_slab2]
  · obtain ⟨hl, wl, rfl⟩ := slab_coords x
    refine (piece1_plain x0 x1 x2 x3 x4 hl wl).trans ?_
    show _ = (fun y : S1x4x64x64.Idx => blockPlain x0 x2 x3 x4 (y 1) (y 2) (y 3)) (r0_14.emb (ix4 (0 : Fin 1) (0 : Fin 1) hl wl))
    rw [emb_slab1]
  · obtain ⟨hl, wl, rfl⟩ := slab_coords x
    refine (piece0_plain x0 x1 x2 x3 x4 hl wl).trans ?_
    show _ = (fun y : S1x4x64x64.Idx => blockPlain x0 x2 x3 x4 (y 1) (y 2) (y 3)) (r0_10.emb (ix4 (0 : Fin 1) (0 : Fin 1) hl wl))
    rw [emb_slab0]

/-- The masked output block after the body. -/
theorem block_masked (x0 : Vec Ideal S1x3x512x512 .f32) (x1 : Vec Ideal S1x2x64x128 .f32) (x2 : Vec Ideal S4x3x8x512 .f32)
    (x3 : Vec Ideal S512x128 .f32) (x4 : Vec Ideal S128x64 .f32) (y : S1x4x64x64.Idx) :
    out0_6 (F := Ideal) x0 x1 x2 x3 x4 y = blockMasked x0 x1 x2 x3 x4 (y 1) (y 2) (y 3) := by
  unfold out0_6
  refine View.canon_apply_of_pieces (Val := Elt Ideal) (e := .f32) (fun y : S1x4x64x64.Idx => blockMasked x0 x1 x2 x3 x4 (y 1) (y 2) (y 3)) _ ?_ y (cover0_6 _ _ _ _ y)
  intro p hp x
  simp only [List.mem_cons, List.mem_nil_iff, or_false] at hp
  rcases hp with rfl | rfl | rfl | rfl
  · obtain ⟨hl, wl, rfl⟩ := slab_coords x
    refine (piece3_masked x0 x1 x2 x3 x4 hl wl).trans ?_
    show _ = (fun y : S1x4x64x64.Idx => blockMasked x0 x1 x2 x3 x4 (y 1) (y 2) (y 3)) (r0_22.emb (ix4 (0 : Fin 1) (0 : Fin 1) hl wl))
    rw [emb_slab3]
  · obtain ⟨hl, wl, rfl⟩ := slab_coords x
    refine (piece2_masked x0 x1 x2 x3 x4 hl wl).trans ?_
    show _ = (fun y : S1x4x64x64.Idx => blockMasked x0 x1 x2 x3 x4 (y 1) (y 2) (y 3)) (r0_18.emb (ix4 (0 : Fin 1) (0 : Fin 1) hl wl))
    rw [emb_slab2]
  · obtain ⟨hl, wl, rfl⟩ := slab_coords x
    refine (piece1_masked x0 x1 x2 x3 x4 hl wl).trans ?_
    show _ = (fun y : S1x4x64x64.Idx => blockMasked x0 x1 x2 x3 x4 (y 1) (y 2) (y 3)) (r0_14.emb (ix4 (0 : Fin 1) (0 : Fin 1) hl wl))
    rw [emb_slab1]
  · obtain ⟨hl, wl, rfl⟩ := slab_coords x
    refine (piece0_masked x0 x1 x2 x3 x4 hl wl).trans ?_
    show _ = (fun y : S1x4x64x64.Idx => blockMasked x0 x1 x2 x3 x4 (y 1) (y 2) (y 3)) (r0_10.emb (ix4 (0 : Fin 1) (0 : Fin 1) hl wl))
    rw [emb_slab0]

end Cert.KerSlabs

end
-- ==== Proof.KerArray.lean ====
/-
  The fused kernel's two output arrays after its launch, as functions of the arrays the launch reads.

  Grid point `b` (of 32) holds image `b` and its mask rows and writes block `b` of each output; the tap rows and the
  two 0/1 matrices are the same block at every point.  So entry `(b, n, hl, wl)` of an output is the nested sum of
  `Forms` over image `b`'s planes, latent channel `n`'s tap rows, the matrices and (masked) image `b`'s mask rows.
-/
import proofs.«152438_g2000606418805165_pallasbulk_850_2_alg».proof.Proof.KerSlabs
import Idealize.ShloMosaic.Lib.Pipeline.Value

set_option maxRecDepth 16384

noncomputable section

namespace Cert.KerArray

open Idealize.ShloMosaic Idealize.ShloMosaic.TcCoe Idealize.ShloMosaic.ValueIdx Idealize.SL.Sem
open Idealize.ShloMosaic.Pipeline (Dat)
open Cert.KernelIdeal Cert.KernelIdeal.Gen Cert.KerPay Cert.KerSlabs

/-- The plain output array as a function of the images, the tiled tap rows and the two 0/1 matrices. -/
def plainArr (IMG : S32x3x512x512.Idx → EReal) (WT : S4x3x8x512.Idx → EReal) (S4 : S512x128.Idx → EReal) (S2 : S128x64.Idx → EReal) :
    S32x4x64x64.Idx → EReal :=
  fun i => Cert.Forms.kerPlain (fun c h w => IMG (ix4 (i 0) c h w)) (fun c r w => WT (ix4 (i 1) c r w)) (mat S4) (mat S2) (i 2) (i 3)

/-- The masked output array, with the mask rows split by cell row `MP`. -/
def maskedArr (IMG : S32x3x512x512.Idx → EReal) (MP : S32x2x64x128.Idx → EReal) (WT : S4x3x8x512.Idx → EReal)
    (S4 : S512x128.Idx → EReal) (S2 : S128x64.Idx → EReal) : S32x4x64x64.Idx → EReal :=
  fun i => Cert.Forms.kerMasked (fun c h w => IMG (ix4 (i 0) c h w)) (fun c r w => WT (ix4 (i 1) c r w)) (mat S4) (mat S2)
    (fun g hl mw => MP (ix4 (i 0) g hl mw)) (i 2) (i 3)

/-- One point's plain block in terms of the whole arrays. -/
theorem point_plain (x0 : Vec Ideal S1x3x512x512 .f32) (x2 : Vec Ideal S4x3x8x512 .f32) (x3 : Vec Ideal S512x128 .f32)
    (x4 : Vec Ideal S128x64 .f32) (IMG : S32x3x512x512.Idx → EReal) (WT : S4x3x8x512.Idx → EReal)
    (S4 : S512x128.Idx → EReal) (S2 : S128x64.Idx → EReal) (T : ℕ) (hT : T < 32)
    (h0 : ∀ (ch : Fin 3) (h w : Fin 512), x0 (ix4 (0 : Fin 1) ch h w) = IMG (ix4 ⟨T, hT⟩ ch h w))
    (h2 : ∀ (n : Fin 4) (ch : Fin 3) (r : Fin 8) (w : Fin 512), x2 (ix4 n ch r w) = WT (ix4 n ch r w))
    (h3 : ∀ (w : Fin 512) (mw : Fin 128), x3 (ix2 w mw) = S4 (ix2 w mw))
    (h4 : ∀ (mw : Fin 128) (wl : Fin 64), x4 (ix2 mw wl) = S2 (ix2 mw wl)) (n : Fin 4) (hl wl : Fin 64) :
    blockPlain x0 x2 x3 x4 n hl wl = plainArr IMG WT S4 S2 (ix4 ⟨T, hT⟩ n hl wl) := by
  have e0 : (fun (c : Fin 3) (h w : Fin 512) => x0 (ix4 (0 : Fin 1) c h w)) = fun c h w => IMG (ix4 ⟨T, hT⟩ c h w) := by
    funext c h w; exact h0 c h w
  have e2 : (fun (c : Fin 3) (r : Fin 8) (w : Fin 512) => x2 (ix4 n c r w)) = fun c r w => WT (ix4 n c r w) := by
    funext c r w; exact h2 n c r w
  have e3 : mat x3 = mat S4 := by funext i j; exact h3 i j
  have e4 : mat x4 = mat S2 := by funext i j; exact h4 i j
  unfold blockPlain
  rw [e0, e2, e3, e4]
  rfl

/-- One point's masked block in terms of the whole arrays. -/
theorem point_masked (x0 : Vec Ideal S1x3x512x512 .f32) (x1 : Vec Ideal S1x2x64x128 .f32) (x2 : Vec Ideal S4x3x8x512 .f32)
    (x3 : Vec Ideal S512x128 .f32) (x4 : Vec Ideal S128x64 .f32) (IMG : S32x3x512x512.Idx → EReal) (MP : S32x2x64x128.Idx → EReal)
    (WT : S4x3x8x512.Idx → EReal) (S4 : S512x128.Idx → EReal) (S2 : S128x64.Idx → EReal) (T : ℕ) (hT : T < 32)
    (h0 : ∀ (ch : Fin 3) (h w : Fin 512), x0 (ix4 (0 : Fin 1) ch h w) = IMG (ix4 ⟨T, hT⟩ ch h w))
    (h1 : ∀ (g : Fin 2) (hl : Fin 64) (mw : Fin 128), x1 (ix4 (0 : Fin 1) g hl mw) = MP (ix4 ⟨T, hT⟩ g hl mw))
    (h2 : ∀ (n : Fin 4) (ch : Fin 3) (r : Fin 8) (w : Fin 512), x2 (ix4 n ch r w) = WT (ix4 n ch r w))
    (h3 : ∀ (w : Fin 512) (mw : Fin 128), x3 (ix2 w mw) = S4 (ix2 w mw))
    (h4 : ∀ (mw : Fin 128) (wl : Fin 64), x4 (ix2 mw wl) = S2 (ix2 mw wl)) (n : Fin 4) (hl wl : Fin 64) :
    blockMasked x0 x1 x2 x3 x4 n hl wl = maskedArr IMG MP WT S4 S2 (ix4 ⟨T, hT⟩ n hl wl) := by
  have e0 : (fun (c : Fin 3) (h w : Fin 512) => x0 (ix4 (0 : Fin 1) c h w)) = fun c h w => IMG (ix4 ⟨T, hT⟩ c h w) := by
    funext c h w; exact h0 c h w
  have e1 : (fun (g : Fin 2) (hl : Fin 64) (mw : Fin 128) => x1 (ix4 (0 : Fin 1) g hl mw)) = fun g hl mw => MP (ix4 ⟨T, hT⟩ g hl mw) := by
    funext g hl mw; exact h1 g hl mw
  have e2 : (fun (c : Fin 3) (r : Fin 8) (w : Fin 512) => x2 (ix4 n c r w)) = fun c r w => WT (ix4 n c r w) := by
    funext c r w; exact h2 n c r w
  have e3 : mat x3 = mat S4 := by funext i j; exact h3 i j
  have e4 : mat x4 = mat S2 := by funext i j; exact h4 i j
  unfold blockMasked
  rw [e0, e1, e2, e3, e4]
  rfl

variable (m : (ℓ : Loc nD τ sig) → Buf (Elt Ideal) ℓ)

/-- The printed index maps over the grid: the image, mask and output windows move along the leading axis with the point,
    the tap rows' and the two matrices' windows stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val ∧ win0_5.index t (1 : Fin 4) = 0 ∧ win0_5.index t (2 : Fin 4) = 0 ∧ win0_5.index t (3 : Fin 4) = 0
    ∧ win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)

theorem t_lt (t : Fin cfg0.N) : t.val < 32 := lt_of_lt_of_eq t.isLt N_0

/-- Point `t`'s image block is image `t`. -/
theorem blk0_read (c : Dev nD) (t : Fin cfg0.N) (ch : Fin 3) (h w : Fin 512) :
    iblk m c 0 t (ix4 (0 : Fin 1) ch h w) = V m c main_arg0 (ix4 ⟨t.val, t_lt t⟩ ch h w) := by
  obtain ⟨e0, e1, e2, e3, -⟩ := idx_facts t
  show V m c main_arg0 (((cfg0.win 0).blk t).view.emb (ix4 (0 : Fin 1) ch h w)) = _
  refine congrArg (V m c main_arg0) ?_
  funext ax; apply Fin.ext
  match ax with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 512 + 1 * h.val = h.val; omega
  | ⟨3, _⟩ => show win0_0.index t (3 : Fin 4) * 512 + 1 * w.val = w.val; omega

/-- Its mask block is image `t`'s mask rows. -/
theorem blk1_read (c : Dev nD) (t : Fin cfg0.N) (g : Fin 2) (hl : Fin 64) (mw : Fin 128) :
    iblk m c 1 t (ix4 (0 : Fin 1) g hl mw) = V m c main_v5 (ix4 ⟨t.val, t_lt t⟩ g hl mw) := by
  obtain ⟨-, -, -, -, e0, e1, e2, e3, -⟩ := idx_facts t
  show V m c main_v5 (((cfg0.win 1).blk t).view.emb (ix4 (0 : Fin 1) g hl mw)) = _
  refine congrArg (V m c main_v5) ?_
  funext ax; apply Fin.ext
  match ax with
  | ⟨0, _⟩ => show win0_1.index t (0 : Fin 4) * 1 + 1 * 0 = t.val; omega
  | ⟨1, _⟩ => show win0_1.index t (1 : Fin 4) * 2 + 1 * g.val = g.val; omega
  | ⟨2, _⟩ => show win0_1.index t (2 : Fin 4) * 64 + 1 * hl.val = hl.val; omega
  | ⟨3, _⟩ => show win0_1.index t (3 : Fin 4) * 128 + 1 * mw.val = mw.val; omega

/-- The tap rows' block is the whole array at every point. -/
theorem blk2_read (c : Dev nD) (t : Fin cfg0.N) (n : Fin 4) (ch : Fin 3) (r : Fin 8) (w : Fin 512) :
    iblk m c 2 t (ix4 n ch r w) = V m c main_v3 (ix4 n ch r w) := by
  obtain ⟨-, -, -, -, -, -, -, -, e0, e1, e2, e3, -⟩ := idx_facts t
  show V m c main_v3 (((cfg0.win 2).blk t).view.emb (ix4 n ch r w)) = _
  refine congrArg (V m c main_v3) ?_
  funext ax; apply Fin.ext
  match ax with
  | ⟨0, _⟩ => show win0_2.index t (0 : Fin 4) * 4 + 1 * n.val = n.val; omega
  | ⟨1, _⟩ => show win0_2.index t (1 : Fin 4) * 3 + 1 * ch.val = ch.val; omega
  | ⟨2, _⟩ => show win0_2.index t (2 : Fin 4) * 8 + 1 * r.val = r.val; omega
  | ⟨3, _⟩ => show win0_2.index t (3 : Fin 4) * 512 + 1 * w.val = w.val; omega

/-- So are the two 0/1 matrices'. -/
theorem blk3_read (c : Dev nD) (t : Fin cfg0.N) (w : Fin 512) (mw : Fin 128) :
    iblk m c 3 t (ix2 w mw) = V m c main_v14 (ix2 w mw) := by
  obtain ⟨-, -, -, -, -, -, -, -, -, -, -, -, e0, e1, -⟩ := idx_facts t
  show V m c main_v14 (((cfg0.win 3).blk t).view.emb (ix2 w mw)) = _
  refine congrArg (V m c main_v14) ?_
  funext ax; apply Fin.ext
  match ax with
  | ⟨0, _⟩ => show win0_3.index t (0 : Fin 2) * 512 + 1 * w.val = w.val; omega
  | ⟨1, _⟩ => show win0_3.index t (1 : Fin 2) * 128 + 1 * mw.val = mw.val; omega

theorem blk4_read (c : Dev nD) (t : Fin cfg0.N) (mw : Fin 128) (wl : Fin 64) :
    iblk m c 4 t (ix2 mw wl) = V m c main_v23 (ix2 mw wl) := by
  obtain ⟨-, -, -, -, -, -, -, -, -, -, -, -, -, -, e0, e1, -⟩ := idx_facts t
  show V m c main_v23 (((cfg0.win 4).blk t).view.emb (ix2 mw wl)) = _
  refine congrArg (V m c main_v23) ?_
  funext ax; apply Fin.ext
  match ax with
  | ⟨0, _⟩ => show win0_4.index t (0 : Fin 2) * 128 + 1 * mw.val = mw.val; omega
  | ⟨1, _⟩ => show win0_4.index t (1 : Fin 2) * 64 + 1 * wl.val = wl.val; omega

/-- Where point `t`'s block of output 5 sits in its array. -/
theorem emb5 (t : Fin cfg0.N) (u : Fin 1) (n : Fin 4) (hl wl : Fin 64) :
    ((cfg0.win 5).blk t).view.emb (ix4 u n hl wl) = ix4 ⟨t.val, t_lt t⟩ n hl wl := by
  obtain ⟨-, -, -, -, -, -, -, -, -, -, -, -, -, -, -, -, e50, e51, e52, e53, e60, e61, e62, e63⟩ := idx_facts t
  have hu : u.val = 0 := Nat.lt_one_iff.mp u.isLt
  funext ax; apply Fin.ext
  match ax with
  | ⟨0, _⟩ => show win0_5.index t (0 : Fin 4) * 1 + 1 * u.val = t.val; omega
  | ⟨1, _⟩ => show win0_5.index t (1 : Fin 4) * 4 + 1 * n.val = n.val; omega
  | ⟨2, _⟩ => show win0_5.index t (2 : Fin 4) * 64 + 1 * hl.val = hl.val; omega
  | ⟨3, _⟩ => show win0_5.index t (3 : Fin 4) * 64 + 1 * wl.val = wl.val; omega

/-- What point `t` writes back to output 5 is block `t` of the plain array function of the arrays as the launch finds them. -/
theorem flushed5_eq (c : Dev nD) (t : Fin cfg0.N) :
    (dats m 0 c).flushed 5 t = ((cfg0.win 5).blk t).view.read (Elt Ideal) (plainArr (V m c main_arg0) (V m c main_v3) (V m c main_v14) (V m c main_v23)) := by
  show (cfg0.win 5).cut (grid0.coords t) ((dats m 0 c).after 5 t) = _
  rw [after0_5]
  funext y
  obtain ⟨u, n, hl, wl, rfl⟩ : ∃ (u : Fin 1) (n : Fin 4) (hl wl : Fin 64), y = ix4 u n hl wl := ⟨y 0, y 1, y 2, y 3, eq_ix4 y⟩
  show out0_5 (F := Ideal) (iblk m c 0 t) (iblk m c 1 t) (iblk m c 2 t) (iblk m c 3 t) (iblk m c 4 t) (ix4 u n hl wl)
    = plainArr (V m c main_arg0) (V m c main_v3) (V m c main_v14) (V m c main_v23) (((cfg0.win 5).blk t).view.emb (ix4 u n hl wl))
  rw [emb5 t u n hl wl]
  refine (block_plain (iblk m c 0 t) (iblk m c 1 t) (iblk m c 2 t) (iblk m c 3 t) (iblk m c 4 t) (ix4 u n hl wl)).trans ?_
  exact point_plain (iblk m c 0 t) (iblk m c 2 t) (iblk m c 3 t) (iblk m c 4 t) (V m c main_arg0) (V m c main_v3) (V m c main_v14) (V m c main_v23) t.val (t_lt t) (blk0_read m c t) (blk2_read m c t) (blk3_read m c t) (blk4_read m c t) n hl wl

/-- An index of output 5's array is in point `t`'s block iff each coordinate is in the block's range on its axis. -/
theorem mem_blk5 (t : Fin cfg0.N) (i : S32x4x64x64.Idx) :
    i ∈ ((cfg0.win 5).blk t).view.set ↔ ∀ a : Fin 4, win0_5.index t a * S1x4x64x64.size a ≤ (i a).val ∧ (i a).val < win0_5.index t a * S1x4x64x64.size a + S1x4x64x64.size a := by
  show i ∈ ((View.whole main_v24_0).slice (win0_5.rect t)).set ↔ _
  rw [View.set_slice_whole, Rect.mem_set_unit]
  exact Iff.rfl

/-- Image `b`'s entries lie in point `b`'s block. -/
theorem cover5 (i : S32x4x64x64.Idx) : ∃ t : Fin cfg0.N, (cfg0.win 5).flush t = true ∧ i ∈ ((cfg0.win 5).blk t).view.set := by
  have hi0 : (i 0).val < 32 := (i 0).isLt
  have hi1 : (i 1).val < 4 := (i 1).isLt
  have hi2 : (i 2).val < 64 := (i 2).isLt
  have hi3 : (i 3).val < 64 := (i 3).isLt
  have hN : cfg0.N = 32 := N_0
  refine ⟨⟨(i 0).val, by rw [hN]; exact hi0⟩, flush0_5 _, ?_⟩
  rw [mem_blk5]
  obtain ⟨-, -, -, -, -, -, -, -, -, -, -, -, -, -, -, -, e50, e51, e52, e53, e60, e61, e62, e63⟩ := idx_facts ⟨(i 0).val, by rw [hN]; exact hi0⟩
  intro a
  match a with
  | ⟨0, _⟩ =>
    show win0_5.index _ (0 : Fin 4) * 1 ≤ (i 0).val ∧ (i 0).val < win0_5.index _ (0 : Fin 4) * 1 + 1
    rw [e50]; show (i 0).val * 1 ≤ (i 0).val ∧ (i 0).val < (i 0).val * 1 + 1; omega
  | ⟨1, _⟩ =>
    show win0_5.index _ (1 : Fin 4) * 4 ≤ (i 1).val ∧ (i 1).val < win0_5.index _ (1 : Fin 4) * 4 + 4
    rw [e51]; omega
  | ⟨2, _⟩ =>
    show win0_5.index _ (2 : Fin 4) * 64 ≤ (i 2).val ∧ (i 2).val < win0_5.index _ (2 : Fin 4) * 64 + 64
    rw [e52]; omega
  | ⟨3, _⟩ =>
    show win0_5.index _ (3 : Fin 4) * 64 ≤ (i 3).val ∧ (i 3).val < win0_5.index _ (3 : Fin 4) * 64 + 64
    rw [e53]; omega

/-- Output 5's array after the launch. -/
theorem final5 (c : Dev nD) : (dats m 0 c).arrAt 5 cfg0.N = plainArr (V m c main_arg0) (V m c main_v3) (V m c main_v14) (V m c main_v23) :=
  (dats m 0 c).arrAt_eq_of_cover 5 _ (fun t _ => flushed5_eq m c t) cover5

/-- Where point `t`'s block of output 6 sits in its array. -/
theorem emb6 (t : Fin cfg0.N) (u : Fin 1) (n : Fin 4) (hl wl : Fin 64) :
    ((cfg0.win 6).blk t).view.emb (ix4 u n hl wl) = ix4 ⟨t.val, t_lt t⟩ n hl wl := by
  obtain ⟨-, -, -, -, -, -, -, -, -, -, -, -, -, -, -, -, e50, e51, e52, e53, e60, e61, e62, e63⟩ := idx_facts t
  have hu : u.val = 0 := Nat.lt_one_iff.mp u.isLt
  funext ax; apply Fin.ext
  match ax with
  | ⟨0, _⟩ => show win0_6.index t (0 : Fin 4) * 1 + 1 * u.val = t.val; omega
  | ⟨1, _⟩ => show win0_6.index t (1 : Fin 4) * 4 + 1 * n.val = n.val; omega
  | ⟨2, _⟩ => show win0_6.index t (2 : Fin 4) * 64 + 1 * hl.val = hl.val; omega
  | ⟨3, _⟩ => show win0_6.index t (3 : Fin 4) * 64 + 1 * wl.val = wl.val; omega

/-- What point `t` writes back to output 6 is block `t` of the masked array function of the arrays as the launch finds them. -/
theorem flushed6_eq (c : Dev nD) (t : Fin cfg0.N) :
    (dats m 0 c).flushed 6 t = ((cfg0.win 6).blk t).view.read (Elt Ideal) (maskedArr (V m c main_arg0) (V m c main_v5) (V m c main_v3) (V m c main_v14) (V m c main_v23)) := by
  show (cfg0.win 6).cut (grid0.coords t) ((dats m 0 c).after 6 t) = _
  rw [after0_6]
  funext y
  obtain ⟨u, n, hl, wl, rfl⟩ : ∃ (u : Fin 1) (n : Fin 4) (hl wl : Fin 64), y = ix4 u n hl wl := ⟨y 0, y 1, y 2, y 3, eq_ix4 y⟩
  show out0_6 (F := Ideal) (iblk m c 0 t) (iblk m c 1 t) (iblk m c 2 t) (iblk m c 3 t) (iblk m c 4 t) (ix4 u n hl wl)
    = maskedArr (V m c main_arg0) (V m c main_v5) (V m c main_v3) (V m c main_v14) (V m c main_v23) (((cfg0.win 6).blk t).view.emb (ix4 u n hl wl))
  rw [emb6 t u n hl wl]
  refine (block_masked (iblk m c 0 t) (iblk m c 1 t) (iblk m c 2 t) (iblk m c 3 t) (iblk m c 4 t) (ix4 u n hl wl)).trans ?_
  exact point_masked (iblk m c 0 t) (iblk m c 1 t) (iblk m c 2 t) (iblk m c 3 t) (iblk m c 4 t) (V m c main_arg0) (V m c main_v5) (V m c main_v3) (V m c main_v14) (V m c main_v23) t.val (t_lt t) (blk0_read m c t) (blk1_read m c t) (blk2_read m c t) (blk3_read m c t) (blk4_read m c t) n hl wl

/-- An index of output 6's array is in point `t`'s block iff each coordinate is in the block's range on its axis. -/
theorem mem_blk6 (t : Fin cfg0.N) (i : S32x4x64x64.Idx) :
    i ∈ ((cfg0.win 6).blk t).view.set ↔ ∀ a : Fin 4, win0_6.index t a * S1x4x64x64.size a ≤ (i a).val ∧ (i a).val < win0_6.index t a * S1x4x64x64.size a + S1x4x64x64.size a := by
  show i ∈ ((View.whole main_v24_1).slice (win0_6.rect t)).set ↔ _
  rw [View.set_slice_whole, Rect.mem_set_unit]
  exact Iff.rfl

/-- Image `b`'s entries lie in point `b`'s block. -/
theorem cover6 (i : S32x4x64x64.Idx) : ∃ t : Fin cfg0.N, (cfg0.win 6).flush t = true ∧ i ∈ ((cfg0.win 6).blk t).view.set := by
  have hi0 : (i 0).val < 32 := (i 0).isLt
  have hi1 : (i 1).val < 4 := (i 1).isLt
  have hi2 : (i 2).val < 64 := (i 2).isLt
  have hi3 : (i 3).val < 64 := (i 3).isLt
  have hN : cfg0.N = 32 := N_0
  refine ⟨⟨(i 0).val, by rw [hN]; exact hi0⟩, flush0_6 _, ?_⟩
  rw [mem_blk6]
  obtain ⟨-, -, -, -, -, -, -, -, -, -, -, -, -, -, -, -, e50, e51, e52, e53, e60, e61, e62, e63⟩ := idx_facts ⟨(i 0).val, by rw [hN]; exact hi0⟩
  intro a
  match a with
  | ⟨0, _⟩ =>
    show win0_6.index _ (0 : Fin 4) * 1 ≤ (i 0).val ∧ (i 0).val < win0_6.index _ (0 : Fin 4) * 1 + 1
    rw [e60]; show (i 0).val * 1 ≤ (i 0).val ∧ (i 0).val < (i 0).val * 1 + 1; omega
  | ⟨1, _⟩ =>
    show win0_6.index _ (1 : Fin 4) * 4 ≤ (i 1).val ∧ (i 1).val < win0_6.index _ (1 : Fin 4) * 4 + 4
    rw [e61]; omega
  | ⟨2, _⟩ =>
    show win0_6.index _ (2 : Fin 4) * 64 ≤ (i 2).val ∧ (i 2).val < win0_6.index _ (2 : Fin 4) * 64 + 64
    rw [e62]; omega
  | ⟨3, _⟩ =>
    show win0_6.index _ (3 : Fin 4) * 64 ≤ (i 3).val ∧ (i 3).val < win0_6.index _ (3 : Fin 4) * 64 + 64
    rw [e63]; omega

/-- Output 6's array after the launch. -/
theorem final6 (c : Dev nD) : (dats m 0 c).arrAt 6 cfg0.N = maskedArr (V m c main_arg0) (V m c main_v5) (V m c main_v3) (V m c main_v14) (V m c main_v23) :=
  (dats m 0 c).arrAt_eq_of_cover 6 _ (fun t _ => flushed6_eq m c t) cover6

end Cert.KerArray

end
-- ==== Proof.LibPatchSums.lean ====
/-
  A finite-sum identity: the order in which a fused kernel adds up the 8 × 8-patch projection of an image
  gives the same real number as the tap-by-tap sum  ∑ k, w k · pixel k  (optionally with every pixel scaled
  by the mask cell it lies in).

  Tap k = 64·c + 8·dy + dx of the patch at (hl, wl) reads pixel (8·hl + dy, 8·wl + dx) of channel c.
  The kernel sums, for a mask column mw (kept by the indicator mw / 2 = wl) and a cell row g, over all
  512 pixel columns w weighted by the indicator w / 4 = mw, over the four pixel rows 4·g + r, and over
  the channels; the weight used at (c, row, w) is tap 64·c + 8·row + w % 8.  Only the columns with
  w / 8 = wl survive, w = 8·wl + dx, mw = 2·wl + dx / 4, row = 4·g + r = dy, and the mask row is
  2·hl + g = 2·hl + dy / 4.
-/
import proofs.«152438_g2000606418805165_pallasbulk_850_2_alg».proof.Proof.Forms
import Mathlib.Algebra.BigOperators.Fin
import Mathlib.Algebra.BigOperators.Ring.Finset
import Mathlib.Data.Fintype.BigOperators

noncomputable section

namespace Cert.PatchSums

open Cert.Forms

/-! ### Coercion of finite real sums into the extended reals -/

/-- The coercion from the reals to the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### The same forms over the reals -/

/-- Real indicator: pixel column w lies in mask column mw. -/
def i4 (w : Fin 512) (mw : Fin 128) : ℝ := if w.val / 4 = mw.val then 1 else 0
/-- Real indicator: mask column mw lies in patch column wl. -/
def i2 (mw : Fin 128) (wl : Fin 64) : ℝ := if mw.val / 2 = wl.val then 1 else 0

/-- One pixel's contribution over the reals, written as a sum over the three channels. -/
def rstrip (x : Fin 3 → Fin 512 → Fin 512 → ℝ) (wt : Fin 3 → Fin 8 → Fin 512 → ℝ)
    (hl : Fin 64) (r : Fin 8) (w : Fin 512) : ℝ :=
  ∑ c : Fin 3, x c ⟨8 * hl.val + r.val, by omega⟩ w * wt c r w

/-- The four pixel rows of one cell row, over the reals. -/
def rhalf (x : Fin 3 → Fin 512 → Fin 512 → ℝ) (wt : Fin 3 → Fin 8 → Fin 512 → ℝ)
    (g : Fin 2) (hl : Fin 64) (w : Fin 512) : ℝ :=
  ∑ r : Fin 4, rstrip x wt hl ⟨4 * g.val + r.val, by omega⟩ w

/-- The pixel columns gathered into mask columns, over the reals. -/
def rcell (x : Fin 3 → Fin 512 → Fin 512 → ℝ) (wt : Fin 3 → Fin 8 → Fin 512 → ℝ)
    (g : Fin 2) (hl : Fin 64) (mw : Fin 128) : ℝ :=
  ∑ w : Fin 512, rhalf x wt g hl w * i4 w mw

/-- The masked output over the reals (the plain output is the case of a mask that is 1 everywhere). -/
def rker (x : Fin 3 → Fin 512 → Fin 512 → ℝ) (wt : Fin 3 → Fin 8 → Fin 512 → ℝ)
    (mk : Fin 2 → Fin 128 → ℝ) (hl wl : Fin 64) : ℝ :=
  ∑ mw : Fin 128, (mk 0 mw * rcell x wt 0 hl mw + mk 1 mw * rcell x wt 1 hl mw) * i2 mw wl

/-- The extended-real indicator is the coercion of the real one. -/
theorem ind4_coe (w : Fin 512) (mw : Fin 128) : ind4 w mw = ((i4 w mw : ℝ) : EReal) := by
  unfold ind4 i4; split_ifs <;> simp

/-- The extended-real indicator is the coercion of the real one. -/
theorem ind2_coe (mw : Fin 128) (wl : Fin 64) : ind2 mw wl = ((i2 mw wl : ℝ) : EReal) := by
  unfold ind2 i2; split_ifs <;> simp

/-- On real data one pixel's contribution is the coercion of the real one. -/
theorem strip_coe (x : Fin 3 → Fin 512 → Fin 512 → ℝ) (wt : Fin 3 → Fin 8 → Fin 512 → ℝ)
    (hl : Fin 64) (r : Fin 8) (w : Fin 512) :
    strip (fun c h w => ((x c h w : ℝ) : EReal)) (fun c r w => ((wt c r w : ℝ) : EReal)) hl r w
      = ((rstrip x wt hl r w : ℝ) : EReal) := by
  unfold strip rstrip
  rw [Fin.sum_univ_three, EReal.coe_add, EReal.coe_add, EReal.coe_mul, EReal.coe_mul, EReal.coe_mul]

/-- On real data the sum of four pixel rows is the coercion of the real one. -/
theorem half_coe (x : Fin 3 → Fin 512 → Fin 512 → ℝ) (wt : Fin 3 → Fin 8 → Fin 512 → ℝ)
    (g : Fin 2) (hl : Fin 64) (w : Fin 512) :
    half (fun c h w => ((x c h w : ℝ) : EReal)) (fun c r w => ((wt c r w : ℝ) : EReal)) g hl w
      = ((rhalf x wt g hl w : ℝ) : EReal) := by
  unfold half rhalf
  rw [coe_sum]
  exact Finset.sum_congr rfl fun r _ => strip_coe x wt hl _ w

/-- On real data a mask cell's sum is the coercion of the real one. -/
theorem cell_coe (x : Fin 3 → Fin 512 → Fin 512 → ℝ) (wt : Fin 3 → Fin 8 → Fin 512 → ℝ)
    (g : Fin 2) (hl : Fin 64) (mw : Fin 128) :
    cell (fun c h w => ((x c h w : ℝ) : EReal)) (fun c r w => ((wt c r w : ℝ) : EReal)) ind4 g hl mw
      = ((rcell x wt g hl mw : ℝ) : EReal) := by
  unfold cell rcell
  rw [coe_sum]
  refine Finset.sum_congr rfl fun w _ => ?_
  rw [half_coe, ind4_coe, EReal.coe_mul]

/-! ### Collapsing the indicator sums -/

/-- Only the eight pixel columns 8·wl + dx of patch column wl pass the test w / 8 = wl. -/
theorem sum_block (F : Fin 512 → ℝ) (wl : Fin 64) :
    ∑ w : Fin 512, (if w.val / 8 = wl.val then F w else 0)
      = ∑ dx : Fin 8, F ⟨8 * wl.val + dx.val, by omega⟩ := by
  rw [← Finset.sum_filter]
  refine Finset.sum_nbij' (fun w => ⟨w.val % 8, by omega⟩)
    (fun dx => ⟨8 * wl.val + dx.val, by omega⟩) ?_ ?_ ?_ ?_ ?_
  · intro a _; exact Finset.mem_univ _
  · intro a _
    simp only [Finset.mem_filter, Finset.mem_univ, true_and]
    omega
  · intro a ha
    simp only [Finset.mem_filter, Finset.mem_univ, true_and] at ha
    apply Fin.ext
    show 8 * wl.val + a.val % 8 = a.val
    omega
  · intro a _
    apply Fin.ext
    show (8 * wl.val + a.val) % 8 = a.val
    omega
  · intro a ha
    simp only [Finset.mem_filter, Finset.mem_univ, true_and] at ha
    congr 1
    apply Fin.ext
    show a.val = 8 * wl.val + a.val % 8
    omega

/-- Summing over the mask columns mw with the two indicators w / 4 = mw and mw / 2 = wl leaves, for each of
    the eight pixel columns w = 8·wl + dx of patch column wl, the value at its own mask column
    mw = w / 4 = 2·wl + dx / 4. -/
theorem sum_collapse (H : Fin 512 → ℝ) (M : Fin 128 → ℝ) (wl : Fin 64) :
    ∑ mw : Fin 128, (M mw * ∑ w : Fin 512, H w * i4 w mw) * i2 mw wl
      = ∑ dx : Fin 8, M ⟨2 * wl.val + dx.val / 4, by omega⟩ * H ⟨8 * wl.val + dx.val, by omega⟩ := by
  have h0 : ∑ dx : Fin 8, M ⟨2 * wl.val + dx.val / 4, by omega⟩ * H ⟨8 * wl.val + dx.val, by omega⟩
      = ∑ w : Fin 512, (if w.val / 8 = wl.val then M ⟨w.val / 4, by omega⟩ * H w else 0) := by
    rw [sum_block (fun w => M ⟨w.val / 4, by omega⟩ * H w) wl]
    refine Finset.sum_congr rfl fun dx _ => ?_
    congr 2
    apply Fin.ext
    show 2 * wl.val + dx.val / 4 = (8 * wl.val + dx.val) / 4
    omega
  have h1 : ∀ mw : Fin 128, (M mw * ∑ w : Fin 512, H w * i4 w mw) * i2 mw wl
      = ∑ w : Fin 512, (if w.val / 4 = mw.val then M mw * H w * i2 mw wl else 0) := by
    intro mw
    rw [Finset.mul_sum, Finset.sum_mul]
    refine Finset.sum_congr rfl fun w _ => ?_
    unfold i4
    split_ifs <;> ring
  rw [h0, Finset.sum_congr rfl (fun mw _ => h1 mw), Finset.sum_comm]
  refine Finset.sum_congr rfl fun w _ => ?_
  rw [Finset.sum_eq_single (⟨w.val / 4, by omega⟩ : Fin 128)]
  · rw [if_pos rfl]
    unfold i2
    show M ⟨w.val / 4, _⟩ * H w * (if w.val / 4 / 2 = wl.val then 1 else 0) = _
    split_ifs with h2 h3 h3
    · ring
    · exfalso; omega
    · exfalso; omega
    · ring
  · intro b _ hb
    rw [if_neg]
    intro h
    exact hb (Fin.ext h.symm)
  · intro h
    exact absurd (Finset.mem_univ _) h

/-! ### Enumerating the taps -/

/-- The 192 taps k = 64·c + 8·(4·g + r) + dx, enumerated by cell row g, column dx, row r in the cell and
    channel c. -/
theorem sum_taps (G : Fin 192 → ℝ) :
    ∑ k : Fin 192, G k
      = ∑ g : Fin 2, ∑ dx : Fin 8, ∑ r : Fin 4, ∑ c : Fin 3,
          G ⟨64 * c.val + 8 * (4 * g.val + r.val) + dx.val, by omega⟩ := by
  have h : ∑ p : Fin 2 × Fin 8 × Fin 4 × Fin 3,
        G ⟨64 * p.2.2.2.val + 8 * (4 * p.1.val + p.2.2.1.val) + p.2.1.val, by omega⟩
      = ∑ k : Fin 192, G k := by
    refine Finset.sum_nbij'
      (fun p => ⟨64 * p.2.2.2.val + 8 * (4 * p.1.val + p.2.2.1.val) + p.2.1.val, by omega⟩)
      (fun k => (⟨(k.val / 32) % 2, by omega⟩, ⟨k.val % 8, by omega⟩, ⟨(k.val / 8) % 4, by omega⟩,
        ⟨k.val / 64, by omega⟩)) ?_ ?_ ?_ ?_ ?_
    · intro a _; exact Finset.mem_univ _
    · intro a _; exact Finset.mem_univ _
    · rintro ⟨g, dx, r, c⟩ _
      simp only [Prod.mk.injEq, Fin.ext_iff]
      refine ⟨?_, ?_, ?_, ?_⟩ <;> omega
    · intro k _
      simp only [Fin.ext_iff]
      omega
    · intro a _; rfl
  rw [← h]
  simp only [Fintype.sum_prod_type]

/-! ### The kernel's order of summation, over the reals -/

/-- The product belonging to tap k of the patch at (hl, wl): weight × pixel × mask cell, where the mask is
    given per cell row (row g of the patch strip) and mask column. -/
def tapTerm (x : Fin 3 → Fin 512 → Fin 512 → ℝ) (wk : Fin 192 → ℝ) (mk : Fin 2 → Fin 128 → ℝ)
    (hl wl : Fin 64) (k : Fin 192) : ℝ :=
  wk k * (x ⟨k.val / 64, by omega⟩ ⟨8 * hl.val + (k.val / 8) % 8, by omega⟩ ⟨8 * wl.val + k.val % 8, by omega⟩
    * mk ⟨(k.val / 32) % 2, by omega⟩ ⟨2 * wl.val + (k.val % 8) / 4, by omega⟩)

/-- One term: the kernel's product for (g, dx, r, c) is the tap's product once the indices are identified. -/
theorem term_eq (x : Fin 3 → Fin 512 → Fin 512 → ℝ) (wk : Fin 192 → ℝ) (mk : Fin 2 → Fin 128 → ℝ)
    {a a' : Fin 3} {b b' c c' : Fin 512} {k k' : Fin 192} {g g' : Fin 2} {m m' : Fin 128}
    (ha : a' = a) (hb : b' = b) (hc : c' = c) (hk : k' = k) (hg : g' = g) (hm : m' = m) :
    mk g m * (x a b c * wk k) = wk k' * (x a' b' c' * mk g' m') := by
  subst ha hb hc hk hg hm; ring

/-- One cell row's share of the output: the sum over the mask columns collapses to the taps of that cell
    row, 8 columns × 4 rows × 3 channels. -/
theorem row_collapse (x : Fin 3 → Fin 512 → Fin 512 → ℝ) (wk : Fin 192 → ℝ) (mk : Fin 2 → Fin 128 → ℝ)
    (hl wl : Fin 64) (g : Fin 2) :
    ∑ mw : Fin 128,
        (mk g mw * rcell x (fun c r w => wk ⟨64 * c.val + 8 * r.val + w.val % 8, by omega⟩) g hl mw) * i2 mw wl
      = ∑ dx : Fin 8, ∑ r : Fin 4, ∑ c : Fin 3,
          tapTerm x wk mk hl wl ⟨64 * c.val + 8 * (4 * g.val + r.val) + dx.val, by omega⟩ := by
  unfold rcell
  rw [sum_collapse]
  refine Finset.sum_congr rfl fun dx _ => ?_
  unfold rhalf rstrip
  rw [Finset.mul_sum]
  refine Finset.sum_congr rfl fun r _ => ?_
  rw [Finset.mul_sum]
  refine Finset.sum_congr rfl fun c _ => ?_
  unfold tapTerm
  dsimp only
  refine term_eq x wk mk ?_ ?_ ?_ ?_ ?_ ?_ <;> (apply Fin.ext; dsimp only; omega)

/-- Over the reals, the kernel's order of summation gives the tap-by-tap sum. -/
theorem rker_eq (x : Fin 3 → Fin 512 → Fin 512 → ℝ) (wk : Fin 192 → ℝ) (mk : Fin 2 → Fin 128 → ℝ)
    (hl wl : Fin 64) :
    rker x (fun c r w => wk ⟨64 * c.val + 8 * r.val + w.val % 8, by omega⟩) mk hl wl
      = ∑ k : Fin 192, tapTerm x wk mk hl wl k := by
  unfold rker
  simp only [add_mul, Finset.sum_add_distrib]
  rw [row_collapse, row_collapse, sum_taps, Fin.sum_univ_two]

/-! ### Back to the extended reals -/

/-- On real data the masked output is the coercion of the real one. -/
theorem kerMasked_coe (x : Fin 3 → Fin 512 → Fin 512 → ℝ) (wt : Fin 3 → Fin 8 → Fin 512 → ℝ)
    (mk : Fin 2 → Fin 64 → Fin 128 → ℝ) (hl wl : Fin 64) :
    kerMasked (fun c h w => ((x c h w : ℝ) : EReal)) (fun c r w => ((wt c r w : ℝ) : EReal)) ind4 ind2
        (fun g hl' mw => ((mk g hl' mw : ℝ) : EReal)) hl wl
      = ((rker x wt (fun g mw => mk g hl mw) hl wl : ℝ) : EReal) := by
  unfold kerMasked rker
  rw [coe_sum]
  refine Finset.sum_congr rfl fun mw _ => ?_
  rw [cell_coe, cell_coe, ind2_coe, EReal.coe_mul, EReal.coe_add, EReal.coe_mul, EReal.coe_mul]

/-- On real data the plain output is the coercion of the real masked one with the mask 1 everywhere. -/
theorem kerPlain_coe (x : Fin 3 → Fin 512 → Fin 512 → ℝ) (wt : Fin 3 → Fin 8 → Fin 512 → ℝ)
    (hl wl : Fin 64) :
    kerPlain (fun c h w => ((x c h w : ℝ) : EReal)) (fun c r w => ((wt c r w : ℝ) : EReal)) ind4 ind2 hl wl
      = ((rker x wt (fun _ _ => 1) hl wl : ℝ) : EReal) := by
  unfold kerPlain rker
  rw [coe_sum]
  refine Finset.sum_congr rfl fun mw _ => ?_
  rw [cell_coe, cell_coe, ind2_coe, one_mul, one_mul, EReal.coe_mul, EReal.coe_add]

/-! ### The two identities -/

/-- The plain output of the fused kernel on real data: summing the patch at (hl, wl) in the kernel's order
    (channels, then the four pixel rows of a cell, then all pixel columns against the 0/1 matrix
    w / 4 = mw, then the two cell rows, then the mask columns against the 0/1 matrix mw / 2 = wl), with the
    weight of tap 64·c + 8·row + w % 8 at (c, row, w), equals  ∑ k, wk k · x (k / 64) (8·hl + (k / 8) % 8)
    (8·wl + k % 8). -/
theorem kerPlain_real (x : Fin 3 → Fin 512 → Fin 512 → ℝ) (wk : Fin 192 → ℝ) (hl wl : Fin 64) :
    kerPlain (fun c h w => ((x c h w : ℝ) : EReal))
        (fun c r w => ((wk ⟨64 * c.val + 8 * r.val + w.val % 8, by omega⟩ : ℝ) : EReal)) ind4 ind2 hl wl
      = ∑ k : Fin 192, ((wk k : ℝ) : EReal)
          * ((x ⟨k.val / 64, by omega⟩ ⟨8 * hl.val + (k.val / 8) % 8, by omega⟩ ⟨8 * wl.val + k.val % 8, by omega⟩ : ℝ) : EReal) := by
  refine (kerPlain_coe x _ hl wl).trans ?_
  rw [rker_eq, coe_sum]
  refine Finset.sum_congr rfl fun k _ => ?_
  unfold tapTerm
  rw [mul_one, EReal.coe_mul]

/-- The masked output of the fused kernel on real data: as the plain one, with each cell (cell row g of patch
    strip hl, mask column mw) scaled by the mask value at row 2·hl + g and column mw before the cells of a
    patch are added; it equals  ∑ k, wk k · (pixel k · mask (2·hl + (k / 32) % 2) (2·wl + (k % 8) / 4)). -/
theorem kerMasked_real (x : Fin 3 → Fin 512 → Fin 512 → ℝ) (wk : Fin 192 → ℝ) (mask : Fin 128 → Fin 128 → ℝ) (hl wl : Fin 64) :
    kerMasked (fun c h w => ((x c h w : ℝ) : EReal))
        (fun c r w => ((wk ⟨64 * c.val + 8 * r.val + w.val % 8, by omega⟩ : ℝ) : EReal)) ind4 ind2
        (fun g hl' mw => ((mask ⟨2 * hl'.val + g.val, by omega⟩ mw : ℝ) : EReal)) hl wl
      = ∑ k : Fin 192, ((wk k : ℝ) : EReal)
          * (((x ⟨k.val / 64, by omega⟩ ⟨8 * hl.val + (k.val / 8) % 8, by omega⟩ ⟨8 * wl.val + k.val % 8, by omega⟩ : ℝ) : EReal)
             * ((mask ⟨2 * hl.val + (k.val / 32) % 2, by omega⟩ ⟨2 * wl.val + (k.val % 8) / 4, by omega⟩ : ℝ) : EReal)) := by
  refine (kerMasked_coe x _ (fun g hl' mw => mask ⟨2 * hl'.val + g.val, by omega⟩ mw) hl wl).trans ?_
  rw [rker_eq, coe_sum]
  refine Finset.sum_congr rfl fun k _ => ?_
  unfold tapTerm
  rw [EReal.coe_mul, EReal.coe_mul]

end Cert.PatchSums

end
-- ==== Proof.Spec.lean ====
/-
  What both programs compute, entry by entry, on the extended reals.

  An image `img[b, c, h, w]` (32 × 3 × 512 × 512) is cut into 8 × 8 patches; the patch at latent position
  `(hl, wl)` holds the pixels `(8·hl + dy, 8·wl + dx)`, `dy, dx < 8`, of the three channels.  A patch is flattened
  channel-major: tap `k = 64·c + 8·dy + dx` (192 taps).  The plain projection of latent channel `n` is
  `∑ k, w[n, k] · img[b, c, 8·hl + dy, 8·wl + dx]`.  The masked projection multiplies every pixel by the mask
  `mask[b, ·, ·]` (128 × 128) upsampled by nearest neighbour to 512 × 512: pixel `(h, w)` meets mask cell
  `(h / 4, w / 4)`, which for the pixel of tap `k` is `(2·hl + dy / 4, 2·wl + dx / 4)`.
-/
import Idealize.ShloMosaic.PureOps.Ideal
import Idealize.ShloMosaic.Lib.ValueIdx

noncomputable section

namespace Cert.Spec

open Idealize.ShloMosaic Idealize.ShloMosaic.ValueIdx

abbrev SImg : Shape := ⟨4, ![32, 3, 512, 512]⟩
abbrev SMask : Shape := ⟨3, ![32, 128, 128]⟩
abbrev SW : Shape := ⟨2, ![4, 192]⟩
abbrev SOut : Shape := ⟨4, ![32, 4, 64, 64]⟩

/-- The pixel of image `b` that tap `k = 64·c + 8·dy + dx` of the patch at `(hl, wl)` reads:
    channel `c = k / 64`, row `8·hl + dy`, column `8·wl + dx` with `dy = (k / 8) % 8`, `dx = k % 8`. -/
def imgIdx (b : Fin 32) (hl wl : Fin 64) (k : Fin 192) : SImg.Idx :=
  ix4 b ⟨k.val / 64, by omega⟩ ⟨8 * hl.val + (k.val / 8) % 8, by omega⟩ ⟨8 * wl.val + k.val % 8, by omega⟩

/-- The mask cell that pixel meets: row `2·hl + dy / 4 = 2·hl + (k / 32) % 2`, column `2·wl + dx / 4`. -/
def maskIdx (b : Fin 32) (hl wl : Fin 64) (k : Fin 192) : SMask.Idx :=
  ix3 b ⟨2 * hl.val + (k.val / 32) % 2, by omega⟩ ⟨2 * wl.val + (k.val % 8) / 4, by omega⟩

/-- The plain projection. -/
def plain (img : SImg.Idx → EReal) (w : SW.Idx → EReal) : SOut.Idx → EReal :=
  fun j => ∑ k : Fin 192, w (ix2 (j 1) k) * img (imgIdx (j 0) (j 2) (j 3) k)

/-- The masked projection. -/
def masked (img : SImg.Idx → EReal) (mask : SMask.Idx → EReal) (w : SW.Idx → EReal) : SOut.Idx → EReal :=
  fun j => ∑ k : Fin 192, w (ix2 (j 1) k) * (img (imgIdx (j 0) (j 2) (j 3) k) * mask (maskIdx (j 0) (j 2) (j 3) k))

end Cert.Spec

end
-- ==== Proof.KerValue.lean ====
/-
  The fused kernel's two output arrays are the plain and the masked patch projection.

  With real entries, the tap rows `WT[n, c, r, w] = W[n, 64·c + 8·r + w % 8]`, the mask rows `MP[b, g, hl, mw] =
  MASK[b, 2·hl + g, mw]` and the two matrices the 0/1 indicators of `w / 4 = mw` and `mw / 2 = wl`, the kernel's nested
  sum at `(b, n, hl, wl)` collapses to the sum over the 192 taps of the patch (the finite-sum identity of
  `PatchSums`): only the pixel columns of patch `wl` survive the two indicators, each meets the mask cell it lies in,
  and the distributive law — valid because every entry is a real number — moves the mask value inside the sums.
-/
import proofs.«152438_g2000606418805165_pallasbulk_850_2_alg».proof.Proof.KerArray
import proofs.«152438_g2000606418805165_pallasbulk_850_2_alg».proof.Proof.LibPatchSums
import proofs.«152438_g2000606418805165_pallasbulk_850_2_alg».proof.Proof.Spec

noncomputable section

namespace Cert.KerValue

open Idealize.ShloMosaic Idealize.ShloMosaic.ValueIdx
open Cert.KernelIdeal Cert.KerPay Cert.KerArray

theorem plainArr_eq (IMG : S32x3x512x512.Idx → EReal) (WT : S4x3x8x512.Idx → EReal) (S4 : S512x128.Idx → EReal)
    (S2 : S128x64.Idx → EReal) (Wk : S4x192.Idx → EReal)
    (hI : ∀ i, ∃ r : ℝ, IMG i = (r : EReal)) (hW : ∀ i, ∃ r : ℝ, Wk i = (r : EReal))
    (hWT : ∀ (n : Fin 4) (ch : Fin 3) (r : Fin 8) (w : Fin 512),
      WT (ix4 n ch r w) = Wk (ix2 n ⟨64 * ch.val + 8 * r.val + w.val % 8, by omega⟩))
    (hS4 : ∀ (w : Fin 512) (mw : Fin 128), S4 (ix2 w mw) = Cert.Forms.ind4 w mw)
    (hS2 : ∀ (mw : Fin 128) (wl : Fin 64), S2 (ix2 mw wl) = Cert.Forms.ind2 mw wl) :
    plainArr IMG WT S4 S2 = Cert.Spec.plain IMG Wk := by
  choose fI hfI using hI
  choose fW hfW using hW
  funext i
  obtain ⟨b, n, hl, wl, rfl⟩ : ∃ (b : Fin 32) (n : Fin 4) (hl wl : Fin 64), i = ix4 b n hl wl := ⟨i 0, i 1, i 2, i 3, eq_ix4 i⟩
  show Cert.Forms.kerPlain (fun c h w => IMG (ix4 b c h w)) (fun c r w => WT (ix4 n c r w)) (mat S4) (mat S2) hl wl
    = ∑ k : Fin 192, Wk (ix2 n k) * IMG (Cert.Spec.imgIdx b hl wl k)
  have e0 : (fun (c : Fin 3) (h w : Fin 512) => IMG (ix4 b c h w)) = fun c h w => ((fI (ix4 b c h w) : ℝ) : EReal) := by
    funext c h w; exact hfI _
  have e2 : (fun (c : Fin 3) (r : Fin 8) (w : Fin 512) => WT (ix4 n c r w))
      = fun c r w => ((fW (ix2 n ⟨64 * c.val + 8 * r.val + w.val % 8, by omega⟩) : ℝ) : EReal) := by
    funext c r w; rw [hWT, hfW]
  have e3 : mat S4 = Cert.Forms.ind4 := by funext w mw; exact hS4 w mw
  have e4 : mat S2 = Cert.Forms.ind2 := by funext mw wl; exact hS2 mw wl
  rw [e0, e2, e3, e4]
  refine (Cert.PatchSums.kerPlain_real (fun c h w => fI (ix4 b c h w)) (fun k => fW (ix2 n k)) hl wl).trans ?_
  refine Finset.sum_congr rfl fun k _ => ?_
  rw [hfW, hfI]
  rfl

theorem maskedArr_eq (IMG : S32x3x512x512.Idx → EReal) (MP : S32x2x64x128.Idx → EReal) (WT : S4x3x8x512.Idx → EReal)
    (S4 : S512x128.Idx → EReal) (S2 : S128x64.Idx → EReal) (MASK : S32x128x128.Idx → EReal) (Wk : S4x192.Idx → EReal)
    (hI : ∀ i, ∃ r : ℝ, IMG i = (r : EReal)) (hM : ∀ i, ∃ r : ℝ, MASK i = (r : EReal)) (hW : ∀ i, ∃ r : ℝ, Wk i = (r : EReal))
    (hWT : ∀ (n : Fin 4) (ch : Fin 3) (r : Fin 8) (w : Fin 512),
      WT (ix4 n ch r w) = Wk (ix2 n ⟨64 * ch.val + 8 * r.val + w.val % 8, by omega⟩))
    (hMP : ∀ (b : Fin 32) (g : Fin 2) (hl : Fin 64) (mw : Fin 128),
      MP (ix4 b g hl mw) = MASK (ix3 b ⟨2 * hl.val + g.val, by omega⟩ mw))
    (hS4 : ∀ (w : Fin 512) (mw : Fin 128), S4 (ix2 w mw) = Cert.Forms.ind4 w mw)
    (hS2 : ∀ (mw : Fin 128) (wl : Fin 64), S2 (ix2 mw wl) = Cert.Forms.ind2 mw wl) :
    maskedArr IMG MP WT S4 S2 = Cert.Spec.masked IMG MASK Wk := by
  choose fI hfI using hI
  choose fM hfM using hM
  choose fW hfW using hW
  funext i
  obtain ⟨b, n, hl, wl, rfl⟩ : ∃ (b : Fin 32) (n : Fin 4) (hl wl : Fin 64), i = ix4 b n hl wl := ⟨i 0, i 1, i 2, i 3, eq_ix4 i⟩
  show Cert.Forms.kerMasked (fun c h w => IMG (ix4 b c h w)) (fun c r w => WT (ix4 n c r w)) (mat S4) (mat S2)
      (fun g hl mw => MP (ix4 b g hl mw)) hl wl
    = ∑ k : Fin 192, Wk (ix2 n k) * (IMG (Cert.Spec.imgIdx b hl wl k) * MASK (Cert.Spec.maskIdx b hl wl k))
  have e0 : (fun (c : Fin 3) (h w : Fin 512) => IMG (ix4 b c h w)) = fun c h w => ((fI (ix4 b c h w) : ℝ) : EReal) := by
    funext c h w; exact hfI _
  have e1 : (fun (g : Fin 2) (hl : Fin 64) (mw : Fin 128) => MP (ix4 b g hl mw))
      = fun g hl' mw => ((fM (ix3 b ⟨2 * hl'.val + g.val, by omega⟩ mw) : ℝ) : EReal) := by
    funext g hl' mw; rw [hMP, hfM]
  have e2 : (fun (c : Fin 3) (r : Fin 8) (w : Fin 512) => WT (ix4 n c r w))
      = fun c r w => ((fW (ix2 n ⟨64 * c.val + 8 * r.val + w.val % 8, by omega⟩) : ℝ) : EReal) := by
    funext c r w; rw [hWT, hfW]
  have e3 : mat S4 = Cert.Forms.ind4 := by funext w mw; exact hS4 w mw
  have e4 : mat S2 = Cert.Forms.ind2 := by funext mw wl; exact hS2 mw wl
  rw [e0, e1, e2, e3, e4]
  refine (Cert.PatchSums.kerMasked_real (fun c h w => fI (ix4 b c h w)) (fun k => fW (ix2 n k))
    (fun a mw => fM (ix3 b a mw)) hl wl).trans ?_
  refine Finset.sum_congr rfl fun k _ => ?_
  rw [hfW, hfI, hfM]
  rfl

end Cert.KerValue

end
-- ==== Proof.KerPrefixLayout.lean ====
/-
  Two re-layouts of a host array read at an index, over arbitrary arrays: the weight taps tiled along a row of 512
  (two reshapes, a broadcast of a unit axis to 64 copies, a reshape back), and the mask rows regrouped by their
  position within a patch strip (a reshape and a swap of two axes). Each reshape matches elements by row-major
  position; the positions of rank-8 indices are spelled out by Horner's rule (`rowMajor_val_eight`).
-/
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem

namespace Cert.KerPrefix

variable {α : Type}

/-- A rank-8 index from its coordinates. -/
abbrev ix8 {n0 n1 n2 n3 n4 n5 n6 n7 : Nat} (a0 : Fin n0) (a1 : Fin n1) (a2 : Fin n2) (a3 : Fin n3) (a4 : Fin n4) (a5 : Fin n5)
    (a6 : Fin n6) (a7 : Fin n7) : (⟨8, ![n0, n1, n2, n3, n4, n5, n6, n7]⟩ : Shape).Idx :=
  fun e => match e with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Rank 8: the row-major position, by Horner's rule. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- The weight taps tiled along a row, read at an index: a [4,192] array viewed [4,3,8,8], each row of 8 taps repeated 64
    times, viewed [4,3,8,512], holds at (n, ch, r, w) the tap (n, 64·ch + 8·r + w mod 8). -/
theorem taps_read (a : (⟨2, ![4, 192]⟩ : Shape).Idx → α)
    (h1 : (⟨2, ![4, 192]⟩ : Shape).ShapeCasts ⟨4, ![4, 3, 8, 8]⟩)
    (h2 : (⟨4, ![4, 3, 8, 8]⟩ : Shape).ShapeCasts ⟨8, ![1, 4, 1, 3, 1, 8, 1, 8]⟩)
    (hb : (⟨8, ![1, 4, 1, 3, 1, 8, 1, 8]⟩ : Shape).BroadcastsInDim ⟨8, ![1, 4, 1, 3, 1, 8, 64, 8]⟩ ![0, 1, 2, 3, 4, 5, 6, 7])
    (h3 : (⟨8, ![1, 4, 1, 3, 1, 8, 64, 8]⟩ : Shape).ShapeCasts ⟨4, ![4, 3, 8, 512]⟩)
    (n : Fin 4) (ch : Fin 3) (r : Fin 8) (w : Fin 512) :
    shapeCast ⟨4, ![4, 3, 8, 512]⟩
        (broadcastInDim ⟨8, ![1, 4, 1, 3, 1, 8, 64, 8]⟩ ![0, 1, 2, 3, 4, 5, 6, 7] hb
          (shapeCast ⟨8, ![1, 4, 1, 3, 1, 8, 1, 8]⟩ (shapeCast ⟨4, ![4, 3, 8, 8]⟩ a h1) h2)) h3 (ix4 n ch r w)
      = a (ix2 n ⟨64 * ch.val + 8 * r.val + w.val % 8, by omega⟩) := by
  refine (shapeCast_apply _ h3 (ix4 n ch r w)
    (ix8 (0 : Fin 1) n (0 : Fin 1) ch (0 : Fin 1) r (⟨w.val / 8, by omega⟩ : Fin 64) (⟨w.val % 8, by omega⟩ : Fin 8)) ?_).trans ?_
  · rw [rowMajor_val_eight, Shape.rowMajor_val_four]
    show ((((((0 * 4 + n.val) * 1 + 0) * 3 + ch.val) * 1 + 0) * 8 + r.val) * 64 + w.val / 8) * 8 + w.val % 8
      = ((n.val * 3 + ch.val) * 8 + r.val) * 512 + w.val
    omega
  refine (broadcastInDim_apply _ hb _ _
    (ix8 (0 : Fin 1) n (0 : Fin 1) ch (0 : Fin 1) r (0 : Fin 1) (⟨w.val % 8, by omega⟩ : Fin 8)) ?_).trans ?_
  · intro ax
    match ax with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  refine (shapeCast_apply _ h2 _ (ix4 n ch r (⟨w.val % 8, by omega⟩ : Fin 8)) ?_).trans ?_
  · rw [rowMajor_val_eight, Shape.rowMajor_val_four]
    show ((n.val * 3 + ch.val) * 8 + r.val) * 8 + w.val % 8
      = ((((((0 * 4 + n.val) * 1 + 0) * 3 + ch.val) * 1 + 0) * 8 + r.val) * 1 + 0) * 8 + w.val % 8
    omega
  refine shapeCast_apply _ h1 _ _ ?_
  rw [Shape.rowMajor_val_four, Shape.rowMajor_val_two]
  show n.val * 192 + (64 * ch.val + 8 * r.val + w.val % 8) = ((n.val * 3 + ch.val) * 8 + r.val) * 8 + w.val % 8
  omega

/-- The mask rows regrouped, read at an index: a [32,128,128] array viewed [32,64,2,128] with its two middle axes swapped
    holds at (b, g, hl, mw) the entry (b, 2·hl + g, mw). -/
theorem maskparts_read (a : (⟨3, ![32, 128, 128]⟩ : Shape).Idx → α)
    (h1 : (⟨3, ![32, 128, 128]⟩ : Shape).ShapeCasts ⟨4, ![32, 64, 2, 128]⟩)
    (ht : (⟨4, ![32, 64, 2, 128]⟩ : Shape).Transposes [0, 2, 1, 3] ⟨4, ![32, 2, 64, 128]⟩)
    (b : Fin 32) (g : Fin 2) (hl : Fin 64) (mw : Fin 128) :
    transpose ⟨4, ![32, 2, 64, 128]⟩ [0, 2, 1, 3] (shapeCast ⟨4, ![32, 64, 2, 128]⟩ a h1) ht (ix4 b g hl mw)
      = a (ix3 b ⟨2 * hl.val + g.val, by omega⟩ mw) := by
  refine (transpose_apply _ _ ht (ix4 b g hl mw) (ix4 b hl g mw) ?_).trans ?_
  · intro ax
    match ax with
    | ⟨0, _⟩ => rfl | ⟨1, _⟩ => rfl | ⟨2, _⟩ => rfl | ⟨3, _⟩ => rfl
  refine shapeCast_apply _ h1 _ _ ?_
  rw [Shape.rowMajor_val_four, Shape.rowMajor_val_three]
  show (b.val * 128 + (2 * hl.val + g.val)) * 128 + mw.val = ((b.val * 64 + hl.val) * 2 + g.val) * 128 + mw.val
  omega

end Cert.KerPrefix
-- ==== Proof.LibScatterWords.lean ====
/-
  General lemmas for integer index arithmetic feeding an accumulating scatter, read at the exact instance.

  * 32-bit words that are known non-negative: the signed quotient and remainder by a positive word are the unsigned ones
    (`divsi_pos`, `remsi_pos`), the signed comparisons against zero (`cmpi_slt_zero`, `cmpi_sgt_zero`), and the signed
    value is the unsigned one (`toInt_of_msb_false`).
  * jnp's integer helpers one word at a time — floor division `fdivW`, remainder `remW`, and numpy's negative-index
    normalisation `normW` — and that on a non-negative dividend (and a positive divisor) they are the plain quotient, the
    plain remainder, and the identity (`fdivW_eq`, `remW_128`, `normW_eq`).
  * Where an update of a scatter lands: `d.resultIdx? j idx = some i` exactly when start + window is `i`'s coordinate on
    every operand axis (`resultIdx?_eq_some_iff`), for any dimension numbers.
  * The accumulating scatter at the exact instance, at an element: the operand's element plus the sum of the updates landing
    on it (`hostScatterAdd_eq`), and `Host.scatterAdd` at the exact instance as that function (`scatterAdd_ideal`). Use these two
    by `rw`, and never let a definitional check (`rfl`, `show`, `exact`, `simp`) unfold the scatter on a large index type: the
    normal form of a sum of extended reals over a finite type enumerates the type.
-/
import Idealize.ShloMosaic.PureOps
import Idealize.ShloMosaic.PureOps.Ideal
import Idealize.ShloMosaic.Lib.ValueIdx
noncomputable section
namespace Cert.Lib.Scatter
open Idealize.ShloMosaic

/-! ## Non-negative 32-bit words -/

theorem msb_false_of_lt {x : BitVec 32} {n : Nat} (h : x.toNat < n) (hn : n ≤ 2147483648) : x.msb = false := by
  rw [BitVec.msb_eq_false_iff_two_mul_lt]; omega

theorem toInt_of_msb_false {x : BitVec 32} (h : x.msb = false) : x.toInt = (x.toNat : Int) := by
  rw [BitVec.toInt_eq_msb_cond, h]; simp

theorem not_corner (x k : BitVec 32) (h0 : k ≠ 0) (h1 : k ≠ -1) : ¬ IntOp.SDivCorner x k := by
  rintro (h | ⟨_, h⟩)
  · exact h0 h
  · exact h1 h

theorem divsi_pos (u : ArithUnit) (x k : BitVec 32) (hx : x.msb = false) (hk : k.msb = false) (h0 : k ≠ 0) (h1 : k ≠ -1) :
    IntOp.divsi u x k = x / k := by
  unfold IntOp.divsi
  rw [if_neg (not_corner x k h0 h1), BitVec.sdiv_eq, hx, hk]
  rfl

theorem remsi_pos (u : ArithUnit) (x k : BitVec 32) (hx : x.msb = false) (hk : k.msb = false) (h0 : k ≠ 0) (h1 : k ≠ -1) :
    IntOp.remsi u x k = x % k := by
  unfold IntOp.remsi
  rw [if_neg (not_corner x k h0 h1), BitVec.srem_eq, hx, hk]

theorem cmpi_slt_zero (x : BitVec 32) (hx : x.msb = false) : IntOp.cmpi .slt x 0#32 = 0#1 := by
  unfold IntOp.cmpi
  simp only [BitVec.slt, toInt_of_msb_false hx]
  have h : ¬ ((x.toNat : Int) < 0) := by omega
  simp [h]

theorem cmpi_sgt_zero (x : BitVec 32) (hx : x.msb = false) (h0 : x ≠ 0) : IntOp.cmpi .sgt x 0#32 = 1#1 := by
  unfold IntOp.cmpi
  simp only [BitVec.slt, toInt_of_msb_false hx]
  have : 0 < x.toNat := by
    rcases Nat.eq_zero_or_pos x.toNat with h | h
    · exact absurd (BitVec.eq_of_toNat_eq (by simpa using h)) h0
    · exact h
  simp [this]

theorem andi_zero_left (y : BitVec 1) : IntOp.andi 0#1 y = 0#1 := by unfold IntOp.andi; simp

theorem toNat_ofNat_small (n : Nat) (hn : n < 2147483648) : (BitVec.ofNat 32 n).toNat = n := by
  rw [BitVec.toNat_ofNat]; exact Nat.mod_eq_of_lt (by omega)

/-- A word that is signed-at-least 0 and signed-below 2097152 is below 2097152 unsigned. -/
theorem toNat_lt_of_sge_slt (x : BitVec 32) (h1 : IntOp.cmpi .sge x 0#32 = 1#1) (h2 : IntOp.cmpi .slt x 2097152#32 = 1#1) :
    x.toNat < 2097152 := by
  unfold IntOp.cmpi at h1 h2
  simp only [BitVec.sle, BitVec.slt] at h1 h2
  have e0 : (0#32).toInt = 0 := by decide
  have e1 : (2097152#32).toInt = 2097152 := by decide
  rw [e0] at h1
  rw [e1] at h2
  have g1 : (0 : Int) ≤ x.toInt := by
    by_contra hc
    rw [decide_eq_false hc] at h1
    exact absurd h1 (by decide)
  have g2 : x.toInt < 2097152 := by
    by_contra hc
    rw [decide_eq_false hc] at h2
    exact absurd h2 (by decide)
  have := BitVec.toInt_eq_toNat_cond x
  split at this <;> omega

/-! ## jnp's integer helpers, one word at a time -/

/-- jnp's floor division, one word by one word. -/
def fdivW (x k : BitVec 32) : BitVec 32 :=
  let v2 := IntOp.divsi .host x k
  let v3 : BitVec 32 := if x = 0 then 0 else if x.msb then -1 else 1
  let v4 : BitVec 32 := if k = 0 then 0 else if k.msb then -1 else 1
  let v6 := IntOp.cmpi .ne v3 v4
  let v8 := IntOp.remsi .host x k
  let v10 := IntOp.cmpi .ne v8 0#32
  let v11 := IntOp.andi v6 v10
  let v13 := IntOp.subi v2 1#32
  Scalar.select v11 v13 v2

/-- jnp's remainder, one word by one word. -/
def remW (x k : BitVec 32) : BitVec 32 :=
  let v1 := IntOp.cmpi .eq k 0#32
  let v2 := Scalar.select v1 1#32 k
  let v4 := IntOp.remsi .host x v2
  let v6 := IntOp.cmpi .ne v4 0#32
  let v8 := IntOp.cmpi .slt v4 0#32
  let v9 := IntOp.cmpi .slt v2 0#32
  let v11 := IntOp.cmpi .ne v8 v9
  let v12 := IntOp.andi v11 v6
  let v14 := IntOp.addi v4 v2
  Scalar.select v12 v14 v4

/-- numpy's negative-index normalisation, one word. -/
def normW (v n : BitVec 32) : BitVec 32 := Scalar.select (IntOp.cmpi .slt v 0#32) (IntOp.addi v n) v

theorem fdivW_eq (x k : BitVec 32) (hx : x.msb = false) (hk : k.msb = false) (h0 : k ≠ 0) (h1 : k ≠ -1) :
    fdivW x k = x / k := by
  unfold fdivW
  simp only [divsi_pos .host x k hx hk h0 h1, remsi_pos .host x k hx hk h0 h1, hx, hk, if_neg h0]
  by_cases hx0 : x = 0
  · subst hx0
    have hz : ((0 : BitVec 32) % k) = 0 := by simp
    have e : IntOp.andi (IntOp.cmpi CmpIPredicate.ne (0 : BitVec 32) 1) (IntOp.cmpi CmpIPredicate.ne (0 : BitVec 32) 0#32) = 0#1 := by decide
    simp only [hz, eq_self_iff_true, if_true, Bool.false_eq_true, if_false, e, ValueIdx.select_zero]
  · simp only [if_neg hx0]
    have e : IntOp.cmpi CmpIPredicate.ne (1 : BitVec 32) (1 : BitVec 32) = 0#1 := by decide
    simp only [Bool.false_eq_true, if_false, e, andi_zero_left, ValueIdx.select_zero]

theorem normW_eq (v n : BitVec 32) (hv : v.msb = false) : normW v n = v := by
  unfold normW
  rw [cmpi_slt_zero v hv, ValueIdx.select_zero]

theorem remW_128 (x : BitVec 32) (hx : x.msb = false) : remW x 128#32 = x % 128#32 := by
  unfold remW
  have e1 : IntOp.cmpi CmpIPredicate.eq 128#32 0#32 = 0#1 := by decide
  simp only [e1, ValueIdx.select_zero, remsi_pos .host x 128#32 hx (by decide) (by decide) (by decide)]
  have hm : (x % 128#32).msb = false := by
    apply msb_false_of_lt (n := 128) _ (by decide)
    rw [BitVec.toNat_umod]; exact Nat.mod_lt _ (by decide)
  have e2 : IntOp.cmpi CmpIPredicate.slt 128#32 0#32 = 0#1 := by decide
  have e3 : IntOp.cmpi CmpIPredicate.ne 0#1 0#1 = 0#1 := by decide
  rw [cmpi_slt_zero _ hm, e2, e3, andi_zero_left, ValueIdx.select_zero]

/-! ## Where an update lands, and the exact accumulating scatter -/

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have := Option.some.inj h
      intro a
      have h2 := congrFun this a
      have := hb a
      have h3 := congrArg Fin.val h2
      simp only at h3
      omega
    · cases h
  · intro h
    have hb : ∀ a, 0 ≤ d.start j idx a + d.window j a ∧ d.start j idx a + d.window j a < s.size a := by
      intro a; rw [h a]; have := (i a).isLt; omega
    rw [dif_pos hb]
    congr 1
    funext a
    apply Fin.ext
    simp only
    rw [h a]; simp

/-- An accumulating scatter at an element: the operand's element plus the sum of the updates landing on it. -/
theorem hostScatterAdd_eq {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- At the exact instance the host's accumulating scatter is the exact one (as functions of the index). -/
theorem scatterAdd_ideal {s si su : Shape} {φ : FTy} (d : ScatterDims s si su) {w : Nat} (x : FVec Ideal s φ) (idx : IVec si w)
    (upd : FVec Ideal su φ) : Host.scatterAdd (F := Ideal) d x idx upd = Ideal.hostScatterAdd d x idx upd := rfl

end Cert.Lib.Scatter
-- ==== Proof.KerPrefixWords.lean ====
/-
  Integer words behind the two 0/1 summation matrices: jnp's floor division of a small non-negative number by a small
  positive one is the quotient of the numbers, two small numbers are equal as 32-bit words exactly when they are equal,
  the conversion of a one-bit word to a float is the extended real 1 or 0 at the exact instance, and the host program's
  array floor division read one entry at a time.
-/
import proofs.«152438_g2000606418805165_pallasbulk_850_2_alg».proof.Proof.LibScatterWords
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.KerPrefix
open Cert.Lib.Scatter

/-- jnp's floor division of a small non-negative word by a small positive word is the quotient of the numbers. -/
theorem fdivW_ofNat (n d : Nat) (hn : n < 2147483648) (hd0 : 0 < d) (hd : d < 2147483648) :
    fdivW (BitVec.ofNat 32 n) (BitVec.ofNat 32 d) = BitVec.ofNat 32 (n / d) := by
  have tn := toNat_ofNat_small n hn
  have td := toNat_ofNat_small d hd
  have hx : (BitVec.ofNat 32 n).msb = false := msb_false_of_lt (n := 2147483648) (by rw [tn]; exact hn) (le_refl _)
  have hk : (BitVec.ofNat 32 d).msb = false := msb_false_of_lt (n := 2147483648) (by rw [td]; exact hd) (le_refl _)
  have e0 : (0 : BitVec 32).toNat = 0 := rfl
  have e1 : (-1 : BitVec 32).toNat = 4294967295 := by decide
  have h0 : BitVec.ofNat 32 d ≠ 0 := fun h => by
    have := congrArg BitVec.toNat h
    rw [td, e0] at this
    omega
  have h1 : BitVec.ofNat 32 d ≠ -1 := fun h => by
    have := congrArg BitVec.toNat h
    rw [td, e1] at this
    omega
  rw [fdivW_eq _ _ hx hk h0 h1]
  apply BitVec.eq_of_toNat_eq
  have hq : n / d < 2147483648 := lt_of_le_of_lt (Nat.div_le_self n d) hn
  rw [BitVec.toNat_udiv, tn, td, toNat_ofNat_small _ hq]

/-- Two small numbers are equal as 32-bit words exactly when they are equal. -/
theorem cmpi_eq_ofNat (a b : Nat) (ha : a < 2147483648) (hb : b < 2147483648) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => by
      have := congrArg BitVec.toNat e
      rw [toNat_ofNat_small a ha, toNat_ofNat_small b hb] at this
      exact h this
    have hf : (BitVec.ofNat 32 a == BitVec.ofNat 32 b) = false := beq_eq_false_iff_ne.mpr hne
    rw [if_neg h]
    show BitVec.ofBool (BitVec.ofNat 32 a == BitVec.ofNat 32 b) = 0#1
    rw [hf]
    rfl

/-- At the exact instance the conversion of a one-bit word to a float is the extended real 1 or 0. -/
theorem uitofp_bit_one : (FloatOps.uitofp (F := Ideal) .f32 (1#1) : EReal) = 1 := by
  show (((1#1 : BitVec 1).toNat : ℝ) : EReal) = 1
  simp
theorem uitofp_bit_zero : (FloatOps.uitofp (F := Ideal) .f32 (0#1) : EReal) = 0 := by
  show (((0#1 : BitVec 1).toNat : ℝ) : EReal) = 0
  simp

/-- jnp's floor division of an integer array by a scalar, as the host program spells it: quotient and remainder rounded
    toward zero, the quotient lowered by one where the signs differ and the remainder is not zero. -/
def fdivArr {S : Shape} (hb : (⟨0, ![]⟩ : Shape).BroadcastsInDim S ![]) (x : IVec S 32) (k : IVec ⟨0, ![]⟩ 32) : IVec S 32 :=
  select
    (andi (cmpi .ne (signi x) (broadcastInDim S ![] hb (signi (id k))))
      (cmpi .ne (Host.remsi x (broadcastInDim S ![] hb (id k))) (broadcastInDim S ![] hb (constantI ⟨0, ![]⟩ 32 0#32))))
    (subi (Host.divsi x (broadcastInDim S ![] hb (id k))) (broadcastInDim S ![] hb (constantI ⟨0, ![]⟩ 32 1#32)))
    (Host.divsi x (broadcastInDim S ![] hb (id k)))

/-- A broadcast scalar reads the scalar everywhere. -/
theorem bcast_scalar_apply {α : Type} {S : Shape} (hb : (⟨0, ![]⟩ : Shape).BroadcastsInDim S ![]) (y : (⟨0, ![]⟩ : Shape).Idx → α)
    (i : S.Idx) : broadcastInDim S ![] hb y i = y ix0 :=
  broadcastInDim_apply _ hb y i ix0 (fun a => a.elim0)

/-- The array floor division read at an index is the word floor division of the entry by the scalar. -/
theorem fdivArr_apply {S : Shape} (hb : (⟨0, ![]⟩ : Shape).BroadcastsInDim S ![]) (x : IVec S 32) (k : IVec ⟨0, ![]⟩ 32) (i : S.Idx) :
    fdivArr hb x k i = fdivW (x i) (k ix0) := by
  show Scalar.select
      (IntOp.andi (IntOp.cmpi .ne (signi x i) (broadcastInDim S ![] hb (signi (id k)) i))
        (IntOp.cmpi .ne (IntOp.remsi .host (x i) (broadcastInDim S ![] hb (id k) i)) (broadcastInDim S ![] hb (constantI ⟨0, ![]⟩ 32 0#32) i)))
      (IntOp.subi (IntOp.divsi .host (x i) (broadcastInDim S ![] hb (id k) i)) (broadcastInDim S ![] hb (constantI ⟨0, ![]⟩ 32 1#32) i))
      (IntOp.divsi .host (x i) (broadcastInDim S ![] hb (id k) i)) = _
  rw [bcast_scalar_apply hb (signi (id k)) i, bcast_scalar_apply hb (id k) i, bcast_scalar_apply hb (constantI ⟨0, ![]⟩ 32 0#32) i,
    bcast_scalar_apply hb (constantI ⟨0, ![]⟩ 32 1#32) i]
  rfl

end Cert.KerPrefix
-- ==== Proof.KerPrefixMat.lean ====
/-
  The two 0/1 summation matrices read at an index, over arbitrary extents: the column of row numbers floor-divided by a
  small positive divisor, compared entry by entry with the row of column numbers, the one-bit result converted to a
  float: the extended real 1 where row number / divisor = column number, and 0 elsewhere.
-/
import proofs.«152438_g2000606418805165_pallasbulk_850_2_alg».proof.Proof.KerPrefixWords
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.KerPrefix
open Cert.Lib.Scatter

/-- The column of row numbers: the numbers 0 … R − 1 laid out as a column [R, 1]. -/
theorem iotaCol_apply {R : Nat} (hb : (⟨1, ![R]⟩ : Shape).BroadcastsInDim ⟨2, ![R, 1]⟩ ![0]) (i : Fin R) (z : Fin 1) :
    broadcastInDim ⟨2, ![R, 1]⟩ ![0] hb (iotaInDim ⟨1, ![R]⟩ 32 0) (ix2 i z) = BitVec.ofNat 32 i.val := by
  refine (broadcastInDim_apply _ hb _ (ix2 i z) (ix1 i) ?_).trans rfl
  intro a
  match a with
  | ⟨0, _⟩ =>
    show i.val = if R = 1 then 0 else i.val
    split
    · have := i.isLt; omega
    · rfl

/-- A column [R, 1] of words compared for equality with the row of column numbers 0 … C − 1, both spread over [R, C], and
    the bit converted to a float: at (i, j), the conversion of "the column's word at i equals j". -/
theorem eqmat_apply {R C : Nat} (hbx : (⟨2, ![R, 1]⟩ : Shape).BroadcastsInDim ⟨2, ![R, C]⟩ ![0, 1])
    (hby1 : (⟨1, ![C]⟩ : Shape).BroadcastsInDim ⟨2, ![1, C]⟩ ![1])
    (hby2 : (⟨2, ![1, C]⟩ : Shape).BroadcastsInDim ⟨2, ![R, C]⟩ ![0, 1])
    (x : IVec ⟨2, ![R, 1]⟩ 32) (i : Fin R) (j : Fin C) :
    (uitofp (F := Ideal) .f32 (cmpi .eq (broadcastInDim ⟨2, ![R, C]⟩ ![0, 1] hbx x)
        (broadcastInDim ⟨2, ![R, C]⟩ ![0, 1] hby2 (broadcastInDim ⟨2, ![1, C]⟩ ![1] hby1 (iotaInDim ⟨1, ![C]⟩ 32 0))))
      : (⟨2, ![R, C]⟩ : Shape).Idx → EReal) (ix2 i j)
      = FloatOps.uitofp (F := Ideal) .f32 (IntOp.cmpi .eq (x (ix2 i (0 : Fin 1))) (BitVec.ofNat 32 j.val)) := by
  have e1 : broadcastInDim ⟨2, ![R, C]⟩ ![0, 1] hbx x (ix2 i j) = x (ix2 i (0 : Fin 1)) :=
    broadcastInDim_apply _ hbx x (ix2 i j) (ix2 i (0 : Fin 1)) (fun a => by
      match a with
      | ⟨0, _⟩ =>
        show i.val = if R = 1 then 0 else i.val
        split
        · have := i.isLt; omega
        · rfl
      | ⟨1, _⟩ => rfl)
  have e2 : broadcastInDim ⟨2, ![R, C]⟩ ![0, 1] hby2 (broadcastInDim ⟨2, ![1, C]⟩ ![1] hby1 (iotaInDim ⟨1, ![C]⟩ 32 0)) (ix2 i j)
      = broadcastInDim ⟨2, ![1, C]⟩ ![1] hby1 (iotaInDim ⟨1, ![C]⟩ 32 0) (ix2 (0 : Fin 1) j) :=
    broadcastInDim_apply _ hby2 _ (ix2 i j) (ix2 (0 : Fin 1) j) (fun a => by
      match a with
      | ⟨0, _⟩ => rfl
      | ⟨1, _⟩ =>
        show j.val = if C = 1 then 0 else j.val
        split
        · have := j.isLt; omega
        · rfl)
  have e3 : broadcastInDim ⟨2, ![1, C]⟩ ![1] hby1 (iotaInDim ⟨1, ![C]⟩ 32 0) (ix2 (0 : Fin 1) j) = BitVec.ofNat 32 j.val :=
    (broadcastInDim_apply _ hby1 _ (ix2 (0 : Fin 1) j) (ix1 j) (fun a => by
      match a with
      | ⟨0, _⟩ =>
        show j.val = if C = 1 then 0 else j.val
        split
        · have := j.isLt; omega
        · rfl)).trans rfl
  show FloatOps.uitofp (F := Ideal) .f32 (IntOp.cmpi .eq (broadcastInDim ⟨2, ![R, C]⟩ ![0, 1] hbx x (ix2 i j))
    (broadcastInDim ⟨2, ![R, C]⟩ ![0, 1] hby2 (broadcastInDim ⟨2, ![1, C]⟩ ![1] hby1 (iotaInDim ⟨1, ![C]⟩ 32 0)) (ix2 i j))) = _
  rw [e1, e2, e3]

/-- THE SUMMATION MATRIX read at (i, j): 1 where i / d = j, 0 elsewhere. -/
theorem summat_apply {R C : Nat} (d : Nat) (hd0 : 0 < d) (hd : d < 2147483648) (hR : R ≤ 2147483648) (hC : C ≤ 2147483648)
    (hbi : (⟨1, ![R]⟩ : Shape).BroadcastsInDim ⟨2, ![R, 1]⟩ ![0])
    (hbs : (⟨0, ![]⟩ : Shape).BroadcastsInDim ⟨2, ![R, 1]⟩ ![])
    (hbx : (⟨2, ![R, 1]⟩ : Shape).BroadcastsInDim ⟨2, ![R, C]⟩ ![0, 1])
    (hby1 : (⟨1, ![C]⟩ : Shape).BroadcastsInDim ⟨2, ![1, C]⟩ ![1])
    (hby2 : (⟨2, ![1, C]⟩ : Shape).BroadcastsInDim ⟨2, ![R, C]⟩ ![0, 1])
    (i : Fin R) (j : Fin C) :
    (uitofp (F := Ideal) .f32 (cmpi .eq
        (broadcastInDim ⟨2, ![R, C]⟩ ![0, 1] hbx
          (fdivArr hbs (broadcastInDim ⟨2, ![R, 1]⟩ ![0] hbi (iotaInDim ⟨1, ![R]⟩ 32 0)) (constantI ⟨0, ![]⟩ 32 (BitVec.ofNat 32 d))))
        (broadcastInDim ⟨2, ![R, C]⟩ ![0, 1] hby2 (broadcastInDim ⟨2, ![1, C]⟩ ![1] hby1 (iotaInDim ⟨1, ![C]⟩ 32 0))))
      : (⟨2, ![R, C]⟩ : Shape).Idx → EReal) (ix2 i j)
      = if i.val / d = j.val then (1 : EReal) else 0 := by
  rw [eqmat_apply, fdivArr_apply, iotaCol_apply]
  show FloatOps.uitofp (F := Ideal) .f32 (IntOp.cmpi .eq (fdivW (BitVec.ofNat 32 i.val) (BitVec.ofNat 32 d)) (BitVec.ofNat 32 j.val)) = _
  have hi := i.isLt
  have hj := j.isLt
  have hq : i.val / d < 2147483648 := lt_of_le_of_lt (Nat.div_le_self _ _) (by omega)
  rw [fdivW_ofNat _ _ (by omega) hd0 hd, cmpi_eq_ofNat _ _ hq (by omega)]
  by_cases h : i.val / d = j.val
  · rw [if_pos h, if_pos h]; exact uitofp_bit_one
  · rw [if_neg h, if_neg h]; exact uitofp_bit_zero

end Cert.KerPrefix
-- ==== Proof.KerPrefixStretch.lean ====
/-
  The host lines before the kernel launch, one stretch at a time, over an arbitrary starting valuation: what each
  stretch leaves in the buffers the launch reads (the tiled weight taps, the regrouped mask rows, the two 0/1 summation
  matrices and the integer arrays they are computed from), and that the later stretches leave those buffers alone.
-/
import proofs.«152438_g2000606418805165_pallasbulk_850_2_alg».proof.Proof.Gen.KernelIdeal.Frame
import proofs.«152438_g2000606418805165_pallasbulk_850_2_alg».proof.Proof.KerPrefixWords
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.ShloMosaic.ValueIdx Idealize.SL.Sem

namespace Cert.KerPrefix
open Cert.KernelIdeal Cert.KernelIdeal.Gen

/-- Five stretches run in a row. -/
theorem after_flatten5 {τ : Topo} {sig : RefSig} {Val : EltTy → Type} (a b c d e : List (HloOp τ sig Val)) (W : Valuation τ sig Val) :
    StableHlo.after (List.flatten [a, b, c, d, e]) W
      = StableHlo.after e (StableHlo.after d (StableHlo.after c (StableHlo.after b (StableHlo.after a W)))) := by
  simp only [List.flatten_cons, List.flatten_nil, List.append_nil, StableHlo.after_append]

/-- The buffers at the launch, stretch by stretch. -/
theorem V_eq (m : (ℓ : Loc nD τ sig) → Buf (Elt Ideal) ℓ) (c : Dev nD) (b : Ref sig .tc) :
    V (F := Ideal) m c b
      = StableHlo.after hostOps0_4 (StableHlo.after hostOps0_3 (StableHlo.after hostOps0_2 (StableHlo.after hostOps0_1
          (StableHlo.after hostOps0 (fun b => m (c, b)))))) (Proc.devRef .tc b) :=
  congrFun (after_flatten5 hostOps0 hostOps0_1 hostOps0_2 hostOps0_3 hostOps0_4 _) _

/-! ## The first stretch: the two re-layouts, the column of row numbers, the divisor 4 -/

theorem h0_v3 (Wp : Valuation τ sig (Elt Ideal)) :
    (StableHlo.after (hostOps0 (F := Ideal)) Wp (Proc.devRef .tc main_v3) : S4x3x8x512.Idx → EReal)
      = shapeCast S4x3x8x512
          (broadcastInDim S1x4x1x3x1x8x64x8 ![0, 1, 2, 3, 4, 5, 6, 7] bcast_S1x4x1x3x1x8x1x8_S1x4x1x3x1x8x64x8_0_1_2_3_4_5_6_7
            (shapeCast S1x4x1x3x1x8x1x8
              (shapeCast S4x3x8x8 (Wp (Proc.devRef .tc main_arg2) : S4x192.Idx → EReal) shapeCasts_S4x192_S4x3x8x8)
              shapeCasts_S4x3x8x8_S1x4x1x3x1x8x1x8))
          shapeCasts_S1x4x1x3x1x8x64x8_S4x3x8x512 := by
  after_results
  rfl

theorem h0_v5 (Wp : Valuation τ sig (Elt Ideal)) :
    (StableHlo.after (hostOps0 (F := Ideal)) Wp (Proc.devRef .tc main_v5) : S32x2x64x128.Idx → EReal)
      = transpose S32x2x64x128 [0, 2, 1, 3]
          (shapeCast S32x64x2x128 (Wp (Proc.devRef .tc main_arg1) : S32x128x128.Idx → EReal) shapeCasts_S32x128x128_S32x64x2x128)
          transposes_S32x64x2x128_S32x2x64x128_0_2_1_3 := by
  after_results
  rfl

theorem h0_v7 (Wp : Valuation τ sig (Elt Ideal)) :
    (StableHlo.after (hostOps0 (F := Ideal)) Wp (Proc.devRef .tc main_v7) : IVec S512x1 32)
      = broadcastInDim S512x1 ![0] bcast_S512_S512x1_0 (iotaInDim S512 32 0) := by
  after_results

theorem h0_c (Wp : Valuation τ sig (Elt Ideal)) :
    (StableHlo.after (hostOps0 (F := Ideal)) Wp (Proc.devRef .tc main_c) : IVec S_ 32) = constantI S_ 32 4#32 := by
  after_results

/-! ## The second stretch: the row numbers floor-divided by 4 -/

theorem h1_v8 (Wp : Valuation τ sig (Elt Ideal)) :
    (StableHlo.after (hostOps0_1 (F := Ideal)) Wp (Proc.devRef .tc main_v8) : IVec S512x1 32)
      = fdivArr bcast_S_S512x1 (Wp (Proc.devRef .tc main_v7) : IVec S512x1 32) (Wp (Proc.devRef .tc main_c) : IVec S_ 32) := by
  after_results_simp
  simp only [cast_eq]
  rfl

theorem h1_keep_v3 (Wp : Valuation τ sig (Elt Ideal)) :
    StableHlo.after (hostOps0_1 (F := Ideal)) Wp (Proc.devRef .tc main_v3) = Wp (Proc.devRef .tc main_v3) := by
  after_results_simp

theorem h1_keep_v5 (Wp : Valuation τ sig (Elt Ideal)) :
    StableHlo.after (hostOps0_1 (F := Ideal)) Wp (Proc.devRef .tc main_v5) = Wp (Proc.devRef .tc main_v5) := by
  after_results_simp

/-! ## The third stretch: the first summation matrix, the column of row numbers of the second, the divisor 2 -/

theorem h2_v14 (Wp : Valuation τ sig (Elt Ideal)) :
    (StableHlo.after (hostOps0_2 (F := Ideal)) Wp (Proc.devRef .tc main_v14) : S512x128.Idx → EReal)
      = uitofp (F := Ideal) .f32
          (cmpi .eq
            (broadcastInDim S512x128 ![0, 1] bcast_S512x1_S512x128_0_1 (Wp (Proc.devRef .tc main_v8) : IVec S512x1 32))
            (broadcastInDim S512x128 ![0, 1] bcast_S1x128_S512x128_0_1
              (broadcastInDim S1x128 ![1] bcast_S128_S1x128_1 (iotaInDim S128 32 0)))) := by
  after_results

theorem h2_v16 (Wp : Valuation τ sig (Elt Ideal)) :
    (StableHlo.after (hostOps0_2 (F := Ideal)) Wp (Proc.devRef .tc main_v16) : IVec S128x1 32)
      = broadcastInDim S128x1 ![0] bcast_S128_S128x1_0 (iotaInDim S128 32 0) := by
  after_results

theorem h2_c0 (Wp : Valuation τ sig (Elt Ideal)) :
    (StableHlo.after (hostOps0_2 (F := Ideal)) Wp (Proc.devRef .tc main_c_0) : IVec S_ 32) = constantI S_ 32 2#32 := by
  after_results

theorem h2_keep_v3 (Wp : Valuation τ sig (Elt Ideal)) :
    StableHlo.after (hostOps0_2 (F := Ideal)) Wp (Proc.devRef .tc main_v3) = Wp (Proc.devRef .tc main_v3) := by
  after_results_simp

theorem h2_keep_v5 (Wp : Valuation τ sig (Elt Ideal)) :
    StableHlo.after (hostOps0_2 (F := Ideal)) Wp (Proc.devRef .tc main_v5) = Wp (Proc.devRef .tc main_v5) := by
  after_results_simp

/-! ## The fourth stretch: the row numbers floor-divided by 2 -/

theorem h3_v17 (Wp : Valuation τ sig (Elt Ideal)) :
    (StableHlo.after (hostOps0_3 (F := Ideal)) Wp (Proc.devRef .tc main_v17) : IVec S128x1 32)
      = fdivArr bcast_S_S128x1 (Wp (Proc.devRef .tc main_v16) : IVec S128x1 32) (Wp (Proc.devRef .tc main_c_0) : IVec S_ 32) := by
  after_results_simp
  simp only [cast_eq]
  rfl

theorem h3_keep_v3 (Wp : Valuation τ sig (Elt Ideal)) :
    StableHlo.after (hostOps0_3 (F := Ideal)) Wp (Proc.devRef .tc main_v3) = Wp (Proc.devRef .tc main_v3) := by
  after_results_simp

theorem h3_keep_v5 (Wp : Valuation τ sig (Elt Ideal)) :
    StableHlo.after (hostOps0_3 (F := Ideal)) Wp (Proc.devRef .tc main_v5) = Wp (Proc.devRef .tc main_v5) := by
  after_results_simp

theorem h3_keep_v14 (Wp : Valuation τ sig (Elt Ideal)) :
    StableHlo.after (hostOps0_3 (F := Ideal)) Wp (Proc.devRef .tc main_v14) = Wp (Proc.devRef .tc main_v14) := by
  after_results_simp

/-! ## The fifth stretch: the second summation matrix -/

theorem h4_v23 (Wp : Valuation τ sig (Elt Ideal)) :
    (StableHlo.after (hostOps0_4 (F := Ideal)) Wp (Proc.devRef .tc main_v23) : S128x64.Idx → EReal)
      = uitofp (F := Ideal) .f32
          (cmpi .eq
            (broadcastInDim S128x64 ![0, 1] bcast_S128x1_S128x64_0_1 (Wp (Proc.devRef .tc main_v17) : IVec S128x1 32))
            (broadcastInDim S128x64 ![0, 1] bcast_S1x64_S128x64_0_1
              (broadcastInDim S1x64 ![1] bcast_S64_S1x64_1 (iotaInDim S64 32 0)))) := by
  after_results

theorem h4_keep_v3 (Wp : Valuation τ sig (Elt Ideal)) :
    StableHlo.after (hostOps0_4 (F := Ideal)) Wp (Proc.devRef .tc main_v3) = Wp (Proc.devRef .tc main_v3) := by
  after_results_simp

theorem h4_keep_v5 (Wp : Valuation τ sig (Elt Ideal)) :
    StableHlo.after (hostOps0_4 (F := Ideal)) Wp (Proc.devRef .tc main_v5) = Wp (Proc.devRef .tc main_v5) := by
  after_results_simp

theorem h4_keep_v14 (Wp : Valuation τ sig (Elt Ideal)) :
    StableHlo.after (hostOps0_4 (F := Ideal)) Wp (Proc.devRef .tc main_v14) = Wp (Proc.devRef .tc main_v14) := by
  after_results_simp

end Cert.KerPrefix
-- ==== Proof.KerPrefix.lean ====
/-
  The kernel program's host lines before its launch, read at an index, at the exact instance: the weight taps tiled
  along a row, the mask rows regrouped by their position within a patch strip, and the two 0/1 summation matrices.
-/
import proofs.«152438_g2000606418805165_pallasbulk_850_2_alg».proof.Proof.Gen.KernelIdeal.Frame
import proofs.«152438_g2000606418805165_pallasbulk_850_2_alg».proof.Proof.Forms
import proofs.«152438_g2000606418805165_pallasbulk_850_2_alg».proof.Proof.KerPrefixLayout
import proofs.«152438_g2000606418805165_pallasbulk_850_2_alg».proof.Proof.KerPrefixMat
import proofs.«152438_g2000606418805165_pallasbulk_850_2_alg».proof.Proof.KerPrefixStretch
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.ShloMosaic.ValueIdx Idealize.SL.Sem

namespace Cert.KerPrefix
open Cert.KernelIdeal Cert.KernelIdeal.Gen

/-! ## The four arrays at the launch, as terms of the argument arrays -/

theorem V_v3 (m : (ℓ : Loc nD τ sig) → Buf (Elt Ideal) ℓ) (c : Dev nD) :
    (V (F := Ideal) m c main_v3 : S4x3x8x512.Idx → EReal)
      = shapeCast S4x3x8x512
          (broadcastInDim S1x4x1x3x1x8x64x8 ![0, 1, 2, 3, 4, 5, 6, 7] bcast_S1x4x1x3x1x8x1x8_S1x4x1x3x1x8x64x8_0_1_2_3_4_5_6_7
            (shapeCast S1x4x1x3x1x8x1x8
              (shapeCast S4x3x8x8 (m ((c : Thread nD τ).loc main_arg2) : S4x192.Idx → EReal) shapeCasts_S4x192_S4x3x8x8)
              shapeCasts_S4x3x8x8_S1x4x1x3x1x8x1x8))
          shapeCasts_S1x4x1x3x1x8x64x8_S4x3x8x512 :=
  (V_eq m c main_v3).trans ((h4_keep_v3 _).trans ((h3_keep_v3 _).trans ((h2_keep_v3 _).trans ((h1_keep_v3 _).trans (h0_v3 _)))))

theorem V_v5 (m : (ℓ : Loc nD τ sig) → Buf (Elt Ideal) ℓ) (c : Dev nD) :
    (V (F := Ideal) m c main_v5 : S32x2x64x128.Idx → EReal)
      = transpose S32x2x64x128 [0, 2, 1, 3]
          (shapeCast S32x64x2x128 (m ((c : Thread nD τ).loc main_arg1) : S32x128x128.Idx → EReal) shapeCasts_S32x128x128_S32x64x2x128)
          transposes_S32x64x2x128_S32x2x64x128_0_2_1_3 :=
  (V_eq m c main_v5).trans ((h4_keep_v5 _).trans ((h3_keep_v5 _).trans ((h2_keep_v5 _).trans ((h1_keep_v5 _).trans (h0_v5 _)))))

theorem V_v14 (m : (ℓ : Loc nD τ sig) → Buf (Elt Ideal) ℓ) (c : Dev nD) :
    (V (F := Ideal) m c main_v14 : S512x128.Idx → EReal)
      = uitofp (F := Ideal) .f32
          (cmpi .eq
            (broadcastInDim S512x128 ![0, 1] bcast_S512x1_S512x128_0_1
              (fdivArr bcast_S_S512x1 (broadcastInDim S512x1 ![0] bcast_S512_S512x1_0 (iotaInDim S512 32 0)) (constantI S_ 32 4#32)))
            (broadcastInDim S512x128 ![0, 1] bcast_S1x128_S512x128_0_1
              (broadcastInDim S1x128 ![1] bcast_S128_S1x128_1 (iotaInDim S128 32 0)))) := by
  refine (V_eq m c main_v14).trans ((h4_keep_v14 _).trans ((h3_keep_v14 _).trans ((h2_v14 _).trans ?_)))
  rw [h1_v8, h0_v7, h0_c]

theorem V_v23 (m : (ℓ : Loc nD τ sig) → Buf (Elt Ideal) ℓ) (c : Dev nD) :
    (V (F := Ideal) m c main_v23 : S128x64.Idx → EReal)
      = uitofp (F := Ideal) .f32
          (cmpi .eq
            (broadcastInDim S128x64 ![0, 1] bcast_S128x1_S128x64_0_1
              (fdivArr bcast_S_S128x1 (broadcastInDim S128x1 ![0] bcast_S128_S128x1_0 (iotaInDim S128 32 0)) (constantI S_ 32 2#32)))
            (broadcastInDim S128x64 ![0, 1] bcast_S1x64_S128x64_0_1
              (broadcastInDim S1x64 ![1] bcast_S64_S1x64_1 (iotaInDim S64 32 0)))) := by
  refine (V_eq m c main_v23).trans ((h4_v23 _).trans ?_)
  rw [h3_v17, h2_v16, h2_c0]

/-! ## The four arrays read at an index -/

theorem taps_apply (m : (ℓ : Loc nD τ sig) → Buf (Elt Ideal) ℓ) (c : Dev nD) (n : Fin 4) (ch : Fin 3) (r : Fin 8) (w : Fin 512) :
    (V (F := Ideal) m c main_v3 : S4x3x8x512.Idx → EReal) (ix4 n ch r w)
      = (m ((c : Thread nD τ).loc main_arg2) : S4x192.Idx → EReal) (ix2 n ⟨64 * ch.val + 8 * r.val + w.val % 8, by omega⟩) := by
  rw [V_v3]
  exact taps_read _ _ _ _ _ n ch r w

theorem maskparts_apply (m : (ℓ : Loc nD τ sig) → Buf (Elt Ideal) ℓ) (c : Dev nD) (b : Fin 32) (g : Fin 2) (hl : Fin 64) (mw : Fin 128) :
    (V (F := Ideal) m c main_v5 : S32x2x64x128.Idx → EReal) (ix4 b g hl mw)
      = (m ((c : Thread nD τ).loc main_arg1) : S32x128x128.Idx → EReal) (ix3 b ⟨2 * hl.val + g.val, by omega⟩ mw) := by
  rw [V_v5]
  exact maskparts_read _ _ _ b g hl mw

theorem sum4_apply (m : (ℓ : Loc nD τ sig) → Buf (Elt Ideal) ℓ) (c : Dev nD) (w : Fin 512) (mw : Fin 128) :
    (V (F := Ideal) m c main_v14 : S512x128.Idx → EReal) (ix2 w mw) = Cert.Forms.ind4 w mw := by
  rw [V_v14]
  exact summat_apply 4 (by decide) (by decide) (by decide) (by decide) _ _ _ _ _ w mw

theorem sum2_apply (m : (ℓ : Loc nD τ sig) → Buf (Elt Ideal) ℓ) (c : Dev nD) (mw : Fin 128) (wl : Fin 64) :
    (V (F := Ideal) m c main_v23 : S128x64.Idx → EReal) (ix2 mw wl) = Cert.Forms.ind2 mw wl := by
  rw [V_v23]
  exact summat_apply 2 (by decide) (by decide) (by decide) (by decide) _ _ _ _ _ mw wl

end Cert.KerPrefix
-- ==== Proof.KerRun.lean ====
/-
  The fused kernel's run with its two results named: the plain and the masked patch projection of the argument arrays,
  for arguments whose entries are all real numbers.
-/
import proofs.«152438_g2000606418805165_pallasbulk_850_2_alg».proof.Proof.KerValue
import proofs.«152438_g2000606418805165_pallasbulk_850_2_alg».proof.Proof.KerPrefix

noncomputable section

namespace Cert.KerRun

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The plain output array is the plain projection of the arguments. -/
theorem res_plain (c : Dev nD)
    (hI : ∀ i, ∃ r : ℝ, (m ((c : Thread nD τ).loc main_arg0) : S32x3x512x512.Idx → EReal) i = (r : EReal))
    (hW : ∀ i, ∃ r : ℝ, (m ((c : Thread nD τ).loc main_arg2) : S4x192.Idx → EReal) i = (r : EReal)) :
    (dats m 0 c).arrAt 5 cfg0.N
      = Cert.Spec.plain (m ((c : Thread nD τ).loc main_arg0)) (m ((c : Thread nD τ).loc main_arg2)) := by
  rw [Cert.KerArray.final5, V_main_arg0]
  exact Cert.KerValue.plainArr_eq _ _ _ _ _ hI hW (Cert.KerPrefix.taps_apply m c) (Cert.KerPrefix.sum4_apply m c)
    (Cert.KerPrefix.sum2_apply m c)

/-- The masked output array is the masked projection of the arguments. -/
theorem res_masked (c : Dev nD)
    (hI : ∀ i, ∃ r : ℝ, (m ((c : Thread nD τ).loc main_arg0) : S32x3x512x512.Idx → EReal) i = (r : EReal))
    (hM : ∀ i, ∃ r : ℝ, (m ((c : Thread nD τ).loc main_arg1) : S32x128x128.Idx → EReal) i = (r : EReal))
    (hW : ∀ i, ∃ r : ℝ, (m ((c : Thread nD τ).loc main_arg2) : S4x192.Idx → EReal) i = (r : EReal)) :
    (dats m 0 c).arrAt 6 cfg0.N
      = Cert.Spec.masked (m ((c : Thread nD τ).loc main_arg0)) (m ((c : Thread nD τ).loc main_arg1))
          (m ((c : Thread nD τ).loc main_arg2)) := by
  rw [Cert.KerArray.final6, V_main_arg0]
  exact Cert.KerValue.maskedArr_eq _ _ _ _ _ _ _ hI hM hW (Cert.KerPrefix.taps_apply m c) (Cert.KerPrefix.maskparts_apply m c)
    (Cert.KerPrefix.sum4_apply m c) (Cert.KerPrefix.sum2_apply m c)

/-- Every weakly fair execution of the kernel program from real arguments terminates with its two results at the plain and the
    masked projection of its arguments, which it leaves unchanged. -/
theorem run
    (hfin : ∀ c : Dev nD,
      (∀ i, ∃ r : ℝ, (m ((c : Thread nD τ).loc main_arg0) : S32x3x512x512.Idx → EReal) i = (r : EReal))
      ∧ (∀ i, ∃ r : ℝ, (m ((c : Thread nD τ).loc main_arg1) : S32x128x128.Idx → EReal) i = (r : EReal))
      ∧ (∀ i, ∃ r : ℝ, (m ((c : Thread nD τ).loc main_arg2) : S4x192.Idx → EReal) i = (r : EReal))) :
    θ_run defs (onTc (τ := τ) (main (F := Ideal))) ⟨m, fun _ => 0, ρ⟩ (fun r => ∀ c : Dev nD,
      r.2.mem ((c.tc : Thread nD τ).loc main_v24_0)
        = Cert.Spec.plain (m ((c.tc : Thread nD τ).loc main_arg0)) (m ((c.tc : Thread nD τ).loc main_arg2))
      ∧ r.2.mem ((c.tc : Thread nD τ).loc main_v24_1)
        = Cert.Spec.masked (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 5).trans (res_plain m c (hfin c).1 (hfin c).2.2),
      ((h c).1 6).trans (res_masked m c (hfin c).1 (hfin c).2.1 (hfin c).2.2),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KerRun

end
-- ==== Proof.RefBody.lean ====
/-
  The reference's kernel body at one entry, on the extended reals.

  One grid point holds a tile of 4096 patch positions: `x` (192 × 4096) the patches, one tap per row, `mk` (64 × 4096)
  the mask value met by each of a patch's 64 pixels, `w` (4 × 192) the projection.  The body stacks the mask rows
  three times (once per channel: row `k` of the stack is mask row `k % 64`), multiplies the patches by it, and
  stores the two products `w · x` and `w · (x ⊙ mask)` one above the other: rows 0–3 the plain projection, rows 4–7
  the masked one.
-/
import proofs.«152438_g2000606418805165_pallasbulk_850_2_alg».proof.Proof.Gen.ReferenceIdeal.Skeleton
import proofs.«152438_g2000606418805165_pallasbulk_850_2_alg».proof.Proof.LibDense
import Idealize.ShloMosaic.Lib.ValueIdx
import Idealize.ShloMosaic.Lib.Pipeline.Value

noncomputable section

namespace Cert.RefBody

open Idealize.ShloMosaic Idealize.ShloMosaic.ValueIdx
open Cert.ReferenceIdeal Cert.ReferenceIdeal.Gen

/-- The mask rows stacked three times, read at row `k`: mask row `k % 64`. -/
theorem stack_apply (mk : FVec Ideal S64x4096 .f32) (h : Shape.Concatenates [S64x4096, S64x4096, S64x4096] S192x4096 0)
    (k : Fin 192) (q : Fin 4096) :
    concatenate S192x4096 0 [⟨S64x4096, mk⟩, ⟨S64x4096, mk⟩, ⟨S64x4096, mk⟩] h (ix2 k q)
      = mk (ix2 ⟨k.val % 64, Nat.mod_lt _ (by decide)⟩ q) :=
  concatenate_replicate_apply (t := S192x4096) (s₁ := S64x4096) 0 3 mk h rfl (ix2 k q) (ix2 ⟨k.val % 64, Nat.mod_lt _ (by decide)⟩ q) rfl
    (fun b hb => match b with
      | ⟨0, _⟩ => absurd rfl hb
      | ⟨1, _⟩ => rfl)

/-- Rows 0–3 of what the body stores: the plain projection of the tile. -/
theorem pay_plain (x : Vec Ideal S192x4096 .f32) (w : Vec Ideal S4x192 .f32) (mk : Vec Ideal S64x4096 .f32)
    (j : Fin 4) (q : Fin 4096) :
    k0_pay1 (F := Ideal) x w mk (ix2 ⟨j.val, by omega⟩ q) = ∑ k : Fin 192, w (ix2 j k) * x (ix2 k q) := by
  unfold k0_pay1
  refine (concatenate_pair_apply_left (t := S8x4096) (s₁ := S4x4096) (s₂ := S4x4096) 0 _ _ _ _ rfl (ix2 j q)
    (fun b => match b with
      | ⟨0, _⟩ => rfl
      | ⟨1, _⟩ => rfl)).trans ?_
  rw [shapeCast_self]
  unfold dot_S4x192_S192x4096_S4x4096_1_0_0_1_n_n
  exact Cert.Dense.matmul_plain_apply _ w x j q

/-- Rows 4–7: the masked projection of the tile. -/
theorem pay_masked (x : Vec Ideal S192x4096 .f32) (w : Vec Ideal S4x192 .f32) (mk : Vec Ideal S64x4096 .f32)
    (j : Fin 4) (q : Fin 4096) :
    k0_pay1 (F := Ideal) x w mk (ix2 ⟨4 + j.val, by omega⟩ q)
      = ∑ k : Fin 192, w (ix2 j k) * (x (ix2 k q) * mk (ix2 ⟨k.val % 64, Nat.mod_lt _ (by decide)⟩ q)) := by
  unfold k0_pay1
  refine (concatenate_pair_apply_right (t := S8x4096) (s₁ := S4x4096) (s₂ := S4x4096) 0 _ _ _ _ rfl rfl (ix2 j q)
    (fun b hb => match b with
      | ⟨0, _⟩ => absurd rfl hb
      | ⟨1, _⟩ => rfl) (Nat.add_comm _ _)).trans ?_
  rw [shapeCast_self, shapeCast_self]
  unfold dot_S4x192_S192x4096_S4x4096_1_0_0_1_n_n
  refine (Cert.Dense.matmul_plain_apply _ w _ j q).trans ?_
  refine Finset.sum_congr rfl fun k _ => ?_
  rw [mulf_apply, stack_apply]

end Cert.RefBody

end
-- ==== Proof.RefArray.lean ====
/-
  The reference's packed result array after its kernel launch, as one function of the arrays the launch reads.

  The launch walks 32 tiles of 4096 patch positions; tile `t` covers columns `4096·t … 4096·t + 4095` of the patch
  matrix `X` (192 × 131072), of the per-pixel mask matrix `Mk` (64 × 131072) and of the 8 × 131072 result, and the
  weights `W` (4 × 192) are the same block at every tile.  So the result array is, column by column, the tile body's
  function of column `p` alone: rows 0–3 the plain projection `∑ k, W[j, k] · X[k, p]`, rows 4–7 the masked one
  `∑ k, W[j − 4, k] · (X[k, p] · Mk[k % 64, p])`.
-/
import proofs.«152438_g2000606418805165_pallasbulk_850_2_alg».proof.Proof.Gen.ReferenceIdeal.Frame
import proofs.«152438_g2000606418805165_pallasbulk_850_2_alg».proof.Proof.RefBody
import Idealize.ShloMosaic.Lib.ValueIdx
import Idealize.ShloMosaic.Lib.Pipeline.Value

set_option maxRecDepth 16384

noncomputable section

namespace Cert.RefArray

open Idealize.ShloMosaic Idealize.ShloMosaic.TcCoe Idealize.ShloMosaic.ValueIdx Idealize.SL.Sem
open Idealize.ShloMosaic.Pipeline (Dat)
open Cert.ReferenceIdeal Cert.ReferenceIdeal.Gen

/-- The packed result at row `a`, column `p`. -/
def packedAt (X : S192x131072.Idx → EReal) (Mk : S64x131072.Idx → EReal) (W : S4x192.Idx → EReal) (a : Fin 8) (p : Fin 131072) : EReal :=
  if h : a.val < 4 then ∑ k : Fin 192, W (ix2 ⟨a.val, h⟩ k) * X (ix2 k p)
    else ∑ k : Fin 192, W (ix2 ⟨a.val - 4, by omega⟩ k) * (X (ix2 k p) * Mk (ix2 ⟨k.val % 64, Nat.mod_lt _ (by decide)⟩ p))

/-- The packed result as a function of the patch matrix, the mask matrix and the weights. -/
def packed (X : S192x131072.Idx → EReal) (Mk : S64x131072.Idx → EReal) (W : S4x192.Idx → EReal) : S8x131072.Idx → EReal :=
  fun i => packedAt X Mk W (i 0) (i 1)

theorem packed_plain (X : S192x131072.Idx → EReal) (Mk : S64x131072.Idx → EReal) (W : S4x192.Idx → EReal) (j : Fin 4) (p : Fin 131072) :
    packed X Mk W (ix2 ⟨j.val, by omega⟩ p) = ∑ k : Fin 192, W (ix2 j k) * X (ix2 k p) := by
  show packedAt X Mk W ⟨j.val, _⟩ p = _
  unfold packedAt
  rw [dif_pos (show (⟨j.val, by omega⟩ : Fin 8).val < 4 from j.isLt)]

theorem packed_masked (X : S192x131072.Idx → EReal) (Mk : S64x131072.Idx → EReal) (W : S4x192.Idx → EReal) (j : Fin 4) (p : Fin 131072) :
    packed X Mk W (ix2 ⟨4 + j.val, by omega⟩ p)
      = ∑ k : Fin 192, W (ix2 j k) * (X (ix2 k p) * Mk (ix2 ⟨k.val % 64, Nat.mod_lt _ (by decide)⟩ p)) := by
  show packedAt X Mk W ⟨4 + j.val, _⟩ p = _
  unfold packedAt
  rw [dif_neg (show ¬ (⟨4 + j.val, by omega⟩ : Fin 8).val < 4 from by show ¬ (4 + j.val < 4); omega)]
  have e : (⟨(⟨4 + j.val, by omega⟩ : Fin 8).val - 4, by show 4 + j.val - 4 < 4; omega⟩ : Fin 4) = j :=
    Fin.ext (by show 4 + j.val - 4 = j.val; omega)
  rw [e]

/-- One tile's body in terms of the whole arrays: if the tile's blocks are columns `4096·T + q` of the arrays, what
    the body stores at `(a, q)` is the packed result at `(a, 4096·T + q)`. -/
theorem tile_eq (x : Vec Ideal S192x4096 .f32) (w : Vec Ideal S4x192 .f32) (mk : Vec Ideal S64x4096 .f32)
    (X : S192x131072.Idx → EReal) (Mk : S64x131072.Idx → EReal) (W : S4x192.Idx → EReal) (T : ℕ) (hT : T < 32)
    (hx : ∀ (k : Fin 192) (q : Fin 4096), x (ix2 k q) = X (ix2 k ⟨4096 * T + q.val, by omega⟩))
    (hmk : ∀ (r : Fin 64) (q : Fin 4096), mk (ix2 r q) = Mk (ix2 r ⟨4096 * T + q.val, by omega⟩))
    (hw : ∀ (j : Fin 4) (k : Fin 192), w (ix2 j k) = W (ix2 j k)) (a : Fin 8) (q : Fin 4096) :
    k0_pay1 (F := Ideal) x w mk (ix2 a q) = packed X Mk W (ix2 a ⟨4096 * T + q.val, by omega⟩) := by
  rcases a with ⟨av, hav⟩
  by_cases ha : av < 4
  · show k0_pay1 (F := Ideal) x w mk (ix2 ⟨(⟨av, ha⟩ : Fin 4).val, by omega⟩ q)
      = packed X Mk W (ix2 ⟨(⟨av, ha⟩ : Fin 4).val, by omega⟩ ⟨4096 * T + q.val, by omega⟩)
    rw [Cert.RefBody.pay_plain, packed_plain]
    exact Finset.sum_congr rfl fun k _ => by rw [hw, hx]
  · obtain ⟨d, rfl⟩ : ∃ d, av = 4 + d := ⟨av - 4, by omega⟩
    show k0_pay1 (F := Ideal) x w mk (ix2 ⟨4 + (⟨d, by omega⟩ : Fin 4).val, by omega⟩ q)
      = packed X Mk W (ix2 ⟨4 + (⟨d, by omega⟩ : Fin 4).val, by omega⟩ ⟨4096 * T + q.val, by omega⟩)
    rw [Cert.RefBody.pay_masked, packed_masked]
    exact Finset.sum_congr rfl fun k _ => by rw [hw, hx, hmk]

variable (m : (ℓ : Loc nD τ sig) → Buf (Elt Ideal) ℓ)

theorem hz : (![0, 0] : Fin 2 → Nat) = fun _ => 0 := funext fun a => by fin_cases a <;> rfl

/-- The printed index maps over the grid: the patch, mask and result windows move along the columns with the point,
    the weights' window stays. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

theorem t_lt (t : Fin cfg0.N) : t.val < 32 := lt_of_lt_of_eq t.isLt N_0

/-- Tile `t`'s block of the patch matrix is its columns `4096·t + q`. -/
theorem blk0_read (c : Dev nD) (t : Fin cfg0.N) (k : Fin 192) (q : Fin 4096) :
    iblk m c 0 t (ix2 k q) = V m c main_v2 (ix2 k ⟨4096 * t.val + q.val, by have := t_lt t; omega⟩) := by
  obtain ⟨e00, e01, -, -, -, -, -, -⟩ := idx_facts t
  show V m c main_v2 (((cfg0.win 0).blk t).view.emb (ix2 k q)) = _
  refine congrArg (V m c main_v2) ?_
  funext ax; apply Fin.ext
  match ax with
  | ⟨0, _⟩ => show win0_0.index t (0 : Fin 2) * 192 + 1 * k.val = k.val; omega
  | ⟨1, _⟩ => show win0_0.index t (1 : Fin 2) * 4096 + 1 * q.val = 4096 * t.val + q.val; omega

/-- Its block of the mask matrix likewise. -/
theorem blk1_read (c : Dev nD) (t : Fin cfg0.N) (r : Fin 64) (q : Fin 4096) :
    iblk m c 1 t (ix2 r q) = V m c main_v42 (ix2 r ⟨4096 * t.val + q.val, by have := t_lt t; omega⟩) := by
  obtain ⟨-, -, e10, e11, -, -, -, -⟩ := idx_facts t
  show V m c main_v42 (((cfg0.win 1).blk t).view.emb (ix2 r q)) = _
  refine congrArg (V m c main_v42) ?_
  funext ax; apply Fin.ext
  match ax with
  | ⟨0, _⟩ => show win0_1.index t (0 : Fin 2) * 64 + 1 * r.val = r.val; omega
  | ⟨1, _⟩ => show win0_1.index t (1 : Fin 2) * 4096 + 1 * q.val = 4096 * t.val + q.val; omega

/-- The weights' block is the whole weight matrix at every tile. -/
theorem blk2_read (c : Dev nD) (t : Fin cfg0.N) (j : Fin 4) (k : Fin 192) :
    iblk m c 2 t (ix2 j k) = V m c main_arg2 (ix2 j k) := by
  obtain ⟨-, -, -, -, e20, e21, -, -⟩ := idx_facts t
  show V m c main_arg2 (((cfg0.win 2).blk t).view.emb (ix2 j k)) = _
  refine congrArg (V m c main_arg2) ?_
  funext ax; apply Fin.ext
  match ax with
  | ⟨0, _⟩ => show win0_2.index t (0 : Fin 2) * 4 + 1 * j.val = j.val; omega
  | ⟨1, _⟩ => show win0_2.index t (1 : Fin 2) * 192 + 1 * k.val = k.val; omega

/-- Where tile `t`'s result block sits in the result array. -/
theorem emb3 (t : Fin cfg0.N) (a : Fin 8) (q : Fin 4096) :
    ((cfg0.win 3).blk t).view.emb (ix2 a q) = ix2 a ⟨4096 * t.val + q.val, by have := t_lt t; omega⟩ := by
  obtain ⟨-, -, -, -, -, -, e30, e31⟩ := idx_facts t
  funext ax; apply Fin.ext
  match ax with
  | ⟨0, _⟩ => show win0_3.index t (0 : Fin 2) * 8 + 1 * a.val = a.val; omega
  | ⟨1, _⟩ => show win0_3.index t (1 : Fin 2) * 4096 + 1 * q.val = 4096 * t.val + q.val; omega

/-- What point `t` writes back is block `t` of the packed result of the arrays as the launch finds them. -/
theorem flushed_eq (c : Dev nD) (t : Fin cfg0.N) :
    (dats m 0 c).flushed 3 t = ((cfg0.win 3).blk t).view.read (Elt Ideal)
      (packed (V m c main_v2) (V m c main_v42) (V m c main_arg2)) := by
  show (cfg0.win 3).cut (grid0.coords t) ((dats m 0 c).after 3 t) = _
  rw [after0_3]
  unfold out0_3
  rw [View.canon_unit_zero hz]
  simp only [View.ld_unit_zero (S := S192x4096) hz, View.ld_unit_zero (S := S4x192) hz, View.ld_unit_zero (S := S64x4096) hz]
  funext y
  obtain ⟨a, q, rfl⟩ : ∃ (a : Fin 8) (q : Fin 4096), y = ix2 a q := ⟨y 0, y 1, eq_ix2 y⟩
  show k0_pay1 (F := Ideal) (iblk m c 0 t) (iblk m c 2 t) (iblk m c 1 t) (ix2 a q)
    = packed (V m c main_v2) (V m c main_v42) (V m c main_arg2) (((cfg0.win 3).blk t).view.emb (ix2 a q))
  rw [emb3 t a q]
  exact tile_eq (iblk m c 0 t) (iblk m c 2 t) (iblk m c 1 t) (V m c main_v2) (V m c main_v42) (V m c main_arg2) t.val (t_lt t)
    (blk0_read m c t) (blk1_read m c t) (blk2_read m c t) a q

/-- An index of the result array is in point `t`'s block iff each coordinate is in the block's range on its axis. -/
theorem mem_blk (t : Fin cfg0.N) (i : S8x131072.Idx) :
    i ∈ ((cfg0.win 3).blk t).view.set ↔ ∀ a : Fin 2, win0_3.index t a * S8x4096.size a ≤ (i a).val ∧ (i a).val < win0_3.index t a * S8x4096.size a + S8x4096.size a := by
  show i ∈ ((View.whole main_v43).slice (win0_3.rect t)).set ↔ _
  rw [View.set_slice_whole, Rect.mem_set_unit]
  exact Iff.rfl

/-- Every column lies in the tile `p / 4096`. -/
theorem cover (i : S8x131072.Idx) : ∃ t : Fin cfg0.N, (cfg0.win 3).flush t = true ∧ i ∈ ((cfg0.win 3).blk t).view.set := by
  have hi0 : (i 0).val < 8 := (i 0).isLt
  have hi1 : (i 1).val < 131072 := (i 1).isLt
  have hN : cfg0.N = 32 := N_0
  refine ⟨⟨(i 1).val / 4096, by rw [hN]; omega⟩, flush0_3 _, ?_⟩
  rw [mem_blk]
  obtain ⟨-, -, -, -, -, -, e30, e31⟩ := idx_facts ⟨(i 1).val / 4096, by rw [hN]; omega⟩
  intro a
  match a with
  | ⟨0, _⟩ =>
    show win0_3.index _ (0 : Fin 2) * 8 ≤ (i 0).val ∧ (i 0).val < win0_3.index _ (0 : Fin 2) * 8 + 8
    rw [e30]; omega
  | ⟨1, _⟩ =>
    show win0_3.index _ (1 : Fin 2) * 4096 ≤ (i 1).val ∧ (i 1).val < win0_3.index _ (1 : Fin 2) * 4096 + 4096
    rw [e31]; show (i 1).val / 4096 * 4096 ≤ (i 1).val ∧ (i 1).val < (i 1).val / 4096 * 4096 + 4096; omega

/-- The result array after the launch. -/
theorem final (c : Dev nD) :
    (dats m 0 c).arrAt 3 cfg0.N = packed (V m c main_v2) (V m c main_v42) (V m c main_arg2) :=
  (dats m 0 c).arrAt_eq_of_cover 3 _ (fun t _ => flushed_eq m c t) cover

end Cert.RefArray

end
-- ==== Proof.RefTail.lean ====
/-
  The reference's host lines after its kernel launch: the packed 8 × 131072 result is cut into its upper four rows
  (the plain projection) and its lower four rows (the masked one); each half is reshaped to
  [4, 32, 64, 64] (latent channel, image, patch row, patch column: column `p = 4096·b + 64·hl + wl`) and its
  first two axes are swapped.  So entry `(b, n, hl, wl)` of a result is entry `(o + n, 4096·b + 64·hl + wl)` of the
  packed array, `o = 0` or `4`.
-/
import proofs.«152438_g2000606418805165_pallasbulk_850_2_alg».proof.Proof.Gen.ReferenceIdeal.Frame
import proofs.«152438_g2000606418805165_pallasbulk_850_2_alg».proof.Proof.LibDense
import Idealize.ShloMosaic.Lib.ValueIdx
import Idealize.ShloMosaic.Lib.Pipeline.Value
import Idealize.ShloMosaic.Lib.StableHlo.Run

noncomputable section

namespace Cert.RefTail

open Idealize.ShloMosaic Idealize.ShloMosaic.TcCoe Idealize.ShloMosaic.ValueIdx Idealize.SL.Sem
open Idealize.ShloMosaic.Pipeline (Dat)
open Cert.ReferenceIdeal Cert.ReferenceIdeal.Gen

/-- Four rows of the packed array from row `o`, as a [32, 4, 64, 64] latent. -/
def tailOf (o : ℕ) (A : S8x131072.Idx → EReal) (hs : S8x131072.Slices ![o, 0] S4x131072) : S32x4x64x64.Idx → EReal :=
  transpose S32x4x64x64 [1, 0, 2, 3]
    (shapeCast S4x32x64x64 (extractStridedSlice S4x131072 ![o, 0] A hs) Facts₀.shapeCasts_S4x131072_S4x32x64x64)
    Facts₀.transposes_S4x32x64x64_S32x4x64x64_1_0_2_3

theorem tailOf_apply (o : ℕ) (A : S8x131072.Idx → EReal) (hs : S8x131072.Slices ![o, 0] S4x131072) (ho : o + 4 ≤ 8)
    (b : Fin 32) (n : Fin 4) (hl wl : Fin 64) :
    tailOf o A hs (ix4 b n hl wl)
      = A (ix2 ⟨o + n.val, by omega⟩ ⟨4096 * b.val + 64 * hl.val + wl.val, by omega⟩) := by
  unfold tailOf
  refine (transpose_apply _ _ _ (ix4 b n hl wl) (ix4 n b hl wl) (fun a => ?_)).trans ?_
  · match a with
    | ⟨0, _⟩ => rfl
    | ⟨1, _⟩ => rfl
    | ⟨2, _⟩ => rfl
    | ⟨3, _⟩ => rfl
  · refine (shapeCast_apply _ _ (ix4 n b hl wl) (ix2 n ⟨4096 * b.val + 64 * hl.val + wl.val, by omega⟩) ?_).trans ?_
    · rw [Shape.rowMajor_val_two, Shape.rowMajor_val_four]
      show n.val * 131072 + (4096 * b.val + 64 * hl.val + wl.val) = ((n.val * 32 + b.val) * 64 + hl.val) * 64 + wl.val
      omega
    · exact Cert.Dense.sliceRows_apply o A hs n _ (by omega)

variable (m : (ℓ : Loc nD τ sig) → Buf (Elt Ideal) ℓ)

/-- The first result after the run: the upper four rows of the launch's result array. -/
theorem tail_plain (c : Dev nD) :
    Pipeline.afterTail₀ cfgs (dats m) 0 (V0 m) [hostOps1] c main_v46
      = tailOf 0 ((dats m 0 c).arrAt 3 cfg0.N) Facts₀.slices_S8x131072_S4x131072_0_0 := by
  unfold Pipeline.afterTail₀
  show StableHlo.after hostOps1 _ (Proc.devRef .tc main_v46) = _
  after_results
  exact congrArg (fun A => tailOf 0 A Facts₀.slices_S8x131072_S4x131072_0_0)
    (Pipeline.withArrays_arr spec0 launch0.win.arr_inj c (V0 m c) (fun w => (dats m 0 c).arrAt w cfg0.N) 3)

/-- The second result: the lower four rows. -/
theorem tail_masked (c : Dev nD) :
    Pipeline.afterTail₀ cfgs (dats m) 0 (V0 m) [hostOps1] c main_v49
      = tailOf 4 ((dats m 0 c).arrAt 3 cfg0.N) Facts₀.slices_S8x131072_S4x131072_4_0 := by
  unfold Pipeline.afterTail₀
  show StableHlo.after hostOps1 _ (Proc.devRef .tc main_v49) = _
  after_results
  exact congrArg (fun A => tailOf 4 A Facts₀.slices_S8x131072_S4x131072_4_0)
    (Pipeline.withArrays_arr spec0 launch0.win.arr_inj c (V0 m c) (fun w => (dats m 0 c).arrAt w cfg0.N) 3)

end Cert.RefTail

end
-- ==== Proof.RefValue.lean ====
/-
  The reference's two results are the plain and the masked patch projection.

  Column `p = 4096·b + 64·hl + wl` of the patch matrix `X` holds the patch of image `b` at `(hl, wl)`, one tap per
  row, and the same column of the mask matrix `Mk` the mask value each of the patch's 64 pixels meets (the same for the
  three channels: row `k % 64` for tap `k`).  The packed product's upper rows read back through the final reshape and
  transpose are `∑ k, W[n, k] · X[k, p]`, its lower rows `∑ k, W[n, k] · (X[k, p] · Mk[k % 64, p])`.
-/
import proofs.«152438_g2000606418805165_pallasbulk_850_2_alg».proof.Proof.RefArray
import proofs.«152438_g2000606418805165_pallasbulk_850_2_alg».proof.Proof.RefTail
import proofs.«152438_g2000606418805165_pallasbulk_850_2_alg».proof.Proof.Spec

noncomputable section

namespace Cert.RefValue

open Idealize.ShloMosaic Idealize.ShloMosaic.ValueIdx
open Cert.ReferenceIdeal Cert.RefArray Cert.RefTail

/-- The column of patch `(b, hl, wl)` and what it decodes back to. -/
theorem col_facts (b : Fin 32) (hl wl : Fin 64) :
    (4096 * b.val + 64 * hl.val + wl.val) / 4096 = b.val ∧ ((4096 * b.val + 64 * hl.val + wl.val) / 64) % 64 = hl.val
      ∧ (4096 * b.val + 64 * hl.val + wl.val) % 64 = wl.val := by
  refine ⟨by omega, by omega, by omega⟩

theorem plain_eq (X : S192x131072.Idx → EReal) (Mk : S64x131072.Idx → EReal) (W : S4x192.Idx → EReal)
    (IMG : S32x3x512x512.Idx → EReal)
    (hX : ∀ (k : Fin 192) (p : Fin 131072), X (ix2 k p)
      = IMG (Cert.Spec.imgIdx ⟨p.val / 4096, by omega⟩ ⟨(p.val / 64) % 64, by omega⟩ ⟨p.val % 64, by omega⟩ k))
    (hs : S8x131072.Slices ![0, 0] S4x131072) :
    tailOf 0 (packed X Mk W) hs = Cert.Spec.plain IMG W := by
  funext i
  obtain ⟨b, n, hl, wl, rfl⟩ : ∃ (b : Fin 32) (n : Fin 4) (hl wl : Fin 64), i = ix4 b n hl wl := ⟨i 0, i 1, i 2, i 3, eq_ix4 i⟩
  rw [tailOf_apply 0 _ hs (by omega)]
  obtain ⟨c1, c2, c3⟩ := col_facts b hl wl
  have e : (⟨0 + n.val, by omega⟩ : Fin 8) = ⟨n.val, by omega⟩ := Fin.ext (Nat.zero_add _)
  rw [e, packed_plain]
  show _ = ∑ k : Fin 192, W (ix2 n k) * IMG (Cert.Spec.imgIdx b hl wl k)
  refine Finset.sum_congr rfl fun k _ => ?_
  rw [hX]
  refine congrArg (fun q => W (ix2 n k) * IMG q) ?_
  have eb : (⟨(4096 * b.val + 64 * hl.val + wl.val) / 4096, by omega⟩ : Fin 32) = b := Fin.ext c1
  have eh : (⟨((4096 * b.val + 64 * hl.val + wl.val) / 64) % 64, by omega⟩ : Fin 64) = hl := Fin.ext c2
  have ew : (⟨(4096 * b.val + 64 * hl.val + wl.val) % 64, by omega⟩ : Fin 64) = wl := Fin.ext c3
  rw [eb, eh, ew]

theorem masked_eq (X : S192x131072.Idx → EReal) (Mk : S64x131072.Idx → EReal) (W : S4x192.Idx → EReal)
    (IMG : S32x3x512x512.Idx → EReal) (MASK : S32x128x128.Idx → EReal)
    (hX : ∀ (k : Fin 192) (p : Fin 131072), X (ix2 k p)
      = IMG (Cert.Spec.imgIdx ⟨p.val / 4096, by omega⟩ ⟨(p.val / 64) % 64, by omega⟩ ⟨p.val % 64, by omega⟩ k))
    (hMk : ∀ (r : Fin 64) (p : Fin 131072), Mk (ix2 r p)
      = MASK (Cert.Spec.maskIdx ⟨p.val / 4096, by omega⟩ ⟨(p.val / 64) % 64, by omega⟩ ⟨p.val % 64, by omega⟩ ⟨r.val, by omega⟩))
    (hs : S8x131072.Slices ![4, 0] S4x131072) :
    tailOf 4 (packed X Mk W) hs = Cert.Spec.masked IMG MASK W := by
  funext i
  obtain ⟨b, n, hl, wl, rfl⟩ : ∃ (b : Fin 32) (n : Fin 4) (hl wl : Fin 64), i = ix4 b n hl wl := ⟨i 0, i 1, i 2, i 3, eq_ix4 i⟩
  rw [tailOf_apply 4 _ hs (by omega), packed_masked]
  obtain ⟨c1, c2, c3⟩ := col_facts b hl wl
  show _ = ∑ k : Fin 192, W (ix2 n k) * (IMG (Cert.Spec.imgIdx b hl wl k) * MASK (Cert.Spec.maskIdx b hl wl k))
  refine Finset.sum_congr rfl fun k _ => ?_
  rw [hX, hMk]
  have eb : (⟨(4096 * b.val + 64 * hl.val + wl.val) / 4096, by omega⟩ : Fin 32) = b := Fin.ext c1
  have eh : (⟨((4096 * b.val + 64 * hl.val + wl.val) / 64) % 64, by omega⟩ : Fin 64) = hl := Fin.ext c2
  have ew : (⟨(4096 * b.val + 64 * hl.val + wl.val) % 64, by omega⟩ : Fin 64) = wl := Fin.ext c3
  rw [eb, eh, ew]
  refine congrArg (fun q => W (ix2 n k) * (IMG (Cert.Spec.imgIdx b hl wl k) * MASK q)) ?_
  unfold Cert.Spec.maskIdx
  refine congrArg₂ (ix3 b) (Fin.ext ?_) (Fin.ext ?_)
  · show 2 * hl.val + (k.val % 64 / 32) % 2 = 2 * hl.val + (k.val / 32) % 2; omega
  · show 2 * wl.val + (k.val % 64 % 8) / 4 = 2 * wl.val + (k.val % 8) / 4; omega

end Cert.RefValue

end
-- ==== Proof.RefPrefixRun.lean ====
/-
  The reference program's host lines before its kernel launch, one stretch at a time.

  The lines fall into five stretches: the patch layout of the image and the first index array's dividend; jnp's floor
  division of it by 512; the second index array's dividend; its floor division; and the negative-index wrap, the two
  gathers and the patch layout of the mask.  Each stretch is read over an arbitrary starting valuation as a named
  function of the arrays it consumes, and the stretches are then chained.
-/
import proofs.«152438_g2000606418805165_pallasbulk_850_2_alg».proof.Proof.Gen.ReferenceIdeal.Frame
import Idealize.ShloMosaic.Lib.StableHlo.Run
import Idealize.ShloMosaic.PureOps.Ideal

noncomputable section

namespace Cert.RefPrefix

open Idealize.ShloMosaic Idealize.ShloMosaic.TcCoe Idealize.SL.Sem
open Cert.ReferenceIdeal Cert.ReferenceIdeal.Gen

/-! ## The stretches' results as functions of their operands -/

/-- The image in patch layout: split rows and columns into (patch, offset), bring channel and offsets to the front,
    flatten to taps × patches. -/
def patchesOf (x : S32x3x512x512.Idx → EReal) : S192x131072.Idx → EReal :=
  shapeCast S192x131072 (transpose S3x8x8x32x64x64 [1, 3, 5, 0, 2, 4]
    (shapeCast S32x3x64x8x64x8 x Facts₀.shapeCasts_S32x3x512x512_S32x3x64x8x64x8)
    Facts₀.transposes_S32x3x64x8x64x8_S3x8x8x32x64x64_1_3_5_0_2_4)
    Facts₀.shapeCasts_S3x8x8x32x64x64_S192x131072

/-- The dividend of an index array: `(8·i + j)·128` at `(i, j)`, as 32-bit words. -/
def idxPre : IVec S64x8 32 :=
  muli (addi
      (broadcastInDim S64x8 ![0, 1] Facts₀.bcast_S64x1_S64x8_0_1
        (muli (broadcastInDim S64x1 ![0] Facts₀.bcast_S64_S64x1_0 (iotaInDim S64 32 0))
          (broadcastInDim S64x1 ![] Facts₀.bcast_S_S64x1 (constantI S_ 32 8#32))))
      (broadcastInDim S64x8 ![0, 1] Facts₀.bcast_S1x8_S64x8_0_1
        (broadcastInDim S1x8 ![1] Facts₀.bcast_S8_S1x8_1 (iotaInDim S8 32 0))))
    (broadcastInDim S64x8 ![] Facts₀.bcast_S_S64x8 (constantI S_ 32 128#32))

/-- jnp's floor division of an array by a scalar: the truncated quotient, less one where the signs differ and the
    remainder is not zero. -/
def fdivArr (X : IVec S64x8 32) (K : IVec S_ 32) : IVec S64x8 32 :=
  select
    (andi (cmpi .ne (signi X) (broadcastInDim S64x8 ![] Facts₀.bcast_S_S64x8 (signi K)))
      (cmpi .ne (Host.remsi X (broadcastInDim S64x8 ![] Facts₀.bcast_S_S64x8 K))
        (broadcastInDim S64x8 ![] Facts₀.bcast_S_S64x8 (constantI S_ 32 0#32))))
    (subi (Host.divsi X (broadcastInDim S64x8 ![] Facts₀.bcast_S_S64x8 K))
      (broadcastInDim S64x8 ![] Facts₀.bcast_S_S64x8 (constantI S_ 32 1#32)))
    (Host.divsi X (broadcastInDim S64x8 ![] Facts₀.bcast_S_S64x8 K))

/-- The negative-index wrap by 128, then a trailing unit axis: the start indices of a gather. -/
def wrapArr (I : IVec S64x8 32) : IVec S64x8x1 32 :=
  broadcastInDim S64x8x1 ![0, 1] Facts₀.bcast_S64x8_S64x8x1_0_1
    (select (cmpi .slt I (broadcastInDim S64x8 ![] Facts₀.bcast_S_S64x8 (constantI S_ 32 0#32)))
      (addi I (broadcastInDim S64x8 ![] Facts₀.bcast_S_S64x8 (constantI S_ 32 128#32))) I)

/-- The mask in patch layout: rows gathered at the first index array, columns at the second, offsets brought to the
    front, flattened to offsets × patches. -/
def maskOf (A : S32x128x128.Idx → EReal) (IH IW : IVec S64x8 32) : S64x131072.Idx → EReal :=
  shapeCast S64x131072 (transpose S8x8x32x64x64 [2, 4, 0, 1, 3]
    (Host.gather gather_S32x64x8x128_S64x8x1_S32x64x8x64x8_012_3_n_n_3_2_326481
      (Host.gather gather_S32x128x128_S64x8x1_S32x64x8x128_03_1_n_n_1_2_321128 A (wrapArr IH)) (wrapArr IW))
    Facts₀.transposes_S32x64x8x64x8_S8x8x32x64x64_2_4_0_1_3)
    Facts₀.shapeCasts_S8x8x32x64x64_S64x131072

/-! ## Each stretch over an arbitrary starting valuation -/

section Stretches
variable (Wp : Valuation τ sig (Elt Ideal))

theorem s0_v2 :
    (StableHlo.after (hostOps0 (F := Ideal)) Wp (Proc.devRef .tc main_v2) : S192x131072.Idx → EReal)
      = patchesOf (Wp (Proc.devRef .tc main_arg0) : S32x3x512x512.Idx → EReal) := by
  after_results_simp
  rfl

theorem s0_v13 :
    (StableHlo.after (hostOps0 (F := Ideal)) Wp (Proc.devRef .tc main_v13) : IVec S64x8 32) = idxPre := by
  after_results_simp
  rfl

theorem s0_c1 :
    (StableHlo.after (hostOps0 (F := Ideal)) Wp (Proc.devRef .tc main_c_1) : IVec S_ 32) = constantI S_ 32 512#32 := by
  after_results_simp

theorem s0_arg1 :
    StableHlo.after (hostOps0 (F := Ideal)) Wp (Proc.devRef .tc main_arg1) = Wp (Proc.devRef .tc main_arg1) := by
  after_results_simp

theorem s1_v14 :
    (StableHlo.after (hostOps0_1 (F := Ideal)) Wp (Proc.devRef .tc main_v14) : IVec S64x8 32)
      = fdivArr (Wp (Proc.devRef .tc main_v13) : IVec S64x8 32) (Wp (Proc.devRef .tc main_c_1) : IVec S_ 32) := by
  after_results_simp
  simp only [cast_eq]
  rfl

theorem s1_v2 :
    StableHlo.after (hostOps0_1 (F := Ideal)) Wp (Proc.devRef .tc main_v2) = Wp (Proc.devRef .tc main_v2) := by
  after_results_simp

theorem s1_arg1 :
    StableHlo.after (hostOps0_1 (F := Ideal)) Wp (Proc.devRef .tc main_arg1) = Wp (Proc.devRef .tc main_arg1) := by
  after_results_simp

theorem s2_v25 :
    (StableHlo.after (hostOps0_2 (F := Ideal)) Wp (Proc.devRef .tc main_v25) : IVec S64x8 32) = idxPre := by
  after_results_simp
  rfl

theorem s2_c4 :
    (StableHlo.after (hostOps0_2 (F := Ideal)) Wp (Proc.devRef .tc main_c_4) : IVec S_ 32) = constantI S_ 32 512#32 := by
  after_results_simp

theorem s2_v2 :
    StableHlo.after (hostOps0_2 (F := Ideal)) Wp (Proc.devRef .tc main_v2) = Wp (Proc.devRef .tc main_v2) := by
  after_results_simp

theorem s2_arg1 :
    StableHlo.after (hostOps0_2 (F := Ideal)) Wp (Proc.devRef .tc main_arg1) = Wp (Proc.devRef .tc main_arg1) := by
  after_results_simp

theorem s2_v14 :
    StableHlo.after (hostOps0_2 (F := Ideal)) Wp (Proc.devRef .tc main_v14) = Wp (Proc.devRef .tc main_v14) := by
  after_results_simp

theorem s3_v26 :
    (StableHlo.after (hostOps0_3 (F := Ideal)) Wp (Proc.devRef .tc main_v26) : IVec S64x8 32)
      = fdivArr (Wp (Proc.devRef .tc main_v25) : IVec S64x8 32) (Wp (Proc.devRef .tc main_c_4) : IVec S_ 32) := by
  after_results_simp
  simp only [cast_eq]
  rfl

theorem s3_v2 :
    StableHlo.after (hostOps0_3 (F := Ideal)) Wp (Proc.devRef .tc main_v2) = Wp (Proc.devRef .tc main_v2) := by
  after_results_simp

theorem s3_arg1 :
    StableHlo.after (hostOps0_3 (F := Ideal)) Wp (Proc.devRef .tc main_arg1) = Wp (Proc.devRef .tc main_arg1) := by
  after_results_simp

theorem s3_v14 :
    StableHlo.after (hostOps0_3 (F := Ideal)) Wp (Proc.devRef .tc main_v14) = Wp (Proc.devRef .tc main_v14) := by
  after_results_simp

theorem s4_v42 :
    (StableHlo.after (hostOps0_4 (F := Ideal)) Wp (Proc.devRef .tc main_v42) : S64x131072.Idx → EReal)
      = maskOf (Wp (Proc.devRef .tc main_arg1) : S32x128x128.Idx → EReal) (Wp (Proc.devRef .tc main_v14) : IVec S64x8 32)
          (Wp (Proc.devRef .tc main_v26) : IVec S64x8 32) := by
  after_results_simp
  rfl

theorem s4_v2 :
    StableHlo.after (hostOps0_4 (F := Ideal)) Wp (Proc.devRef .tc main_v2) = Wp (Proc.devRef .tc main_v2) := by
  after_results_simp

end Stretches

/-! ## The stretches chained -/

theorem V0_split (m : (ℓ : Loc nD τ sig) → Buf (Elt Ideal) ℓ) (c : Dev nD) :
    V0 (F := Ideal) m c = StableHlo.after hostOps0_4 (StableHlo.after hostOps0_3 (StableHlo.after hostOps0_2
      (StableHlo.after hostOps0_1 (StableHlo.after hostOps0 (fun b => m (c, b)))))) := by
  unfold V0
  rw [List.flatten_cons, List.flatten_cons, List.flatten_cons, List.flatten_cons, List.flatten_cons, List.flatten_nil, List.append_nil,
    StableHlo.after_append, StableHlo.after_append, StableHlo.after_append, StableHlo.after_append]

/-- When the kernel is launched its first operand is the image in patch layout. -/
theorem V_v2 (m : (ℓ : Loc nD τ sig) → Buf (Elt Ideal) ℓ) (c : Dev nD) :
    (V (F := Ideal) m c main_v2 : S192x131072.Idx → EReal)
      = patchesOf (m ((c : Thread nD τ).loc main_arg0) : S32x3x512x512.Idx → EReal) := by
  show (V0 (F := Ideal) m c (Proc.devRef .tc main_v2) : S192x131072.Idx → EReal) = _
  rw [V0_split, s4_v2, s3_v2, s2_v2, s1_v2, s0_v2]

/-- When the kernel is launched its second operand is the mask in patch layout, gathered at the two index arrays. -/
theorem V_v42 (m : (ℓ : Loc nD τ sig) → Buf (Elt Ideal) ℓ) (c : Dev nD) :
    (V (F := Ideal) m c main_v42 : S64x131072.Idx → EReal)
      = maskOf (m ((c : Thread nD τ).loc main_arg1) : S32x128x128.Idx → EReal)
          (fdivArr idxPre (constantI S_ 32 512#32)) (fdivArr idxPre (constantI S_ 32 512#32)) := by
  show (V0 (F := Ideal) m c (Proc.devRef .tc main_v42) : S64x131072.Idx → EReal) = _
  rw [V0_split, s4_v42, s3_arg1, s2_arg1, s1_arg1, s0_arg1, s3_v14, s2_v14, s1_v14, s0_v13, s0_c1, s3_v26, s2_v25, s2_c4]

end Cert.RefPrefix

end
-- ==== Proof.RefPrefixLayout.lean ====
/-
  Layout operations of the patch embedding, read at an index.

  An image `[32, 3, 512, 512]` is cut into 8 × 8 patches by a reshape to `[32, 3, 64, 8, 64, 8]`, a transpose to
  `[3, 8, 8, 32, 64, 64]` and a reshape to `[192, 131072]`: row `k = 64·c + 8·dy + dx`, column
  `p = 4096·b + 64·hl + wl` holds pixel `(b, c, 8·hl + dy, 8·wl + dx)`.  The per-pixel mask in the same patch layout
  is a `[32, 64, 8, 64, 8]` array `(b, hl, dy, wl, dx)` transposed to `[8, 8, 32, 64, 64]` and reshaped to
  `[64, 131072]`: row `r = 8·dy + dx`, column `p` as above.  Both are stated over an arbitrary array.
-/
import proofs.«152438_g2000606418805165_pallasbulk_850_2_alg».proof.Proof.Spec
import Idealize.ShloMosaic.Lib.ValueIdx
import Idealize.ShloMosaic.Lib.ValueIdxRank6
import Idealize.ShloMosaic.Lib.ValueLayout
import Idealize.ShloMosaic.Lib.Pipeline.Value

noncomputable section

namespace Cert.RefPrefix

open Idealize.ShloMosaic Idealize.ShloMosaic.ValueIdx

variable {α : Type}

/-- The image in patch layout, read at row `k` and column `p`: the pixel `Spec.imgIdx` names. -/
theorem patch_read (x : (⟨4, ![32, 3, 512, 512]⟩ : Shape).Idx → α)
    (h1 : (⟨4, ![32, 3, 512, 512]⟩ : Shape).ShapeCasts ⟨6, ![32, 3, 64, 8, 64, 8]⟩)
    (h2 : (⟨6, ![32, 3, 64, 8, 64, 8]⟩ : Shape).Transposes [1, 3, 5, 0, 2, 4] ⟨6, ![3, 8, 8, 32, 64, 64]⟩)
    (h3 : (⟨6, ![3, 8, 8, 32, 64, 64]⟩ : Shape).ShapeCasts ⟨2, ![192, 131072]⟩)
    (k : Fin 192) (p : Fin 131072) :
    shapeCast ⟨2, ![192, 131072]⟩ (transpose ⟨6, ![3, 8, 8, 32, 64, 64]⟩ [1, 3, 5, 0, 2, 4]
        (shapeCast ⟨6, ![32, 3, 64, 8, 64, 8]⟩ x h1) h2) h3 (ix2 k p)
      = x (Cert.Spec.imgIdx ⟨p.val / 4096, by omega⟩ ⟨(p.val / 64) % 64, by omega⟩ ⟨p.val % 64, by omega⟩ k) := by
  have hk := k.isLt
  have hp := p.isLt
  -- the reshape to two axes: the six coordinates of position 131072·k + p
  refine (shapeCast_apply _ h3 (ix2 k p)
    (ix6 (⟨k.val / 64, by omega⟩ : Fin 3) (⟨(k.val / 8) % 8, by omega⟩ : Fin 8) (⟨k.val % 8, by omega⟩ : Fin 8)
      (⟨p.val / 4096, by omega⟩ : Fin 32) (⟨(p.val / 64) % 64, by omega⟩ : Fin 64) (⟨p.val % 64, by omega⟩ : Fin 64)) ?_).trans ?_
  · rw [Shape.rowMajor_val_six, Shape.rowMajor_val_two]
    show ((((k.val / 64 * 8 + (k.val / 8) % 8) * 8 + k.val % 8) * 32 + p.val / 4096) * 64 + (p.val / 64) % 64) * 64 + p.val % 64
      = k.val * 131072 + p.val
    omega
  -- the transpose: result axes (c, dy, dx, b, hl, wl) read source axes (1, 3, 5, 0, 2, 4)
  refine (transpose_apply _ _ h2 _
    (ix6 (⟨p.val / 4096, by omega⟩ : Fin 32) (⟨k.val / 64, by omega⟩ : Fin 3) (⟨(p.val / 64) % 64, by omega⟩ : Fin 64)
      (⟨(k.val / 8) % 8, by omega⟩ : Fin 8) (⟨p.val % 64, by omega⟩ : Fin 64) (⟨k.val % 8, by omega⟩ : Fin 8)) ?_).trans ?_
  · intro b
    match b with
    | ⟨0, _⟩ => rfl
    | ⟨1, _⟩ => rfl
    | ⟨2, _⟩ => rfl
    | ⟨3, _⟩ => rfl
    | ⟨4, _⟩ => rfl
    | ⟨5, _⟩ => rfl
  -- the reshape that splits rows and columns into (patch, offset)
  refine shapeCast_apply _ h1 _ _ ?_
  rw [Shape.rowMajor_val_four, Shape.rowMajor_val_six]
  show ((p.val / 4096 * 3 + k.val / 64) * 512 + (8 * ((p.val / 64) % 64) + (k.val / 8) % 8)) * 512 + (8 * (p.val % 64) + k.val % 8)
    = ((((p.val / 4096 * 3 + k.val / 64) * 64 + (p.val / 64) % 64) * 8 + (k.val / 8) % 8) * 64 + p.val % 64) * 8 + k.val % 8
  omega

/-- The per-pixel mask in patch layout, read at row `r = 8·dy + dx` and column `p = 4096·b + 64·hl + wl`: the
    five-axis array at `(b, hl, dy, wl, dx)`. -/
theorem maskrows_read (y : (⟨5, ![32, 64, 8, 64, 8]⟩ : Shape).Idx → α)
    (h1 : (⟨5, ![32, 64, 8, 64, 8]⟩ : Shape).Transposes [2, 4, 0, 1, 3] ⟨5, ![8, 8, 32, 64, 64]⟩)
    (h2 : (⟨5, ![8, 8, 32, 64, 64]⟩ : Shape).ShapeCasts ⟨2, ![64, 131072]⟩)
    (r : Fin 64) (p : Fin 131072) :
    shapeCast ⟨2, ![64, 131072]⟩ (transpose ⟨5, ![8, 8, 32, 64, 64]⟩ [2, 4, 0, 1, 3] y h1) h2 (ix2 r p)
      = y (ix5 (⟨p.val / 4096, by omega⟩ : Fin 32) (⟨(p.val / 64) % 64, by omega⟩ : Fin 64) (⟨r.val / 8, by omega⟩ : Fin 8)
            (⟨p.val % 64, by omega⟩ : Fin 64) (⟨r.val % 8, by omega⟩ : Fin 8)) := by
  have hr := r.isLt
  have hp := p.isLt
  refine (shapeCast_apply _ h2 (ix2 r p)
    (ix5 (⟨r.val / 8, by omega⟩ : Fin 8) (⟨r.val % 8, by omega⟩ : Fin 8) (⟨p.val / 4096, by omega⟩ : Fin 32)
      (⟨(p.val / 64) % 64, by omega⟩ : Fin 64) (⟨p.val % 64, by omega⟩ : Fin 64)) ?_).trans ?_
  · rw [Shape.rowMajor_val_five, Shape.rowMajor_val_two]
    show (((r.val / 8 * 8 + r.val % 8) * 32 + p.val / 4096) * 64 + (p.val / 64) % 64) * 64 + p.val % 64 = r.val * 131072 + p.val
    omega
  refine transpose_apply _ _ h1 _ _ ?_
  intro b
  match b with
  | ⟨0, _⟩ => rfl
  | ⟨1, _⟩ => rfl
  | ⟨2, _⟩ => rfl
  | ⟨3, _⟩ => rfl
  | ⟨4, _⟩ => rfl

end Cert.RefPrefix

end
-- ==== Proof.RefPrefixGather.lean ====
/-
  The two gathers of the nearest-neighbour upsampling, read at an index.

  `mask[:, ih, :]` gathers rows of a `[32, 128, 128]` array along axis 1 at a `[64, 8]` array of row numbers (with a
  trailing unit axis): the result `[32, 64, 8, 128]` at `(b, i, j, w)` is the operand at `(b, r, w)`, `r` the start
  index `idx[i, j, 0]` read signed and clamped into `[0, 127]`.  `rows[:, :, :, iw]` gathers along axis 3 of the
  `[32, 64, 8, 128]` array: the result `[32, 64, 8, 64, 8]` at `(b, i, j, u, v)` is the operand at `(b, i, j, r)`, `r`
  the start index `idx[u, v, 0]` clamped likewise.
-/
import Idealize.ShloMosaic.Lib.ValueIdx

noncomputable section

namespace Cert.RefPrefix

open Idealize.ShloMosaic Idealize.ShloMosaic.ValueIdx

variable {α : Type}

/-- The dimension numbers of the row gather. -/
abbrev rowsDims (wf : GatherDims.WF ⟨3, ![32, 128, 128]⟩ ⟨3, ![64, 8, 1]⟩ ⟨4, ![32, 64, 8, 128]⟩ [0, 3] [1] [] [1] [] 2 ![32, 1, 128]) :
    GatherDims ⟨3, ![32, 128, 128]⟩ ⟨3, ![64, 8, 1]⟩ ⟨4, ![32, 64, 8, 128]⟩ where
  offsetDims := [0, 3]
  collapsedSliceDims := [1]
  operandBatchingDims := []
  startIndicesBatchingDims := []
  startIndexMap := [1]
  indexVectorDim := 2
  sliceSizes := ![32, 1, 128]
  wf := wf

/-- The dimension numbers of the column gather. -/
abbrev colsDims (wf : GatherDims.WF ⟨4, ![32, 64, 8, 128]⟩ ⟨3, ![64, 8, 1]⟩ ⟨5, ![32, 64, 8, 64, 8]⟩ [0, 1, 2] [3] [] [3] [] 2 ![32, 64, 8, 1]) :
    GatherDims ⟨4, ![32, 64, 8, 128]⟩ ⟨3, ![64, 8, 1]⟩ ⟨5, ![32, 64, 8, 64, 8]⟩ where
  offsetDims := [0, 1, 2]
  collapsedSliceDims := [3]
  operandBatchingDims := []
  startIndicesBatchingDims := []
  startIndexMap := [3]
  indexVectorDim := 2
  sliceSizes := ![32, 64, 8, 1]
  wf := wf

/-- THE ROW GATHER READ AT `(b, i, j, w)`. -/
theorem gather_rows_apply {w : Nat} (wf) (x : (⟨3, ![32, 128, 128]⟩ : Shape).Idx → α) (idx : IVec ⟨3, ![64, 8, 1]⟩ w)
    (b : Fin 32) (i : Fin 64) (j : Fin 8) (k : Fin 128) :
    Host.gather (rowsDims wf) x idx (ix4 b i j k)
      = x (ix3 b ⟨min (idx (ix3 i j (0 : Fin 1))).toInt.toNat 127, by omega⟩ k) := by
  unfold Host.gather
  refine congrArg x ?_
  funext a
  refine Fin.ext ?_
  match a with
  | ⟨0, _⟩ =>
    show (rowsDims wf).start (ix4 b i j k) idx 0 + (rowsDims wf).batchCoord (ix4 b i j k) 0 + (rowsDims wf).offCoord (ix4 b i j k) 0 = b.val
    rw [GatherDims.batchCoord_eq_zero _ _ _ List.not_mem_nil]
    unfold GatherDims.start
    rw [dif_neg (show (0 : Fin 3) ∉ ([1] : List (Fin 3)) by decide)]
    unfold GatherDims.offCoord
    rw [dif_pos ((GatherDims.mem_sKept _ _).mpr ⟨(show (0 : Fin 3) ∉ ([1] : List (Fin 3)) by decide), List.not_mem_nil⟩)]
    simp only [Nat.zero_add, Nat.add_zero]
    rfl
  | ⟨1, _⟩ =>
    show (rowsDims wf).start (ix4 b i j k) idx 1 + (rowsDims wf).batchCoord (ix4 b i j k) 1 + (rowsDims wf).offCoord (ix4 b i j k) 1
      = min (idx (ix3 i j (0 : Fin 1))).toInt.toNat 127
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims wf).startIndexMap from List.mem_singleton.mpr rfl)]
    have hsi : (rowsDims wf).siIdx (ix4 b i j k) ⟨List.idxOf (1 : Fin 3) (rowsDims wf).startIndexMap,
        List.idxOf_lt_length_iff.2 (List.mem_singleton.mpr rfl)⟩ = ix3 i j (0 : Fin 1) := by
      funext c; refine Fin.ext ?_
      match c with
      | ⟨0, _⟩ => rfl
      | ⟨1, _⟩ => rfl
      | ⟨2, _⟩ => rfl
    rw [hsi]
    rfl
  | ⟨2, _⟩ =>
    show (rowsDims wf).start (ix4 b i j k) idx 2 + (rowsDims wf).batchCoord (ix4 b i j k) 2 + (rowsDims wf).offCoord (ix4 b i j k) 2 = k.val
    rw [GatherDims.batchCoord_eq_zero _ _ _ List.not_mem_nil]
    unfold GatherDims.start
    rw [dif_neg (show (2 : Fin 3) ∉ ([1] : List (Fin 3)) by decide)]
    unfold GatherDims.offCoord
    rw [dif_pos ((GatherDims.mem_sKept _ _).mpr ⟨(show (2 : Fin 3) ∉ ([1] : List (Fin 3)) by decide), List.not_mem_nil⟩)]
    simp only [Nat.zero_add, Nat.add_zero]
    rfl

/-- THE COLUMN GATHER READ AT `(b, i, j, u, v)`. -/
theorem gather_cols_apply {w : Nat} (wf) (x : (⟨4, ![32, 64, 8, 128]⟩ : Shape).Idx → α) (idx : IVec ⟨3, ![64, 8, 1]⟩ w)
    (b : Fin 32) (i : Fin 64) (j : Fin 8) (u : Fin 64) (v : Fin 8) :
    Host.gather (colsDims wf) x idx (ix5 b i j u v)
      = x (ix4 b i j ⟨min (idx (ix3 u v (0 : Fin 1))).toInt.toNat 127, by omega⟩) := by
  unfold Host.gather
  refine congrArg x ?_
  funext a
  refine Fin.ext ?_
  match a with
  | ⟨0, _⟩ =>
    show (colsDims wf).start (ix5 b i j u v) idx 0 + (colsDims wf).batchCoord (ix5 b i j u v) 0 + (colsDims wf).offCoord (ix5 b i j u v) 0 = b.val
    rw [GatherDims.batchCoord_eq_zero _ _ _ List.not_mem_nil]
    unfold GatherDims.start
    rw [dif_neg (show (0 : Fin 4) ∉ ([3] : List (Fin 4)) by decide)]
    unfold GatherDims.offCoord
    rw [dif_pos ((GatherDims.mem_sKept _ _).mpr ⟨(show (0 : Fin 4) ∉ ([3] : List (Fin 4)) by decide), List.not_mem_nil⟩)]
    simp only [Nat.zero_add, Nat.add_zero]
    rfl
  | ⟨1, _⟩ =>
    show (colsDims wf).start (ix5 b i j u v) idx 1 + (colsDims wf).batchCoord (ix5 b i j u v) 1 + (colsDims wf).offCoord (ix5 b i j u v) 1 = i.val
    rw [GatherDims.batchCoord_eq_zero _ _ _ List.not_mem_nil]
    unfold GatherDims.start
    rw [dif_neg (show (1 : Fin 4) ∉ ([3] : List (Fin 4)) by decide)]
    unfold GatherDims.offCoord
    rw [dif_pos ((GatherDims.mem_sKept _ _).mpr ⟨(show (1 : Fin 4) ∉ ([3] : List (Fin 4)) by decide), List.not_mem_nil⟩)]
    simp only [Nat.zero_add, Nat.add_zero]
    rfl
  | ⟨2, _⟩ =>
    show (colsDims wf).start (ix5 b i j u v) idx 2 + (colsDims wf).batchCoord (ix5 b i j u v) 2 + (colsDims wf).offCoord (ix5 b i j u v) 2 = j.val
    rw [GatherDims.batchCoord_eq_zero _ _ _ List.not_mem_nil]
    unfold GatherDims.start
    rw [dif_neg (show (2 : Fin 4) ∉ ([3] : List (Fin 4)) by decide)]
    unfold GatherDims.offCoord
    rw [dif_pos ((GatherDims.mem_sKept _ _).mpr ⟨(show (2 : Fin 4) ∉ ([3] : List (Fin 4)) by decide), List.not_mem_nil⟩)]
    simp only [Nat.zero_add, Nat.add_zero]
    rfl
  | ⟨3, _⟩ =>
    show (colsDims wf).start (ix5 b i j u v) idx 3 + (colsDims wf).batchCoord (ix5 b i j u v) 3 + (colsDims wf).offCoord (ix5 b i j u v) 3
      = min (idx (ix3 u v (0 : Fin 1))).toInt.toNat 127
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (3 : Fin 4) ∈ (colsDims wf).startIndexMap from List.mem_singleton.mpr rfl)]
    have hsi : (colsDims wf).siIdx (ix5 b i j u v) ⟨List.idxOf (3 : Fin 4) (colsDims wf).startIndexMap,
        List.idxOf_lt_length_iff.2 (List.mem_singleton.mpr rfl)⟩ = ix3 u v (0 : Fin 1) := by
      funext c; refine Fin.ext ?_
      match c with
      | ⟨0, _⟩ => rfl
      | ⟨1, _⟩ => rfl
      | ⟨2, _⟩ => rfl
    rw [hsi]
    rfl

end Cert.RefPrefix

end
-- ==== Proof.RefPrefixWords.lean ====
/-
  The index words of the nearest-neighbour upsampling, one word at a time.

  The row (and column) index of the mask cell under pixel offset `d` of patch `a` is `((8·a + d)·128) // 512`,
  computed on 32-bit words by a multiply, an add, a multiply, jnp's floor division and the negative-index wrap.
  For `a < 64` and `d < 8` no word overflows, every word is non-negative, and the result is `2·a + d / 4 < 128`.
-/
import proofs.«152438_g2000606418805165_pallasbulk_850_2_alg».proof.Proof.LibScatterWords

noncomputable section

namespace Cert.RefPrefix

open Idealize.ShloMosaic Cert.Lib.Scatter

/-- The dividend `(8·a + d)·128` as the program computes it. -/
def preW (a d : Nat) : BitVec 32 :=
  IntOp.muli (IntOp.addi (IntOp.muli (BitVec.ofNat 32 a) 8#32) (BitVec.ofNat 32 d)) 128#32

theorem preW_toNat (a d : Nat) (ha : a < 64) (hd : d < 8) : (preW a d).toNat = (8 * a + d) * 128 := by
  unfold preW IntOp.muli IntOp.addi
  simp only [BitVec.toNat_mul, BitVec.toNat_add, BitVec.toNat_ofNat]
  omega

/-- Floor division by 512 and the wrap by 128 leave `2·a + d / 4`. -/
theorem idxWord (a d : Nat) (ha : a < 64) (hd : d < 8) :
    normW (fdivW (preW a d) 512#32) 128#32 = BitVec.ofNat 32 (2 * a + d / 4) := by
  have hx := preW_toNat a d ha hd
  have hm : (preW a d).msb = false := msb_false_of_lt (n := 65536) (by omega) (by decide)
  rw [fdivW_eq _ _ hm (by decide) (by decide) (by decide)]
  have hq : (preW a d / 512#32).toNat = 2 * a + d / 4 := by
    rw [BitVec.toNat_udiv, hx]
    show (8 * a + d) * 128 / 512 = 2 * a + d / 4
    omega
  have hm2 : (preW a d / 512#32).msb = false := msb_false_of_lt (n := 128) (by omega) (by decide)
  rw [normW_eq _ _ hm2]
  apply BitVec.eq_of_toNat_eq
  rw [hq, BitVec.toNat_ofNat]
  omega

/-- A small word read as a signed integer and clamped into `[0, 127]` is itself. -/
theorem clamp_word (n : Nat) (hn : n < 128) : min (BitVec.ofNat 32 n).toInt.toNat 127 = n := by
  have h1 := BitVec.toInt_eq_toNat_cond (BitVec.ofNat 32 n)
  have h2 : (BitVec.ofNat 32 n).toNat = n := by rw [BitVec.toNat_ofNat]; omega
  rw [h2] at h1
  split at h1 <;> omega

end Cert.RefPrefix

end
-- ==== Proof.RefPrefix.lean ====
/-
  The reference program's two kernel operands, read at an index.

  When the kernel is launched its first operand holds the image in patch layout — row `k = 64·c + 8·dy + dx`, column
  `p = 4096·b + 64·hl + wl` is pixel `(b, c, 8·hl + dy, 8·wl + dx)` — and its second operand holds the mask upsampled by
  nearest neighbour in the same layout — row `r = 8·dy + dx`, column `p` is mask cell `(b, 2·hl + dy / 4, 2·wl + dx / 4)`.
  The index arrays `((8·i + j)·128) // 512 = 2·i + j / 4` are evaluated one word at a time; every start index of the two
  gathers is in range, so the gathers' clamp is the identity.
-/
import proofs.«152438_g2000606418805165_pallasbulk_850_2_alg».proof.Proof.Gen.ReferenceIdeal.Frame
import proofs.«152438_g2000606418805165_pallasbulk_850_2_alg».proof.Proof.Spec
import proofs.«152438_g2000606418805165_pallasbulk_850_2_alg».proof.Proof.RefPrefixRun
import proofs.«152438_g2000606418805165_pallasbulk_850_2_alg».proof.Proof.RefPrefixLayout
import proofs.«152438_g2000606418805165_pallasbulk_850_2_alg».proof.Proof.RefPrefixGather
import proofs.«152438_g2000606418805165_pallasbulk_850_2_alg».proof.Proof.RefPrefixWords
import Idealize.ShloMosaic.Lib.ValueIdx
import Idealize.ShloMosaic.Lib.ValueLayout
import Idealize.ShloMosaic.Lib.Pipeline.Value
import Idealize.ShloMosaic.Lib.StableHlo.Run

noncomputable section

namespace Cert.RefPrefix

open Idealize.ShloMosaic Idealize.ShloMosaic.TcCoe Idealize.ShloMosaic.ValueIdx Idealize.SL.Sem
open Cert.ReferenceIdeal Cert.ReferenceIdeal.Gen
open Cert.Lib.Scatter

/-! ## The index arrays, one word at a time -/

/-- The dividend array at `(a, d)` is the word `(8·a + d)·128`. -/
theorem idxPre_apply (a : Fin 64) (d : Fin 8) : idxPre (ix2 a d) = preW a.val d.val := rfl

/-- The floor division of an array by a constant, at an index: the floor division of the word there. -/
theorem fdivArr_apply (X : IVec S64x8 32) (k : BitVec 32) (i : S64x8.Idx) :
    fdivArr X (constantI S_ 32 k) i = fdivW (X i) k := rfl

/-- The wrapped start indices at `(a, d, 0)`: the wrap of the word at `(a, d)`. -/
theorem wrapArr_apply (I : IVec S64x8 32) (a : Fin 64) (d : Fin 8) :
    wrapArr I (ix3 a d (0 : Fin 1)) = normW (I (ix2 a d)) 128#32 := by
  unfold wrapArr
  exact (broadcastInDim_apply (s := S64x8) (t := S64x8x1) ![0, 1] Facts₀.bcast_S64x8_S64x8x1_0_1 _ (ix3 a d (0 : Fin 1)) (ix2 a d)
    (fun a' => match a' with | ⟨0, _⟩ => rfl | ⟨1, _⟩ => rfl)).trans rfl

/-- The start index at `(a, d, 0)` is `2·a + d / 4`. -/
theorem idxArr_apply (a : Fin 64) (d : Fin 8) :
    wrapArr (fdivArr idxPre (constantI S_ 32 512#32)) (ix3 a d (0 : Fin 1)) = BitVec.ofNat 32 (2 * a.val + d.val / 4) := by
  rw [wrapArr_apply, fdivArr_apply, idxPre_apply]
  exact idxWord a.val d.val a.isLt d.isLt

/-! ## The mask in patch layout over arbitrary start indices that are in range -/

theorem mask_read (A : S32x128x128.Idx → EReal) (i1 i2 : IVec S64x8x1 32) (r : Fin 64) (p : Fin 131072)
    (nh nw : Nat) (hnh : nh < 128) (hnw : nw < 128)
    (eh : i1 (ix3 (⟨(p.val / 64) % 64, by omega⟩ : Fin 64) (⟨r.val / 8, by omega⟩ : Fin 8) (0 : Fin 1)) = BitVec.ofNat 32 nh)
    (ew : i2 (ix3 (⟨p.val % 64, by omega⟩ : Fin 64) (⟨r.val % 8, by omega⟩ : Fin 8) (0 : Fin 1)) = BitVec.ofNat 32 nw) :
    shapeCast S64x131072 (transpose S8x8x32x64x64 [2, 4, 0, 1, 3]
        (Host.gather gather_S32x64x8x128_S64x8x1_S32x64x8x64x8_012_3_n_n_3_2_326481
          (Host.gather gather_S32x128x128_S64x8x1_S32x64x8x128_03_1_n_n_1_2_321128 A i1) i2)
        Facts₀.transposes_S32x64x8x64x8_S8x8x32x64x64_2_4_0_1_3)
        Facts₀.shapeCasts_S8x8x32x64x64_S64x131072 (ix2 r p)
      = A (ix3 (⟨p.val / 4096, by omega⟩ : Fin 32) (⟨nh, hnh⟩ : Fin 128) (⟨nw, hnw⟩ : Fin 128)) := by
  refine (maskrows_read _ _ _ r p).trans ?_
  refine (gather_cols_apply Facts₀.gather_S32x64x8x128_S64x8x1_S32x64x8x64x8_012_3_n_n_3_2_326481_wf _ _ _ _ _ _ _).trans ?_
  refine (gather_rows_apply Facts₀.gather_S32x128x128_S64x8x1_S32x64x8x128_03_1_n_n_1_2_321128_wf _ _ _ _ _ _).trans ?_
  refine congrArg A ?_
  funext a
  match a with
  | ⟨0, _⟩ => rfl
  | ⟨1, _⟩ =>
    refine Fin.ext ?_
    show min (i1 _).toInt.toNat 127 = nh
    rw [eh]
    exact clamp_word nh hnh
  | ⟨2, _⟩ =>
    refine Fin.ext ?_
    show min (i2 _).toInt.toNat 127 = nw
    rw [ew]
    exact clamp_word nw hnw

/-! ## The two operands at an index -/

theorem patches_apply (m : (ℓ : Loc nD τ sig) → Buf (Elt Ideal) ℓ) (c : Dev nD) (k : Fin 192) (p : Fin 131072) :
    (V (F := Ideal) m c main_v2 : S192x131072.Idx → EReal) (ix2 k p)
      = (m ((c : Thread nD τ).loc main_arg0) : S32x3x512x512.Idx → EReal)
          (Cert.Spec.imgIdx ⟨p.val / 4096, by omega⟩ ⟨(p.val / 64) % 64, by omega⟩ ⟨p.val % 64, by omega⟩ k) := by
  refine (congrFun (V_v2 m c) (ix2 k p)).trans ?_
  unfold patchesOf
  exact patch_read _ _ _ _ k p

theorem maskrows_apply (m : (ℓ : Loc nD τ sig) → Buf (Elt Ideal) ℓ) (c : Dev nD) (r : Fin 64) (p : Fin 131072) :
    (V (F := Ideal) m c main_v42 : S64x131072.Idx → EReal) (ix2 r p)
      = (m ((c : Thread nD τ).loc main_arg1) : S32x128x128.Idx → EReal)
          (Cert.Spec.maskIdx ⟨p.val / 4096, by omega⟩ ⟨(p.val / 64) % 64, by omega⟩ ⟨p.val % 64, by omega⟩ ⟨r.val, by omega⟩) := by
  have hr := r.isLt
  have hp := p.isLt
  refine (congrFun (V_v42 m c) (ix2 r p)).trans ?_
  unfold maskOf
  refine (mask_read _ _ _ r p (2 * ((p.val / 64) % 64) + r.val / 8 / 4) (2 * (p.val % 64) + r.val % 8 / 4) (by omega) (by omega)
    (idxArr_apply _ _) (idxArr_apply _ _)).trans ?_
  refine congrArg _ ?_
  unfold Cert.Spec.maskIdx
  funext a
  match a with
  | ⟨0, _⟩ => rfl
  | ⟨1, _⟩ =>
    refine Fin.ext ?_
    show 2 * ((p.val / 64) % 64) + r.val / 8 / 4 = 2 * ((p.val / 64) % 64) + (r.val / 32) % 2
    omega
  | ⟨2, _⟩ => rfl

end Cert.RefPrefix

end
-- ==== Proof.RefRun.lean ====
/-
  The reference's run with its two results named: the plain and the masked patch projection of the argument arrays.
-/
import proofs.«152438_g2000606418805165_pallasbulk_850_2_alg».proof.Proof.RefValue
import proofs.«152438_g2000606418805165_pallasbulk_850_2_alg».proof.Proof.RefPrefix

noncomputable section

namespace Cert.RefRun

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The first result: the upper rows of the packed array, read back, are the plain projection. -/
theorem res_plain (c : Dev nD) :
    Pipeline.afterTail₀ cfgs (dats m) 0 (V0 m) [hostOps1] c main_v46
      = Cert.Spec.plain (m ((c : Thread nD τ).loc main_arg0)) (m ((c : Thread nD τ).loc main_arg2)) := by
  rw [Cert.RefTail.tail_plain, Cert.RefArray.final, V_main_arg2]
  exact Cert.RefValue.plain_eq _ _ _ _ (Cert.RefPrefix.patches_apply m c) _

/-- The second result: the lower rows are the masked projection. -/
theorem res_masked (c : Dev nD) :
    Pipeline.afterTail₀ cfgs (dats m) 0 (V0 m) [hostOps1] c main_v49
      = Cert.Spec.masked (m ((c : Thread nD τ).loc main_arg0)) (m ((c : Thread nD τ).loc main_arg1))
          (m ((c : Thread nD τ).loc main_arg2)) := by
  rw [Cert.RefTail.tail_masked, Cert.RefArray.final, V_main_arg2]
  exact Cert.RefValue.masked_eq _ _ _ _ _ (Cert.RefPrefix.patches_apply m c) (Cert.RefPrefix.maskrows_apply m c) _

/-- Every weakly fair execution of the reference terminates with its two results at the plain and the masked projection of
    its arguments, which it leaves unchanged. -/
theorem run : θ_run defs (onTc (τ := τ) (main (F := Ideal))) ⟨m, fun _ => 0, ρ⟩ (fun r => ∀ c : Dev nD,
      r.2.mem ((c.tc : Thread nD τ).loc main_v46)
        = Cert.Spec.plain (m ((c.tc : Thread nD τ).loc main_arg0)) (m ((c.tc : Thread nD τ).loc main_arg2))
      ∧ r.2.mem ((c.tc : Thread nD τ).loc main_v49)
        = Cert.Spec.masked (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v46 (Pipeline.mem_restRefs_of main_v46 (by decide) (by decide))).trans (res_plain m c),
      ((h c).2 main_v49 (Pipeline.mem_restRefs_of main_v49 (by decide) (by decide))).trans (res_masked m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.RefRun

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.Finite.lean ====
/-
  The precondition decoded.  The precondition is the conjunction, over the three argument arrays (the image, the
  mask and the weights), of "every entry has absolute value strictly below +∞": per array the absolute value
  entry by entry, the strict comparison with +∞, and the fold of the results by "and" from 1 over all axes; the
  three results are joined by "and".  When the whole is 1, each of the three folds is 1, so every entry of every
  array is neither +∞ nor -∞: it is a real number.
-/
import proofs.«152438_g2000606418805165_pallasbulk_850_2_alg».proof.Pre_finite_inputs
import proofs.«152438_g2000606418805165_pallasbulk_850_2_alg».proof.Proof.Gen.Pre_finite_inputs
import proofs.«152438_g2000606418805165_pallasbulk_850_2_alg».proof.Proof.LibFiniteAll

noncomputable section

namespace Cert.Finite

open Idealize.ShloMosaic

/-- When the precondition holds, every entry of the image, of the mask and of the weights is a real number. -/
theorem real_of_pre (a0 : FVec Ideal Cert.Pre_finite_inputs.S32x3x512x512 .f32) (a1 : FVec Ideal Cert.Pre_finite_inputs.S32x128x128 .f32) (a2 : FVec Ideal Cert.Pre_finite_inputs.S4x192 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  unfold andi at h0
  obtain ⟨h01, h2⟩ := IntOp.andi_eq_one.1 h0
  obtain ⟨h0', h1⟩ := IntOp.andi_eq_one.1 h01
  exact ⟨fun i => Cert.Lib.FiniteAll.real_of_all a0 _ _ _ h0' i,
    fun i => Cert.Lib.FiniteAll.real_of_all a1 _ _ _ h1 i,
    fun i => Cert.Lib.FiniteAll.real_of_all a2 _ _ _ h2 i⟩

end Cert.Finite

end
-- ==== Proof.lean ====
/-
  The certificate: a fused kernel that projects every 8 × 8 patch of 32 three-channel 512 × 512 images onto four latent
  channels — once plainly and once with every pixel multiplied by a 128 × 128 mask upsampled by nearest neighbour —
  against a reference that first lays the patches out as the columns of a 192 × 131072 matrix and the mask values as a
  64 × 131072 matrix and multiplies by the 4 × 192 weights.

  On the extended reals both programs end with the same two arrays, `Spec.plain` and `Spec.masked` of the arguments
  (`∑ k, w[n, k] · img[b, c, 8·hl + dy, 8·wl + dx]`, masked: each pixel times its mask cell).  The reference computes
  these sums as they stand.  The kernel adds the same products in another order — per pixel column over the channels
  and four pixel rows, then over the pixel columns of a mask cell by a product with a 0/1 matrix, then (after scaling
  by the mask value) over the 2 × 2 cells of a patch — and moving the mask value inside those sums uses the
  distributive law, which holds because the precondition makes every entry a real number.
  The three frames are the generated ones; the idealization rewrote nothing.
-/
import proofs.«152438_g2000606418805165_pallasbulk_850_2_alg».proof.Defs
import proofs.«152438_g2000606418805165_pallasbulk_850_2_alg».proof.Proof.Gen.Kernel
import proofs.«152438_g2000606418805165_pallasbulk_850_2_alg».proof.Proof.Gen.Kernel.Skeleton
import proofs.«152438_g2000606418805165_pallasbulk_850_2_alg».proof.Proof.Gen.Kernel.Launch
import proofs.«152438_g2000606418805165_pallasbulk_850_2_alg».proof.Proof.Gen.Kernel.Points
import proofs.«152438_g2000606418805165_pallasbulk_850_2_alg».proof.Proof.Gen.Kernel.Frame
import proofs.«152438_g2000606418805165_pallasbulk_850_2_alg».proof.Proof.Gen.KernelIdeal
import proofs.«152438_g2000606418805165_pallasbulk_850_2_alg».proof.Proof.Gen.KernelIdeal.Skeleton
import proofs.«152438_g2000606418805165_pallasbulk_850_2_alg».proof.Proof.Gen.KernelIdeal.Launch
import proofs.«152438_g2000606418805165_pallasbulk_850_2_alg».proof.Proof.Gen.KernelIdeal.Points
import proofs.«152438_g2000606418805165_pallasbulk_850_2_alg».proof.Proof.Gen.KernelIdeal.Frame
import proofs.«152438_g2000606418805165_pallasbulk_850_2_alg».proof.Proof.Gen.ReferenceIdeal
import proofs.«152438_g2000606418805165_pallasbulk_850_2_alg».proof.Proof.Gen.ReferenceIdeal.Skeleton
import proofs.«152438_g2000606418805165_pallasbulk_850_2_alg».proof.Proof.Gen.ReferenceIdeal.Launch
import proofs.«152438_g2000606418805165_pallasbulk_850_2_alg».proof.Proof.Gen.ReferenceIdeal.Points
import proofs.«152438_g2000606418805165_pallasbulk_850_2_alg».proof.Proof.Gen.ReferenceIdeal.Frame
import proofs.«152438_g2000606418805165_pallasbulk_850_2_alg».proof.Proof.Gen.Pre_finite_inputs
import proofs.«152438_g2000606418805165_pallasbulk_850_2_alg».proof.Proof.KerRun
import proofs.«152438_g2000606418805165_pallasbulk_850_2_alg».proof.Proof.RefRun
import proofs.«152438_g2000606418805165_pallasbulk_850_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation: nothing to preserve. -/
theorem preserves : Cert.preserves_Kernel_KernelIdeal := trivial

/-- Both programs end at the plain and the masked projection of arguments that agree and are real. -/
theorem algebraic : Cert.algebraic_KernelIdeal_ReferenceIdeal := by
  intro m ρ m' ρ' hpre hagree
  refine ⟨fun c => Cert.Spec.plain (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Cert.Spec.masked (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KerRun.run m ρ (fun c => Cert.Finite.real_of_pre _ _ _ (hpre c)), ?_⟩
  refine (θ_run Cert.ReferenceIdeal.defs _ _).mono (fun r h c => ?_) (Cert.RefRun.run m' ρ')
  obtain ⟨h1, h2, h3, h4, h5⟩ := h c
  obtain ⟨a0, a1, a2⟩ := hagree c
  refine ⟨h1.trans ?_, h2.trans ?_, h3, h4, h5⟩
  · rw [a0, a2]
  · rw [a0, a1, a2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
